-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S8x2048x2048 : Shape := ⟨3, ![8, 2048, 2048]⟩
abbrev S128x128 : Shape := ⟨2, ![128, 128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S8x2048x128 .f32) (main_arg1 : FVec F S8x2048x2048 .f32) (main_arg2 : FVec F S128x128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S8x2048x128 : Shape := ⟨3, ![8, 2048, 128]⟩
abbrev S8x2048x2048 : Shape := ⟨3, ![8, 2048, 2048]⟩
abbrev S128x128 : Shape := ⟨2, ![128, 128]⟩
abbrev S8x2048 : Shape := ⟨2, ![8, 2048]⟩
abbrev S8x256x2048 : Shape := ⟨3, ![8, 256, 2048]⟩
abbrev S8x256 : Shape := ⟨2, ![8, 256]⟩
abbrev S8x256x256 : Shape := ⟨3, ![8, 256, 256]⟩
abbrev S256x256 : Shape := ⟨2, ![256, 256]⟩
abbrev S1x256x256 : Shape := ⟨3, ![1, 256, 256]⟩
abbrev S8x2048x1 : Shape := ⟨3, ![8, 2048, 1]⟩
abbrev S8x256x1024 : Shape := ⟨3, ![8, 256, 1024]⟩
abbrev S8x256x128 : Shape := ⟨3, ![8, 256, 128]⟩
abbrev S8x1024x128 : Shape := ⟨3, ![8, 1024, 128]⟩
abbrev S8x256x1 : Shape := ⟨3, ![8, 256, 1]⟩
abbrev S2048x128 : Shape := ⟨2, ![2048, 128]⟩

abbrev nBuf : Space → Nat
  | .hbm => 10
  | .vmem => 17
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .f32⟩
  | .hbm, ⟨2, _⟩ => ⟨S128x128, .f32⟩
  | .hbm, ⟨3, _⟩ => ⟨S8x2048, .f32⟩
  | .hbm, ⟨4, _⟩ => ⟨S8x2048, .f32⟩
  | .hbm, ⟨5, _⟩ => ⟨S8x2048x1, .f32⟩
  | .hbm, ⟨6, _⟩ => ⟨S8x2048x128, .f32⟩
  | .hbm, ⟨7, _⟩ => ⟨S8x2048x128, .f32⟩
  | .hbm, ⟨8, _⟩ => ⟨S8x2048x128, .bf16⟩
  | .hbm, ⟨9, _⟩ => ⟨S8x2048x128, .f32⟩
  | .local _ .vmem, ⟨0, _⟩ => ⟨S8x256x2048, .f32⟩
  | .local _ .vmem, ⟨1, _⟩ => ⟨S8x256x2048, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256x1024, .f32⟩
  | .local _ .vmem, ⟨7, _⟩ => ⟨S8x256x1024, .f32⟩
  | .local _ .vmem, ⟨8, _⟩ => ⟨S8x2048x128, .bf16⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S8x256, .f32⟩
  | .local _ .vmem, ⟨13, _⟩ => ⟨S128x128, .f32⟩
  | .local _ .vmem, ⟨14, _⟩ => ⟨S8x256x128, .f32⟩
  | .local _ .vmem, ⟨15, _⟩ => ⟨S8x256x128, .f32⟩
  | .local _ .vmem, ⟨16, _⟩ => ⟨S8x256x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c256_i32 : BitVec 32 := 256#32
  let v2 : BitVec 32 := Scalar.muli arg0 c256_i32
  v2
def k0_off1 (i : grid0.Coords) : Fin 3 → Nat :=
  let c0_2 : Index := 0#32
  let c0_3 : Index := 0#32
  let arg0 : BitVec 32 := BitVec.ofNat 32 (i 0).val
  let c256_i32 : BitVec 32 := 256#32
  let v2 : BitVec 32 := Scalar.muli arg0 c256_i32
  let v3 : BitVec 32 := v2
  let v4 : Index := Scalar.indexCast v3
  ![0, 0, v4.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 2], ![false, false]⟩

def k1_mult1 (i : grid1.Coords) : BitVec 32 :=
  let arg1 : BitVec 32 := BitVec.ofNat 32 (i 1).val
  let c1024_i32 : BitVec 32 := 1024#32
  let v5 : BitVec 32 := Scalar.muli arg1 c1024_i32
  v5
def k1_off1 (i : grid1.Coords) : Fin 3 → Nat :=
  let c0_3 : Index := 0#32
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_4 : Index := 0#32
  ![0, v7.toNat, 0]
def k1_cond2 (i : grid1.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_11 : BitVec 32 := 0#32
  let v18 : BitVec 1 := Scalar.cmpi .ne v17 c0_i32_11
  v18

def k1_mult2 (i : grid1.Coords) : BitVec 32 :=
  let arg0 : BitVec 32 := BitVec.ofNat 32 (i 0).val
  let c256_i32 : BitVec 32 := 256#32
  let v23 : BitVec 32 := Scalar.muli arg0 c256_i32
  v23
def k1_off2 (i : grid1.Coords) : Fin 3 → Nat :=
  let c0_16 : Index := 0#32
  let arg0 : BitVec 32 := BitVec.ofNat 32 (i 0).val
  let c256_i32 : BitVec 32 := 256#32
  let v23 : BitVec 32 := Scalar.muli arg0 c256_i32
  let v24 : BitVec 32 := v23
  let v25 : Index := Scalar.indexCast v24
  let c0_17 : Index := 0#32
  ![0, v25.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8x2048x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S8x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S8x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S8x256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S8x256x2048_S8x256x2048_0_0_0 : ∀ a, (![0, 0, 0] : Fin 3 → Nat) a + S8x256x2048.size a ≤ S8x256x2048.size a
  h_S8x256x2048 : 0 < S8x256x2048.numel
  reduces_S8x256x2048_S8x256 : S8x256x2048.Reduces [2] S8x256
  h_S8x256x256 : 0 < S8x256x256.numel
  iota_S256x256_d0_w32 : S256x256.Iotas .tc 32 [0]
  iota_S256x256_d1_w32 : S256x256.Iotas .tc 32 [1]
  natLt_1_32 : 1 < 32
  shapeCasts_S256x256_S1x256x256 : S256x256.ShapeCasts S1x256x256
  broadcasts_S1x256x256_S8x256x256 : S1x256x256.Broadcasts S8x256x256
  reduces_S8x256x256_S8x256 : S8x256x256.Reduces [2] S8x256
  inb_S8x256_S8x256_0_0 : ∀ a, (![0, 0] : Fin 2 → Nat) a + S8x256.size a ≤ S8x256.size a
  h_S8x256 : 0 < S8x256.numel
  bcast_S8x2048_S8x2048x1_0_1 : S8x2048.BroadcastsInDim S8x2048x1 (![0, 1] : Fin 2 → Fin S8x2048x1.rank)
  bcast_S8x2048x1_S8x2048x128_0_1_2 : S8x2048x1.BroadcastsInDim S8x2048x128 (![0, 1, 2] : Fin 3 → Fin S8x2048x128.rank)
  bitsLt_bf16_f32 : FTy.bits .bf16 < FTy.bits .f32
  inb_S8x256x128_S8x256x128_0_0_0 : ∀ a, (![0, 0, 0] : Fin 3 → Nat) a + S8x256x128.size a ≤ S8x256x128.size a
  h_S8x256x128 : 0 < S8x256x128.numel
  shapeCasts_S8x256x128_S8x256x128 : S8x256x128.ShapeCasts S8x256x128
  inb_S8x256x1024_S8x256x1024_0_0_0 : ∀ a, (![0, 0, 0] : Fin 3 → Nat) a + S8x256x1024.size a ≤ S8x256x1024.size a
  h_S8x256x1024 : 0 < S8x256x1024.numel
  h_S8x1024x128 : 0 < S8x1024x128.numel
  shapeCasts_S8x1024x128_S8x1024x128 : S8x1024x128.ShapeCasts S8x1024x128
  shapeCasts_S8x256_S8x256 : S8x256.ShapeCasts S8x256
  shapeCasts_S8x256_S8x256x1 : S8x256.ShapeCasts S8x256x1
  broadcasts_S8x256x1_S8x256x128 : S8x256x1.Broadcasts S8x256x128
  shapeCasts_S8x256x128_S2048x128 : S8x256x128.ShapeCasts S2048x128
  inb_S128x128_S128x128_0_0 : ∀ a, (![0, 0] : Fin 2 → Nat) a + S128x128.size a ≤ S128x128.size a
  h_S128x128 : 0 < S128x128.numel
  shapeCasts_S2048x128_S8x256x128 : S2048x128.ShapeCasts S8x256x128
  dot_S8x256x1024_S8x1024x128_S8x256x128_2_1_1_2_0_0_wf : DotDims.WF S8x256x1024 S8x1024x128 S8x256x128 [2] [1] [1] [2] [0] [0]
  dot_S2048x128_S128x128_S2048x128_1_0_0_1_n_n_wf : DotDims.WF S2048x128 S128x128 S2048x128 [1] [0] [0] [1] [] []
  hrank0 : 0 < grid0.rank
  k0_mult1_dvd : ∀ i : grid0.Coords, 256 ∣ (k0_mult1 i).toNat
  k0_off1_inb : ∀ i : grid0.Coords, ∀ a, (k0_off1 i) a + S8x256x256.size a ≤ S8x256x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x2048.size a ≤ S8x2048x2048.size a
  hwx0_0 : ∀ i : grid0.Coords, EltTy.bits .f32 = 32 ∨ (Rect.block (s := S8x2048x2048) S8x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S8x2048.size a
  hwx0_1 : ∀ i : grid0.Coords, EltTy.bits .f32 = 32 ∨ (Rect.block (s := S8x2048) S8x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S8x2048.size a
  hwx0_2 : ∀ i : grid0.Coords, EltTy.bits .f32 = 32 ∨ (Rect.block (s := S8x2048) S8x256.size (cc0_transform_2 i) (hinb0_2 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S8x1024x128.size a ≤ S8x2048x128.size a
  k1_mult2_dvd : ∀ i : grid1.Coords, ∀ (k1_h2 : k1_cond2 i = 1#1), 256 ∣ (k1_mult2 i).toNat
  k1_off2_inb : ∀ i : grid1.Coords, ∀ (k1_h2 : k1_cond2 i = 1#1), ∀ a, (k1_off2 i) a + S8x256x128.size a ≤ S8x2048x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x1024.size a ≤ S8x2048x2048.size a
  hwx1_0 : ∀ i : grid1.Coords, EltTy.bits .f32 = 32 ∨ (Rect.block (s := S8x2048x2048) S8x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x2048x128.size a ≤ S8x2048x128.size a
  hwx1_1 : ∀ i : grid1.Coords, EltTy.bits .bf16 = 32 ∨ (Rect.block (s := S8x2048x128) S8x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256.size a ≤ S8x2048.size a
  hwx1_2 : ∀ i : grid1.Coords, EltTy.bits .f32 = 32 ∨ (Rect.block (s := S8x2048) S8x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x256.size a ≤ S8x2048.size a
  hwx1_3 : ∀ i : grid1.Coords, EltTy.bits .f32 = 32 ∨ (Rect.block (s := S8x2048) S8x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x256x128.size a ≤ S8x2048x128.size a
  hwx1_5 : ∀ i : grid1.Coords, EltTy.bits .f32 = 32 ∨ (Rect.block (s := S8x2048x128) S8x256x128.size (cc1_transform_5 i) (hinb1_5 i)).WholeWords (EltTy.packing .f32)

variable [Facts₀]

def dot_S8x256x1024_S8x1024x128_S8x256x128_2_1_1_2_0_0 : DotDims S8x256x1024 S8x1024x128 S8x256x128 where
  lhsContracting := [2]
  rhsContracting := [1]
  lhsNonContracting := [1]
  rhsNonContracting := [2]
  lhsBatch := [0]
  rhsBatch := [0]
  wf := dot_S8x256x1024_S8x1024x128_S8x256x128_2_1_1_2_0_0_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg1) S8x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S8x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S8x2048x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S8x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S8x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S8x256x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8x2048x128 : Shape := ⟨3, ![8, 2048, 128]⟩
abbrev S8x2048x2048 : Shape := ⟨3, ![8, 2048, 2048]⟩
abbrev S128x128 : Shape := ⟨2, ![128, 128]⟩
abbrev S2048x2048 : Shape := ⟨2, ![2048, 2048]⟩
abbrev S_ : Shape := ⟨0, ![]⟩
abbrev S1x2048x2048 : Shape := ⟨3, ![1, 2048, 2048]⟩
abbrev S8x2048 : Shape := ⟨2, ![8, 2048]⟩
abbrev S8x2048x1 : Shape := ⟨3, ![8, 2048, 1]⟩
abbrev S8x1x2048 : Shape := ⟨3, ![8, 1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .f32⟩
  | .hbm, ⟨2, _⟩ => ⟨S128x128, .f32⟩
  | .hbm, ⟨3, _⟩ => ⟨S2048x2048, .i32⟩
  | .hbm, ⟨4, _⟩ => ⟨S2048x2048, .i32⟩
  | .hbm, ⟨5, _⟩ => ⟨S_, .i32⟩
  | .hbm, ⟨6, _⟩ => ⟨S2048x2048, .i32⟩
  | .hbm, ⟨7, _⟩ => ⟨S2048x2048, .i32⟩
  | .hbm, ⟨8, _⟩ => ⟨S2048x2048, .i1⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S1x2048x2048, .f32⟩
  | .hbm, ⟨14, _⟩ => ⟨S8x2048x2048, .f32⟩
  | .hbm, ⟨15, _⟩ => ⟨S8x2048x2048, .f32⟩
  | .hbm, ⟨16, _⟩ => ⟨S1x2048x2048, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048, .f32⟩
  | .hbm, ⟨21, _⟩ => ⟨S8x2048, .f32⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S_, .f32⟩
  | .hbm, ⟨26, _⟩ => ⟨S8x2048, .f32⟩
  | .hbm, ⟨27, _⟩ => ⟨S8x2048, .f32⟩
  | .hbm, ⟨28, _⟩ => ⟨S8x2048x1, .f32⟩
  | .hbm, ⟨29, _⟩ => ⟨S8x2048x2048, .f32⟩
  | .hbm, ⟨30, _⟩ => ⟨S8x2048x2048, .f32⟩
  | .hbm, ⟨31, _⟩ => ⟨S8x1x2048, .f32⟩
  | .hbm, ⟨32, _⟩ => ⟨S8x2048x2048, .f32⟩
  | .hbm, ⟨33, _⟩ => ⟨S8x2048x2048, .f32⟩
  | .hbm, ⟨34, _⟩ => ⟨S8x2048x128, .f32⟩
  | .hbm, ⟨35, _⟩ => ⟨S8x2048x128, .f32⟩
  | .hbm, ⟨36, _⟩ => ⟨S_, .f32⟩
  | .hbm, ⟨37, _⟩ => ⟨S8x2048x128, .f32⟩
  | .hbm, ⟨38, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call0_cst : Ref sig .tc := ⟨.hbm, 36, rfl⟩
abbrev main_call0_v0 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  bcast_S_S8x2048x128 : S_.BroadcastsInDim S8x2048x128 (![] : Fin 0 → Fin S8x2048x128.rank)
  dot_S8x2048x2048_S8x2048x128_S8x2048x128_2_1_1_2_0_0_wf : DotDims.WF S8x2048x2048 S8x2048x128 S8x2048x128 [2] [1] [1] [2] [0] [0]
  dot_S8x2048x128_S128x128_S8x2048x128_2_0_01_1_n_n_wf : DotDims.WF S8x2048x128 S128x128 S8x2048x128 [2] [0] [0, 1] [1] [] []

variable [Facts₀]

def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf
def dot_S8x2048x128_S128x128_S8x2048x128_2_0_01_1_n_n : DotDims S8x2048x128 S128x128 S8x2048x128 where
  lhsContracting := [2]
  rhsContracting := [0]
  lhsNonContracting := [0, 1]
  rhsNonContracting := [1]
  lhsBatch := []
  rhsBatch := []
  wf := dot_S8x2048x128_S128x128_S8x2048x128_2_0_01_1_n_n_wf

class Facts : Prop extends Facts₀ where

variable [Facts]
-- ==== Proof.FrameK0.lean ====
/- The first pallas_call of the kernel program (the row-sum kernel), read at region-entry contents `V`:
   what the body leaves in its two output buffers at a grid point, the body's triple, the pipeline's proof
   data and the body obligation. Everything here is generic in the float instance.

   At the point of row block `ni` the body reads the whole [8,256,2048] block of the adjacency array and,
   from the same buffer, the [8,256,256] band of columns 256·ni … 256·ni+255 (the block's own diagonal
   band); it overwrites both [8,256] output buffers whole. Only the band's rectangle depends on the point,
   so the outputs are functions of the point's coordinates and of the input block. -/
import proofs.«181684_j29145648070885_2_alg».proof.Proof.Gen.Kernel.Launch
import proofs.«181684_j29145648070885_2_alg».proof.Proof.Gen.Kernel.Skeleton
import proofs.«181684_j29145648070885_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array
    is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole input block. -/
abbrev rin0 : Rect S8x256x2048 := Rect.unit (s := S8x256x2048) ![0, 0, 0] S8x256x2048.size inb_S8x256x2048_S8x256x2048_0_0_0
/-- The band of 256 columns starting at column 256·ni of the input block, at the point of row block `ni`. -/
abbrev rband0 (i : grid0.Coords) : Rect S8x256x2048 := Rect.unit (s := S8x256x2048) (k0_off1 i) S8x256x256.size (k0_off1_inb i)
/-- A whole output block. -/
abbrev rout0 : Rect S8x256 := Rect.unit (s := S8x256) ![0, 0] S8x256.size inb_S8x256_S8x256_0_0

/-! ## What the body leaves in each output window's buffer -/

/-- Window 1's staging buffer after the body at the point of coordinates `i`, from the input block: its one
    whole-buffer store, whose payload reads the whole block and the band. -/
def out0_1 (i : grid0.Coords) (x0 : Vec F S8x256x2048 .f32) : Vec F S8x256 .f32 :=
  View.canon [⟨rout0, k0_pay2 (View.ld x0 rin0) (View.ld x0 (rband0 i))⟩]

/-- Window 2's staging buffer after the body: its one whole-buffer store, whose payload reads the band. -/
def out0_2 (i : grid0.Coords) (x0 : Vec F S8x256x2048 .f32) : Vec F S8x256 .f32 :=
  View.canon [⟨rout0, k0_pay1 (View.ld x0 (rband0 i))⟩]

/-- One whole-buffer store covers the buffer. -/
theorem cover0 (p0 : Vec F S8x256 .f32) (y : S8x256.Idx) :
    ∃ pc ∈ ([⟨rout0, p0⟩] : List (View.Piece (Elt F) S8x256 .f32)), y ∈ pc.1.set :=
  View.cover_of_tiled [⟨rout0, p0⟩] S8x256.size (by rfl) y

/-! ## The body's triple -/

set_option maxHeartbeats 1000000 in
/-- The kernel body on whole staging memrefs, the input's at read contents `x0` and the outputs' at anything,
    runs to the continuation holding the input's as it was and each output's at its `out0_W` of the input's. -/
theorem sound_kernel0 (c : Dev nD) (E : Set ℕ) (i : grid0.Coords)
    (arg1 : Memref sig .tc .vmem S8x256x2048 .f32) (harg1 : arg1.IsWhole)
    (arg2 : Memref sig .tc .vmem S8x256 .f32) (harg2 : arg2.IsWhole)
    (arg3 : Memref sig .tc .vmem S8x256 .f32) (harg3 : arg3.IsWhole)
    (x0 : Vec F S8x256x2048 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 i x0)
            ∗ owns (c : Thread nD τ) arg3 fullShare (out0_2 i x0)) -∗ K ⟨⟩))
      ⊢ wp frame (wpE (defs₀ (F := F)) Variants.none c none) E (cc0__rowsum_kernel i arg1 harg1 arg2 harg2 arg3 harg3) K := by
  simp only [cc0__rowsum_kernel_eq_skeleton]; unfold cc0__rowsum_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0 _)
  iexists _; isplitr
  swap; · iexact H2
  ipureintro
  exact View.read_writes_eq_canon _ _ _ (cover0 _)

/-! ## The pipeline's proof data -/

/-- The proof data of the pipeline on core `c`: the arrays as the region finds them; after the body at point `t`
    the input's buffer at its block and each output's at its `out0_W` of the input block at the point's
    coordinates; the invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (grid0.coords t) (iblk0 V c 0 t)
    | ⟨2, _⟩ => out0_2 (grid0.coords t) (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (grid0.coords t) (iblk0 V c 0 t) := by dsimp only [dat0]
theorem after0_2 (c : Dev nD) (t : Fin cfg0.N) : (dat0 V c).after 2 t = out0_2 (grid0.coords t) (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's memref holds its block, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.R1BaseK.lean ====
/-
  The second region of the graph convolution: per row block `ni` (256 nodes) and column half `mi` (1024 neighbours),
  the block `adj[:, 256·ni.., 1024·mi..]` times the pre-scaled features' rows `1024·mi..` is added into an accumulator
  the kernel keeps between the two halves — zeroed at `mi = 0` —, and at `mi = 1` the accumulator is corrected on the
  diagonal, scaled by the row block's degree weights, projected and rectified into the output block.
  Here: the windows' blocks as the region finds its arrays, that an input window's buffer holds its block at every
  point, the two branch conditions in closed form over the 16 grid points (`mi = 0` at the even positions, `mi = 1` at
  the odd ones), where the output window is idle (the even positions), and the scoped rest with the accumulator named.
-/
import proofs.«181684_j29145648070885_2_alg».proof.Proof.Gen.Kernel.Launch
import proofs.«181684_j29145648070885_2_alg».proof.Proof.Gen.Kernel.Skeleton
import proofs.«181684_j29145648070885_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not (where it is not
    fetched its block index has not moved), for any proof data whose array is `V`'s and whose body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two branches -/

/-- The first branch (the accumulator is zeroed) is taken when the column half is `0`: -/
abbrev cond1_0 (i : grid1.Coords) : Prop := (Scalar.cmpi .ne (Scalar.extui (Scalar.cmpi .eq (BitVec.ofNat 32 (i 1).val) 0#32)) 0#32) = 1#1
/-- at the even positions of the grid. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second branch (the output block is computed and stored) is taken when the column half is `1`: -/
abbrev cond1_1 (i : grid1.Coords) : Prop := k1_cond2 i = 1#1
/-- at the odd positions. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- At the even positions nothing is stored into the output window: it is idle there, -/
theorem idleAt1_5_A : ∀ t : Fin cfg1.N, cond1_0 (grid1.coords t) → ¬cond1_1 (grid1.coords t) → cfg1.idle 5 (grid1.coords t) = true := by decide +kernel
/-- and its block is not written back. -/
theorem noFlush1_5_A : ∀ t : Fin cfg1.N, cond1_0 (grid1.coords t) → ¬cond1_1 (grid1.coords t) → (cfg1.win 5).flush t = false := by decide +kernel
/-- At the odd positions it is live. -/
theorem liveAt1_5_B : ∀ t : Fin cfg1.N, ¬cond1_0 (grid1.coords t) → cond1_1 (grid1.coords t) → cfg1.idle 5 (grid1.coords t) = false := by decide +kernel

/-! ## The memrefs the body is called with -/

/-- One staging buffer of the output window, through which its contents are stated. -/
abbrev VO1_5 : View sig .tc .vmem S8x256x128 .f32 := (Memref.whole cc1_stg5_0 : Memref sig .tc .vmem S8x256x128 .f32).view
abbrev ms1_0 (t : Fin cfg1.N) : Memref sig .tc .vmem S8x256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x256x128 .f32 := win1_5.stage (cfg1.slots t 5)
abbrev hs1_5 (t : Fin cfg1.N) : (ms1_5 t).IsWhole := hstage1_5 ((cfg1.slots t 5).cast nbuf1_5)
/-- The accumulator: a whole scoped buffer of the kernel's own. -/
abbrev scM1_0 : Memref sig .tc .vmem S8x256x128 .f32 := Memref.whole cc1_scratch0
abbrev VS1_0 : View sig .tc .vmem S8x256x128 .f32 := scM1_0.view

/-- The scoped buffers no window of this region stages: the first region's six staging buffers, each whole at some
    contents, and the accumulator, about which `P` speaks. -/
def scopedWith (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ P)

/-- The region's invariant as the launch hands it over: those buffers with the accumulator at some contents, and the
    generator register at some state. -/
theorem PhiA1_eq (c : Dev nD) :
    (Pipeline.ΦA spec1 c : sProp 𝕄)
      = iprop(scopedWith (F := F) c iprop(∃ d, owns (c : Thread nD τ) scM1_0 fullShare d) ∗ (∃ r, prngReg c r)) := by
  unfold Pipeline.ΦA scopedWith; rw [scopedRest1_eq]; simp only [scM1_0, owns_whole]; try rfl

/-- Whatever is said of the accumulator can be weakened under the other scoped buffers. -/
theorem scopedWith_mono (c : Dev nD) {P Q : sProp 𝕄} (h : P ⊢ Q) : scopedWith (F := F) c P ⊢ scopedWith (F := F) c Q := by
  unfold scopedWith
  iintro ⟨H0, H1, H2, H3, H4, H5, HP⟩
  isplitl [H0]; · iexact H0
  isplitl [H1]; · iexact H1
  isplitl [H2]; · iexact H2
  isplitl [H3]; · iexact H3
  isplitl [H4]; · iexact H4
  isplitl [H5]; · iexact H5
  iapply h; iexact HP

end Cert.Kernel.Hand

end
-- ==== Proof.R1RunAK.lean ====
/-
  The second region's body at a position of column half `0`: the accumulator is zeroed, then the product of the
  adjacency block with the first 1024 rows of the pre-scaled features is added into it; nothing is stored into the
  output window. What the accumulator ends with is found by running the body: its two whole-buffer stores, last first.
-/
import proofs.«181684_j29145648070885_2_alg».proof.Proof.R1BaseK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the first branch is taken and the second is not, on whole memrefs — the inputs' at their contents, the
    output's at contents handed back untouched, the accumulator at anything —: it runs to the continuation holding the
    inputs' and the output's as they were and the accumulator with its pieces written. -/
noncomputable def kernelRun1_A (c : Dev nD) (i : grid1.Coords) (arg2 : Memref sig .tc .vmem S8x256x1024 .f32) (harg2 : arg2.IsWhole) (arg3 : Memref sig .tc .vmem S8x2048x128 .bf16) (harg3 : arg3.IsWhole) (arg4 : Memref sig .tc .vmem S8x256 .f32) (harg4 : arg4.IsWhole) (arg5 : Memref sig .tc .vmem S8x256 .f32) (harg5 : arg5.IsWhole) (arg6 : Memref sig .tc .vmem S128x128 .f32) (harg6 : arg6.IsWhole) (arg7 : Memref sig .tc .vmem S8x256x128 .f32) (harg7 : arg7.IsWhole) (arg8 : Memref sig .tc .vmem S8x256x128 .f32) (harg8 : arg8.IsWhole) (hc0 : cond1_0 i) (hc1 : ¬cond1_1 i)
    (x0 : Vec F S8x256x1024 .f32) (x1 : Vec F S8x2048x128 .bf16) (x2 : Vec F S8x256 .f32) (x3 : Vec F S8x256 .f32) (x4 : Vec F S128x128 .f32) :
    Σ' (L5 : List (View.Piece (Elt F) S8x256x128 .f32)), { LS0 : List (View.Piece (Elt F) S8x256x128 .f32) //
      ∀ (xi5 : Vec F S8x256x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨[], ?_, fun xi5 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.R1RunBK.lean ====
/-
  The second region's body at a position of column half `1`: the product of the adjacency block with the last 1024
  rows of the pre-scaled features is added into the accumulator as the point before left it; then the accumulator is
  read back, corrected by the row block's own pre-scaled features times one minus the diagonal, scaled by the row
  block's degree weights, multiplied into the projection and rectified, and the result stored into the output window.
  What the output window and the accumulator end with is found by running the body.
-/
import proofs.«181684_j29145648070885_2_alg».proof.Proof.R1RunAK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body where the first branch is not taken and the second is, on whole memrefs — the inputs' at their contents, the
    output's at anything, the accumulator at the contents the point before left (`xs0`) —: it runs to the continuation
    holding the inputs' as they were and the output's and the accumulator's each with its pieces written. -/
noncomputable def kernelRun1_B (c : Dev nD) (i : grid1.Coords) (arg2 : Memref sig .tc .vmem S8x256x1024 .f32) (harg2 : arg2.IsWhole) (arg3 : Memref sig .tc .vmem S8x2048x128 .bf16) (harg3 : arg3.IsWhole) (arg4 : Memref sig .tc .vmem S8x256 .f32) (harg4 : arg4.IsWhole) (arg5 : Memref sig .tc .vmem S8x256 .f32) (harg5 : arg5.IsWhole) (arg6 : Memref sig .tc .vmem S128x128 .f32) (harg6 : arg6.IsWhole) (arg7 : Memref sig .tc .vmem S8x256x128 .f32) (harg7 : arg7.IsWhole) (arg8 : Memref sig .tc .vmem S8x256x128 .f32) (harg8 : arg8.IsWhole) (hc0 : ¬cond1_0 i) (hc1 : cond1_1 i)
    (x0 : Vec F S8x256x1024 .f32) (x1 : Vec F S8x2048x128 .bf16) (x2 : Vec F S8x256 .f32) (x3 : Vec F S8x256 .f32) (x4 : Vec F S128x128 .f32) (xs0 : Vec F S8x256x128 .f32) :
    Σ' (L5 : List (View.Piece (Elt F) S8x256x128 .f32)), { LS0 : List (View.Piece (Elt F) S8x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.R1FrameK.lean ====
/-
  The second region's proof data. After the body at grid position `n` (row block `n / 2`, column half `n % 2`):
  at an even position the accumulator holds the first half's product (added to zero) and the output window is idle;
  at an odd position the accumulator holds that plus the second half's product, and the output window holds the
  corrected, scaled, projected and rectified block computed from it. The region's invariant carries the accumulator
  from one position to the next at exactly these contents.
-/
import proofs.«181684_j29145648070885_2_alg».proof.Proof.R1RunBK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At a position of column half `0` nothing is stored into the output window (it is idle there and not written back):
    a placeholder nothing consults. -/
def out1_A_5 (c : Dev nD) (i : grid1.Coords) (arg2 : Memref sig .tc .vmem S8x256x1024 .f32) (harg2 : arg2.IsWhole) (arg3 : Memref sig .tc .vmem S8x2048x128 .bf16) (harg3 : arg3.IsWhole) (arg4 : Memref sig .tc .vmem S8x256 .f32) (harg4 : arg4.IsWhole) (arg5 : Memref sig .tc .vmem S8x256 .f32) (harg5 : arg5.IsWhole) (arg6 : Memref sig .tc .vmem S128x128 .f32) (harg6 : arg6.IsWhole) (arg7 : Memref sig .tc .vmem S8x256x128 .f32) (harg7 : arg7.IsWhole) (arg8 : Memref sig .tc .vmem S8x256x128 .f32) (harg8 : arg8.IsWhole) (hc0 : cond1_0 i) (hc1 : ¬cond1_1 i)
    (x0 : Vec F S8x256x1024 .f32) (x1 : Vec F S8x2048x128 .bf16) (x2 : Vec F S8x256 .f32) (x3 : Vec F S8x256 .f32) (x4 : Vec F S128x128 .f32) : Vec F S8x256x128 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- The accumulator's two whole-buffer stores at such a position cover it. -/
theorem scover1_A_0 (c : Dev nD) (i : grid1.Coords) (arg2 : Memref sig .tc .vmem S8x256x1024 .f32) (harg2 : arg2.IsWhole) (arg3 : Memref sig .tc .vmem S8x2048x128 .bf16) (harg3 : arg3.IsWhole) (arg4 : Memref sig .tc .vmem S8x256 .f32) (harg4 : arg4.IsWhole) (arg5 : Memref sig .tc .vmem S8x256 .f32) (harg5 : arg5.IsWhole) (arg6 : Memref sig .tc .vmem S128x128 .f32) (harg6 : arg6.IsWhole) (arg7 : Memref sig .tc .vmem S8x256x128 .f32) (harg7 : arg7.IsWhole) (arg8 : Memref sig .tc .vmem S8x256x128 .f32) (harg8 : arg8.IsWhole) (hc0 : cond1_0 i) (hc1 : ¬cond1_1 i)
    (x0 : Vec F S8x256x1024 .f32) (x1 : Vec F S8x2048x128 .bf16) (x2 : Vec F S8x256 .f32) (x3 : Vec F S8x256 .f32) (x4 : Vec F S128x128 .f32) (y : S8x256x128.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S8x256x128.size (by sl_kernel_rfl) y

/-- What the accumulator holds after a position of column half `0`. -/
def sout1_A_0 (c : Dev nD) (i : grid1.Coords) (arg2 : Memref sig .tc .vmem S8x256x1024 .f32) (harg2 : arg2.IsWhole) (arg3 : Memref sig .tc .vmem S8x2048x128 .bf16) (harg3 : arg3.IsWhole) (arg4 : Memref sig .tc .vmem S8x256 .f32) (harg4 : arg4.IsWhole) (arg5 : Memref sig .tc .vmem S8x256 .f32) (harg5 : arg5.IsWhole) (arg6 : Memref sig .tc .vmem S128x128 .f32) (harg6 : arg6.IsWhole) (arg7 : Memref sig .tc .vmem S8x256x128 .f32) (harg7 : arg7.IsWhole) (arg8 : Memref sig .tc .vmem S8x256x128 .f32) (harg8 : arg8.IsWhole) (hc0 : cond1_0 i) (hc1 : ¬cond1_1 i)
    (x0 : Vec F S8x256x1024 .f32) (x1 : Vec F S8x2048x128 .bf16) (x2 : Vec F S8x256 .f32) (x3 : Vec F S8x256 .f32) (x4 : Vec F S128x128 .f32) : Vec F S8x256x128 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- At a position of column half `1` the output window's one whole-buffer store covers it. -/
theorem cover1_B_5 (c : Dev nD) (i : grid1.Coords) (arg2 : Memref sig .tc .vmem S8x256x1024 .f32) (harg2 : arg2.IsWhole) (arg3 : Memref sig .tc .vmem S8x2048x128 .bf16) (harg3 : arg3.IsWhole) (arg4 : Memref sig .tc .vmem S8x256 .f32) (harg4 : arg4.IsWhole) (arg5 : Memref sig .tc .vmem S8x256 .f32) (harg5 : arg5.IsWhole) (arg6 : Memref sig .tc .vmem S128x128 .f32) (harg6 : arg6.IsWhole) (arg7 : Memref sig .tc .vmem S8x256x128 .f32) (harg7 : arg7.IsWhole) (arg8 : Memref sig .tc .vmem S8x256x128 .f32) (harg8 : arg8.IsWhole) (hc0 : ¬cond1_0 i) (hc1 : cond1_1 i)
    (x0 : Vec F S8x256x1024 .f32) (x1 : Vec F S8x2048x128 .bf16) (x2 : Vec F S8x256 .f32) (x3 : Vec F S8x256 .f32) (x4 : Vec F S128x128 .f32) (xs0 : Vec F S8x256x128 .f32) (y : S8x256x128.Idx) :
    ∃ pc ∈ (kernelRun1_B c i arg2 harg2 arg3 harg3 arg4 harg4 arg5 harg5 arg6 harg6 arg7 harg7 arg8 harg8 hc0 hc1 x0 x1 x2 x3 x4 xs0).1, y ∈ pc.1.set :=
  View.cover_of_tiledL (kernelRun1_B c i arg2 harg2 arg3 harg3 arg4 harg4 arg5 harg5 arg6 harg6 arg7 harg7 arg8 harg8 hc0 hc1 x0 x1 x2 x3 x4 xs0).1 S8x256x128.size (by sl_kernel_rfl) y

/-- What the output window's buffer holds after such a position. -/
def out1_B_5 (c : Dev nD) (i : grid1.Coords) (arg2 : Memref sig .tc .vmem S8x256x1024 .f32) (harg2 : arg2.IsWhole) (arg3 : Memref sig .tc .vmem S8x2048x128 .bf16) (harg3 : arg3.IsWhole) (arg4 : Memref sig .tc .vmem S8x256 .f32) (harg4 : arg4.IsWhole) (arg5 : Memref sig .tc .vmem S8x256 .f32) (harg5 : arg5.IsWhole) (arg6 : Memref sig .tc .vmem S128x128 .f32) (harg6 : arg6.IsWhole) (arg7 : Memref sig .tc .vmem S8x256x128 .f32) (harg7 : arg7.IsWhole) (arg8 : Memref sig .tc .vmem S8x256x128 .f32) (harg8 : arg8.IsWhole) (hc0 : ¬cond1_0 i) (hc1 : cond1_1 i)
    (x0 : Vec F S8x256x1024 .f32) (x1 : Vec F S8x2048x128 .bf16) (x2 : Vec F S8x256 .f32) (x3 : Vec F S8x256 .f32) (x4 : Vec F S128x128 .f32) (xs0 : Vec F S8x256x128 .f32) : Vec F S8x256x128 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- The accumulator's one whole-buffer store at such a position covers it. -/
theorem scover1_B_0 (c : Dev nD) (i : grid1.Coords) (arg2 : Memref sig .tc .vmem S8x256x1024 .f32) (harg2 : arg2.IsWhole) (arg3 : Memref sig .tc .vmem S8x2048x128 .bf16) (harg3 : arg3.IsWhole) (arg4 : Memref sig .tc .vmem S8x256 .f32) (harg4 : arg4.IsWhole) (arg5 : Memref sig .tc .vmem S8x256 .f32) (harg5 : arg5.IsWhole) (arg6 : Memref sig .tc .vmem S128x128 .f32) (harg6 : arg6.IsWhole) (arg7 : Memref sig .tc .vmem S8x256x128 .f32) (harg7 : arg7.IsWhole) (arg8 : Memref sig .tc .vmem S8x256x128 .f32) (harg8 : arg8.IsWhole) (hc0 : ¬cond1_0 i) (hc1 : cond1_1 i)
    (x0 : Vec F S8x256x1024 .f32) (x1 : Vec F S8x2048x128 .bf16) (x2 : Vec F S8x256 .f32) (x3 : Vec F S8x256 .f32) (x4 : Vec F S128x128 .f32) (xs0 : Vec F S8x256x128 .f32) (y : S8x256x128.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S8x256x128.size (by sl_kernel_rfl) y

/-- What the accumulator holds after a position of column half `1`. -/
def sout1_B_0 (c : Dev nD) (i : grid1.Coords) (arg2 : Memref sig .tc .vmem S8x256x1024 .f32) (harg2 : arg2.IsWhole) (arg3 : Memref sig .tc .vmem S8x2048x128 .bf16) (harg3 : arg3.IsWhole) (arg4 : Memref sig .tc .vmem S8x256 .f32) (harg4 : arg4.IsWhole) (arg5 : Memref sig .tc .vmem S8x256 .f32) (harg5 : arg5.IsWhole) (arg6 : Memref sig .tc .vmem S128x128 .f32) (harg6 : arg6.IsWhole) (arg7 : Memref sig .tc .vmem S8x256x128 .f32) (harg7 : arg7.IsWhole) (arg8 : Memref sig .tc .vmem S8x256x128 .f32) (harg8 : arg8.IsWhole) (hc0 : ¬cond1_0 i) (hc1 : cond1_1 i)
    (x0 : Vec F S8x256x1024 .f32) (x1 : Vec F S8x2048x128 .bf16) (x2 : Vec F S8x256 .f32) (x3 : Vec F S8x256 .f32) (x4 : Vec F S128x128 .f32) (xs0 : Vec F S8x256x128 .f32) : Vec F S8x256x128 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

section
variable (V : (c : Dev nD) → (b : Ref sig .tc) → Buf (Elt F) ((c : Thread nD τ).loc b))

/-! ## What the output window and the accumulator hold after each position -/

/-- THE ACCUMULATION: the output window's buffer and the accumulator after the body at position `n` — the case of `n`'s
    parity, run at the position's memrefs and input blocks, the accumulator at an odd position starting from what the
    position before left. -/
def outsAt1 (c : Dev nD) : (n : ℕ) → n < cfg1.N → Vec F S8x256x128 .f32 × Vec F S8x256x128 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 2 = 0 then
      (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
        sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr (show (n + 1) % 2 = 1 by omega)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2,
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr (show (n + 1) % 2 = 1 by omega)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at an even position: the first case's contents. -/
theorem outsAt1_A (c : Dev nD) (t : Fin cfg1.N) (h0 : t.val % 2 = 0) (h1 : ¬t.val % 2 = 1) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t),
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans rfl

/-- `outsAt1` at an odd position: the second case's contents, over what the position before left in the accumulator. -/
theorem outsAt1_B (c : Dev nD) (t : Fin cfg1.N) (h0 : ¬t.val % 2 = 0) (h1 : t.val % 2 = 1) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant -/

/-- The region's invariant before position `n`: before the first one what the launch hands over (the accumulator at
    anything); afterwards the accumulator at what the position before left in it. -/
def PhiS (c : Dev nD) : (n : ℕ) → n ≤ cfg1.N → sProp 𝕄
  | 0, _ => Pipeline.ΦA spec1 c
  | n + 1, hn => iprop(scopedWith (F := F) c (owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scopedWith (F := F) c (owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(scopedWith (F := F) c (owns (c : Thread nD τ) scM1_0 fullShare ((outsAt1 V c (n - 1) (by omega)).2)) ∗ (∃ r, prngReg c r)) := by
  cases n with
  | zero => exact absurd rfl hz
  | succ n => rfl

/-! ## The proof data -/

/-- The second region's proof data on core `c`: its arrays as the region finds them; after the body at a position each
    input's buffer at its block and the output's at `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic position -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any position: the inputs' memrefs hold their blocks; the position's parity says which case it is in; the
    invariant hands the body the accumulator at what the position before left (at anything at the first position) and
    takes it back at this position's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 2 = 0
  · have h1 : ¬t.val % 2 = 1 := by omega
    rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
    rw [outsAt1_A V c t h0 h1]
    unfold sout1_A_0; (try dsimp only)
    by_cases hz : t.val = 0
    · rw [PhiS_castSucc V c t, PhiS_zero V c _ _ hz, PhiA1_eq]
      unfold scopedWith
      iintro ⟨⟨⟨Hs0, Hs1, Hs2, Hs3, Hs4, Hs5, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [Hs0 Hs1 Hs2 Hs3 Hs4 Hs5 HS0 Hg]
      · isplitl [Hs0 Hs1 Hs2 Hs3 Hs4 Hs5 HS0]
        · isplitl [Hs0]; · iexact Hs0
          isplitl [Hs1]; · iexact Hs1
          isplitl [Hs2]; · iexact Hs2
          isplitl [Hs3]; · iexact Hs3
          isplitl [Hs4]; · iexact Hs4
          isplitl [Hs5]; · iexact Hs5
          unfold owns; iexists _; isplitr
          swap; · iexact HS0
          ipureintro; exact View.read_writes_of_cover _ _ _ _ _ (scover1_A_0 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      unfold scopedWith
      iintro ⟨⟨⟨Hs0, Hs1, Hs2, Hs3, Hs4, Hs5, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [Hs0 Hs1 Hs2 Hs3 Hs4 Hs5 HS0 Hg]
      · isplitl [Hs0 Hs1 Hs2 Hs3 Hs4 Hs5 HS0]
        · isplitl [Hs0]; · iexact Hs0
          isplitl [Hs1]; · iexact Hs1
          isplitl [Hs2]; · iexact Hs2
          isplitl [Hs3]; · iexact Hs3
          isplitl [Hs4]; · iexact Hs4
          isplitl [Hs5]; · iexact Hs5
          unfold owns; iexists _; isplitr
          swap; · iexact HS0
          ipureintro; exact View.read_writes_of_cover _ _ _ _ _ (scover1_A_0 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have h1 : t.val % 2 = 1 := by omega
    rw [show (dat1 V c).leavesExact 5 t = owns (c : Thread nD τ) (ms1_5 t) fullShare ((dat1 V c).after 5 t) from by
      unfold Dat.leavesExact; rw [liveAt1_5_B t (fun h => h0 ((hcond1_0 t).mp h)) ((hcond1_1 t).mpr h1)], after1_5]
    rw [outsAt1_B V c t h0 h1]
    unfold out1_B_5 sout1_B_0; (try dsimp only)
    have hz : t.val ≠ 0 := by omega
    rw [PhiS_castSucc V c t, PhiS_pos V c _ _ hz]
    unfold scopedWith
    iintro ⟨⟨⟨Hs0, Hs1, Hs2, Hs3, Hs4, Hs5, HS0⟩, Hg⟩, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [Hs0 Hs1 Hs2 Hs3 Hs4 Hs5 HS0 Hg]
    · isplitl [Hs0 Hs1 Hs2 Hs3 Hs4 Hs5 HS0]
      · isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        unfold owns; iexists _; isplitr
        swap; · iexact HS0
        ipureintro; exact View.read_writes_of_cover _ _ _ _ _ (scover1_B_0 c _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_B_5 c _ _ _ _ _ _ _ _ _ _ _ _ _ _ _ _ _ _ _ _ _ _ _)

/-- The library's body obligation, at every position. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.R1InOutK.lean ====
/-
  The second region's invariant at the region's two ends: what the launch hands over is the invariant before the first
  position, and after any later position the invariant gives that form back, the accumulator's contents forgotten.
-/
import proofs.«181684_j29145648070885_2_alg».proof.Proof.R1FrameK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator at named contents is the accumulator at some contents. -/
theorem scopedWith_forget (c : Dev nD) (x : Vec F S8x256x128 .f32) :
    scopedWith (F := F) c (owns (c : Thread nD τ) scM1_0 fullShare x) ⊢ scopedWith (F := F) c iprop(∃ d, owns (c : Thread nD τ) scM1_0 fullShare d) :=
  scopedWith_mono c (by iintro H; iexists x; iexact H)

section
variable (V : (c : Dev nD) → (b : Ref sig .tc) → Buf (Elt F) ((c : Thread nD τ).loc b))

/-- What the launch hands the region is the invariant before the first position. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any position but the first the invariant gives the launch's form back. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HS0, Hg⟩
  isplitl [HS0]
  · iapply (scopedWith_forget (F := F) c _); iexact HS0
  iexact Hg

/-- The same after the last position. -/
theorem hout1 (c : Dev nD) : (dat1 V c).Φ (Fin.last cfg1.N) ⊢ Pipeline.ΦA spec1 c :=
  Phi_out1 V c _ (by rw [Fin.val_last]; have : cfg1.N = 16 := N_1; omega)

end

end Cert.Kernel.Hand

end
-- ==== Proof.RunK.lean ====
/-
  The whole run of the two-pass graph convolution: the first region (row sums and diagonal, the degree weights), the
  host lines that scale the features by the degree weights, the second region (the normalised aggregation, projected
  and rectified). The buffers' contents at each boundary are a fold from the launch memory: a region's arrays at what
  its write-backs leave, a host stretch's results at its operations' values; each region is entered from the
  contents the item before it left, and the last boundary's contents are read off the final memory.
-/
import proofs.«181684_j29145648070885_2_alg».proof.Proof.FrameK0
import proofs.«181684_j29145648070885_2_alg».proof.Proof.R1InOutK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
/-- The same read at the TensorCore's references. -/
abbrev VA : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (VA m ρ) c).arrAt w cfg0.N
theorem W1_arr (c : Dev nD) (w : Fin cfg0.W) :
    W1 m ρ c (Proc.devRef .tc (Pipeline.arrRef spec0 w)) = (dat0 (VA m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VB : (c : Dev nD) → (b : Ref sig .tc) → Buf (Elt F) ((c : Thread nD τ).loc b) := fun c b => W1 m ρ c b
theorem hF0 (c : Dev nD) (w : Fin cfg0.W) : (dat0 (VA m ρ) c).arrAt w cfg0.N = VB m ρ c (Pipeline.arrRef spec0 w) :=
  (W1_arr m ρ c w).symm
theorem hrest0 (c : Dev nD) : ∀ b, b ∉ Finset.univ.image (Pipeline.arrRef spec0) → VB m ρ c b = VA m ρ c b :=
  fun b hb => W1_of_ne m ρ c b fun w e => hb (Finset.mem_image.mpr ⟨w, Finset.mem_univ _, e⟩)

/-- After the host lines between the regions (the second region's entry). -/
abbrev W2 : Dev nD → Valuation τ sig (Elt F) := fun c => StableHlo.after hostOps1 (W1 m ρ c)
abbrev VC : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (dat1 (VC m ρ) c).arrAt w cfg1.N
theorem W3_arr (c : Dev nD) (w : Fin cfg1.W) :
    W3 m ρ c (Proc.devRef .tc (Pipeline.arrRef spec1 w)) = (dat1 (VC m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev VD : (c : Dev nD) → (b : Ref sig .tc) → Buf (Elt F) ((c : Thread nD τ).loc b) := fun c b => W3 m ρ c b
theorem hF1 (c : Dev nD) (w : Fin cfg1.W) : (dat1 (VC m ρ) c).arrAt w cfg1.N = VD m ρ c (Pipeline.arrRef spec1 w) :=
  (W3_arr m ρ c w).symm
theorem hrest1 (c : Dev nD) : ∀ b, b ∉ Finset.univ.image (Pipeline.arrRef spec1) → VD m ρ c b = VC m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VA m ρ) c
  | ⟨1, _⟩ => fun c => dat1 (VC m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region over the thread state: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VA m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VA m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VA m ρ c) (VB m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`; the generator
    register and the scoped rest go into the region's invariant (the accumulator at anything) and come back out of it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VC m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VC m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VC m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
          ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h.trans (hin1 (VC m ρ) c)
  hout c := by
    rw [Pipeline.ownSems0_none]
    have h : (Pipeline.ΦA spec1 c : sProp 𝕄) ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (VC m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VC m ρ c) (VD m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN, at any float instance: from any memory with zero counters every weakly fair execution of @main on the
    TensorCores terminates, nothing faulting, and every final memory holds every unscoped buffer at the last
    boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Hand

end
-- ==== Proof.ArgsKeptK.lean ====
/- The argument arrays end as launched.

   The features are no array of either region and no host line writes them; the adjacency is the input window 0 of
   both regions, never written back; the projection is the input window 4 of the second region and no array of the
   first. So the fold of the buffers' contents, read at an argument, walks back to the launch memory, and the run's
   last boundary holds every argument at its launch contents. -/
import proofs.«181684_j29145648070885_2_alg».proof.Proof.RunK
import proofs.«181684_j29145648070885_2_alg».proof.Proof.Gen.Kernel.Regions

set_option maxRecDepth 16384

noncomputable section

namespace Cert.Kernel.Hand

open Cert.Kernel Cert.Kernel.Gen
open Idealize.ShloMosaic Idealize.ShloMosaic.TcCoe Idealize.SL.Sem
open Idealize.ShloMosaic.Pipeline (Dat)

variable {F : FTy → Type} [FloatOps F] (m : (ℓ : Loc nD τ sig) → Buf (Elt F) ℓ) (ρ : Dev nD → PrngReg)

/-- A buffer the host lines between the regions do not write is, after them, as the first region left it. -/
theorem W2_of_not_written (c : Dev nD) (r : Ref sig .tc) (h : r ∉ Cert.Kernel.Gen.hostOps1_W) :
    W2 m ρ c (Proc.devRef .tc r) = W1 m ρ c (Proc.devRef .tc r) :=
  StableHlo.after_of_writes_sub hostOps1 (W1 m ρ c) Cert.Kernel.Gen.hostOps1_writes h

/-- The features: no region's array, written by no host line. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_not_written m ρ c main_arg0 (by decide)
    _ = W0 m ρ c (Proc.devRef .tc main_arg0) := W1_of_ne m ρ c main_arg0 (by decide)
    _ = m ((c : Thread nD τ).loc main_arg0) := rfl

/-- The adjacency: the input window 0 of both regions. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) :=
        (W3_arr m ρ c 0).trans (((dat1 (VC m ρ) c).arrAt_in 0 rfl _).trans (A_eq1 (VC m ρ) c 0))
    _ = W1 m ρ c (Proc.devRef .tc main_arg1) := W2_of_not_written m ρ c main_arg1 (by decide)
    _ = W0 m ρ c (Proc.devRef .tc main_arg1) :=
        (W1_arr m ρ c 0).trans (((dat0 (VA m ρ) c).arrAt_in 0 rfl _).trans (A_eq0 (VA m ρ) c 0))
    _ = m ((c : Thread nD τ).loc main_arg1) := rfl

/-- The projection: the input window 4 of the second region, no array of the first. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) :=
        (W3_arr m ρ c 4).trans (((dat1 (VC m ρ) c).arrAt_in 4 rfl _).trans (A_eq1 (VC m ρ) c 4))
    _ = W1 m ρ c (Proc.devRef .tc main_arg2) := W2_of_not_written m ρ c main_arg2 (by decide)
    _ = W0 m ρ c (Proc.devRef .tc main_arg2) := W1_of_ne m ρ c main_arg2 (by decide)
    _ = m ((c : Thread nD τ).loc main_arg2) := rfl

/-- The frame, at any float instance: every weakly fair execution terminates, nothing faulting, with the three
    argument arrays at their launch contents. -/
theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)
    (run_all m ρ)

end Cert.Kernel.Hand

end
-- ==== Proof.FrameI0.lean ====
/- The first pallas_call of the kernel program (the row-sum kernel), read at region-entry contents `V`:
   what the body leaves in its two output buffers at a grid point, the body's triple, the pipeline's proof
   data and the body obligation. Everything here is generic in the float instance.

   At the point of row block `ni` the body reads the whole [8,256,2048] block of the adjacency array and,
   from the same buffer, the [8,256,256] band of columns 256·ni … 256·ni+255 (the block's own diagonal
   band); it overwrites both [8,256] output buffers whole. Only the band's rectangle depends on the point,
   so the outputs are functions of the point's coordinates and of the input block. -/
import proofs.«181684_j29145648070885_2_alg».proof.Proof.Gen.KernelIdeal.Launch
import proofs.«181684_j29145648070885_2_alg».proof.Proof.Gen.KernelIdeal.Skeleton
import proofs.«181684_j29145648070885_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array
    is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole input block. -/
abbrev rin0 : Rect S8x256x2048 := Rect.unit (s := S8x256x2048) ![0, 0, 0] S8x256x2048.size inb_S8x256x2048_S8x256x2048_0_0_0
/-- The band of 256 columns starting at column 256·ni of the input block, at the point of row block `ni`. -/
abbrev rband0 (i : grid0.Coords) : Rect S8x256x2048 := Rect.unit (s := S8x256x2048) (k0_off1 i) S8x256x256.size (k0_off1_inb i)
/-- A whole output block. -/
abbrev rout0 : Rect S8x256 := Rect.unit (s := S8x256) ![0, 0] S8x256.size inb_S8x256_S8x256_0_0

/-! ## What the body leaves in each output window's buffer -/

/-- Window 1's staging buffer after the body at the point of coordinates `i`, from the input block: its one
    whole-buffer store, whose payload reads the whole block and the band. -/
def out0_1 (i : grid0.Coords) (x0 : Vec F S8x256x2048 .f32) : Vec F S8x256 .f32 :=
  View.canon [⟨rout0, k0_pay2 (View.ld x0 rin0) (View.ld x0 (rband0 i))⟩]

/-- Window 2's staging buffer after the body: its one whole-buffer store, whose payload reads the band. -/
def out0_2 (i : grid0.Coords) (x0 : Vec F S8x256x2048 .f32) : Vec F S8x256 .f32 :=
  View.canon [⟨rout0, k0_pay1 (View.ld x0 (rband0 i))⟩]

/-- One whole-buffer store covers the buffer. -/
theorem cover0 (p0 : Vec F S8x256 .f32) (y : S8x256.Idx) :
    ∃ pc ∈ ([⟨rout0, p0⟩] : List (View.Piece (Elt F) S8x256 .f32)), y ∈ pc.1.set :=
  View.cover_of_tiled [⟨rout0, p0⟩] S8x256.size (by rfl) y

/-! ## The body's triple -/

set_option maxHeartbeats 1000000 in
/-- The kernel body on whole staging memrefs, the input's at read contents `x0` and the outputs' at anything,
    runs to the continuation holding the input's as it was and each output's at its `out0_W` of the input's. -/
theorem sound_kernel0 (c : Dev nD) (E : Set ℕ) (i : grid0.Coords)
    (arg1 : Memref sig .tc .vmem S8x256x2048 .f32) (harg1 : arg1.IsWhole)
    (arg2 : Memref sig .tc .vmem S8x256 .f32) (harg2 : arg2.IsWhole)
    (arg3 : Memref sig .tc .vmem S8x256 .f32) (harg3 : arg3.IsWhole)
    (x0 : Vec F S8x256x2048 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 i x0)
            ∗ owns (c : Thread nD τ) arg3 fullShare (out0_2 i x0)) -∗ K ⟨⟩))
      ⊢ wp frame (wpE (defs₀ (F := F)) Variants.none c none) E (cc0__rowsum_kernel i arg1 harg1 arg2 harg2 arg3 harg3) K := by
  simp only [cc0__rowsum_kernel_eq_skeleton]; unfold cc0__rowsum_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0 _)
  iexists _; isplitr
  swap; · iexact H2
  ipureintro
  exact View.read_writes_eq_canon _ _ _ (cover0 _)

/-! ## The pipeline's proof data -/

/-- The proof data of the pipeline on core `c`: the arrays as the region finds them; after the body at point `t`
    the input's buffer at its block and each output's at its `out0_W` of the input block at the point's
    coordinates; the invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (grid0.coords t) (iblk0 V c 0 t)
    | ⟨2, _⟩ => out0_2 (grid0.coords t) (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (grid0.coords t) (iblk0 V c 0 t) := by dsimp only [dat0]
theorem after0_2 (c : Dev nD) (t : Fin cfg0.N) : (dat0 V c).after 2 t = out0_2 (grid0.coords t) (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's memref holds its block, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.R1Base.lean ====
/-
  The second region of the graph convolution: per row block `ni` (256 nodes) and column half `mi` (1024 neighbours),
  the block `adj[:, 256·ni.., 1024·mi..]` times the pre-scaled features' rows `1024·mi..` is added into an accumulator
  the kernel keeps between the two halves — zeroed at `mi = 0` —, and at `mi = 1` the accumulator is corrected on the
  diagonal, scaled by the row block's degree weights, projected and rectified into the output block.
  Here: the windows' blocks as the region finds its arrays, that an input window's buffer holds its block at every
  point, the two branch conditions in closed form over the 16 grid points (`mi = 0` at the even positions, `mi = 1` at
  the odd ones), where the output window is idle (the even positions), and the scoped rest with the accumulator named.
-/
import proofs.«181684_j29145648070885_2_alg».proof.Proof.Gen.KernelIdeal.Launch
import proofs.«181684_j29145648070885_2_alg».proof.Proof.Gen.KernelIdeal.Skeleton
import proofs.«181684_j29145648070885_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not (where it is not
    fetched its block index has not moved), for any proof data whose array is `V`'s and whose body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two branches -/

/-- The first branch (the accumulator is zeroed) is taken when the column half is `0`: -/
abbrev cond1_0 (i : grid1.Coords) : Prop := (Scalar.cmpi .ne (Scalar.extui (Scalar.cmpi .eq (BitVec.ofNat 32 (i 1).val) 0#32)) 0#32) = 1#1
/-- at the even positions of the grid. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second branch (the output block is computed and stored) is taken when the column half is `1`: -/
abbrev cond1_1 (i : grid1.Coords) : Prop := k1_cond2 i = 1#1
/-- at the odd positions. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- At the even positions nothing is stored into the output window: it is idle there, -/
theorem idleAt1_5_A : ∀ t : Fin cfg1.N, cond1_0 (grid1.coords t) → ¬cond1_1 (grid1.coords t) → cfg1.idle 5 (grid1.coords t) = true := by decide +kernel
/-- and its block is not written back. -/
theorem noFlush1_5_A : ∀ t : Fin cfg1.N, cond1_0 (grid1.coords t) → ¬cond1_1 (grid1.coords t) → (cfg1.win 5).flush t = false := by decide +kernel
/-- At the odd positions it is live. -/
theorem liveAt1_5_B : ∀ t : Fin cfg1.N, ¬cond1_0 (grid1.coords t) → cond1_1 (grid1.coords t) → cfg1.idle 5 (grid1.coords t) = false := by decide +kernel

/-! ## The memrefs the body is called with -/

/-- One staging buffer of the output window, through which its contents are stated. -/
abbrev VO1_5 : View sig .tc .vmem S8x256x128 .f32 := (Memref.whole cc1_stg5_0 : Memref sig .tc .vmem S8x256x128 .f32).view
abbrev ms1_0 (t : Fin cfg1.N) : Memref sig .tc .vmem S8x256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x256x128 .f32 := win1_5.stage (cfg1.slots t 5)
abbrev hs1_5 (t : Fin cfg1.N) : (ms1_5 t).IsWhole := hstage1_5 ((cfg1.slots t 5).cast nbuf1_5)
/-- The accumulator: a whole scoped buffer of the kernel's own. -/
abbrev scM1_0 : Memref sig .tc .vmem S8x256x128 .f32 := Memref.whole cc1_scratch0
abbrev VS1_0 : View sig .tc .vmem S8x256x128 .f32 := scM1_0.view

/-- The scoped buffers no window of this region stages: the first region's six staging buffers, each whole at some
    contents, and the accumulator, about which `P` speaks. -/
def scopedWith (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ P)

/-- The region's invariant as the launch hands it over: those buffers with the accumulator at some contents, and the
    generator register at some state. -/
theorem PhiA1_eq (c : Dev nD) :
    (Pipeline.ΦA spec1 c : sProp 𝕄)
      = iprop(scopedWith (F := F) c iprop(∃ d, owns (c : Thread nD τ) scM1_0 fullShare d) ∗ (∃ r, prngReg c r)) := by
  unfold Pipeline.ΦA scopedWith; rw [scopedRest1_eq]; simp only [scM1_0, owns_whole]; try rfl

/-- Whatever is said of the accumulator can be weakened under the other scoped buffers. -/
theorem scopedWith_mono (c : Dev nD) {P Q : sProp 𝕄} (h : P ⊢ Q) : scopedWith (F := F) c P ⊢ scopedWith (F := F) c Q := by
  unfold scopedWith
  iintro ⟨H0, H1, H2, H3, H4, H5, HP⟩
  isplitl [H0]; · iexact H0
  isplitl [H1]; · iexact H1
  isplitl [H2]; · iexact H2
  isplitl [H3]; · iexact H3
  isplitl [H4]; · iexact H4
  isplitl [H5]; · iexact H5
  iapply h; iexact HP

end Cert.KernelIdeal.Hand

end
-- ==== Proof.R1RunA.lean ====
/-
  The second region's body at a position of column half `0`: the accumulator is zeroed, then the product of the
  adjacency block with the first 1024 rows of the pre-scaled features is added into it; nothing is stored into the
  output window. What the accumulator ends with is found by running the body: its two whole-buffer stores, last first.
-/
import proofs.«181684_j29145648070885_2_alg».proof.Proof.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the first branch is taken and the second is not, on whole memrefs — the inputs' at their contents, the
    output's at contents handed back untouched, the accumulator at anything —: it runs to the continuation holding the
    inputs' and the output's as they were and the accumulator with its pieces written. -/
noncomputable def kernelRun1_A (c : Dev nD) (i : grid1.Coords) (arg2 : Memref sig .tc .vmem S8x256x1024 .f32) (harg2 : arg2.IsWhole) (arg3 : Memref sig .tc .vmem S8x2048x128 .bf16) (harg3 : arg3.IsWhole) (arg4 : Memref sig .tc .vmem S8x256 .f32) (harg4 : arg4.IsWhole) (arg5 : Memref sig .tc .vmem S8x256 .f32) (harg5 : arg5.IsWhole) (arg6 : Memref sig .tc .vmem S128x128 .f32) (harg6 : arg6.IsWhole) (arg7 : Memref sig .tc .vmem S8x256x128 .f32) (harg7 : arg7.IsWhole) (arg8 : Memref sig .tc .vmem S8x256x128 .f32) (harg8 : arg8.IsWhole) (hc0 : cond1_0 i) (hc1 : ¬cond1_1 i)
    (x0 : Vec F S8x256x1024 .f32) (x1 : Vec F S8x2048x128 .bf16) (x2 : Vec F S8x256 .f32) (x3 : Vec F S8x256 .f32) (x4 : Vec F S128x128 .f32) :
    Σ' (L5 : List (View.Piece (Elt F) S8x256x128 .f32)), { LS0 : List (View.Piece (Elt F) S8x256x128 .f32) //
      ∀ (xi5 : Vec F S8x256x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨[], ?_, fun xi5 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.R1RunB.lean ====
/-
  The second region's body at a position of column half `1`: the product of the adjacency block with the last 1024
  rows of the pre-scaled features is added into the accumulator as the point before left it; then the accumulator is
  read back, corrected by the row block's own pre-scaled features times one minus the diagonal, scaled by the row
  block's degree weights, multiplied into the projection and rectified, and the result stored into the output window.
  What the output window and the accumulator end with is found by running the body.
-/
import proofs.«181684_j29145648070885_2_alg».proof.Proof.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body where the first branch is not taken and the second is, on whole memrefs — the inputs' at their contents, the
    output's at anything, the accumulator at the contents the point before left (`xs0`) —: it runs to the continuation
    holding the inputs' as they were and the output's and the accumulator's each with its pieces written. -/
noncomputable def kernelRun1_B (c : Dev nD) (i : grid1.Coords) (arg2 : Memref sig .tc .vmem S8x256x1024 .f32) (harg2 : arg2.IsWhole) (arg3 : Memref sig .tc .vmem S8x2048x128 .bf16) (harg3 : arg3.IsWhole) (arg4 : Memref sig .tc .vmem S8x256 .f32) (harg4 : arg4.IsWhole) (arg5 : Memref sig .tc .vmem S8x256 .f32) (harg5 : arg5.IsWhole) (arg6 : Memref sig .tc .vmem S128x128 .f32) (harg6 : arg6.IsWhole) (arg7 : Memref sig .tc .vmem S8x256x128 .f32) (harg7 : arg7.IsWhole) (arg8 : Memref sig .tc .vmem S8x256x128 .f32) (harg8 : arg8.IsWhole) (hc0 : ¬cond1_0 i) (hc1 : cond1_1 i)
    (x0 : Vec F S8x256x1024 .f32) (x1 : Vec F S8x2048x128 .bf16) (x2 : Vec F S8x256 .f32) (x3 : Vec F S8x256 .f32) (x4 : Vec F S128x128 .f32) (xs0 : Vec F S8x256x128 .f32) :
    Σ' (L5 : List (View.Piece (Elt F) S8x256x128 .f32)), { LS0 : List (View.Piece (Elt F) S8x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.R1Frame.lean ====
/-
  The second region's proof data. After the body at grid position `n` (row block `n / 2`, column half `n % 2`):
  at an even position the accumulator holds the first half's product (added to zero) and the output window is idle;
  at an odd position the accumulator holds that plus the second half's product, and the output window holds the
  corrected, scaled, projected and rectified block computed from it. The region's invariant carries the accumulator
  from one position to the next at exactly these contents.
-/
import proofs.«181684_j29145648070885_2_alg».proof.Proof.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At a position of column half `0` nothing is stored into the output window (it is idle there and not written back):
    a placeholder nothing consults. -/
def out1_A_5 (c : Dev nD) (i : grid1.Coords) (arg2 : Memref sig .tc .vmem S8x256x1024 .f32) (harg2 : arg2.IsWhole) (arg3 : Memref sig .tc .vmem S8x2048x128 .bf16) (harg3 : arg3.IsWhole) (arg4 : Memref sig .tc .vmem S8x256 .f32) (harg4 : arg4.IsWhole) (arg5 : Memref sig .tc .vmem S8x256 .f32) (harg5 : arg5.IsWhole) (arg6 : Memref sig .tc .vmem S128x128 .f32) (harg6 : arg6.IsWhole) (arg7 : Memref sig .tc .vmem S8x256x128 .f32) (harg7 : arg7.IsWhole) (arg8 : Memref sig .tc .vmem S8x256x128 .f32) (harg8 : arg8.IsWhole) (hc0 : cond1_0 i) (hc1 : ¬cond1_1 i)
    (x0 : Vec F S8x256x1024 .f32) (x1 : Vec F S8x2048x128 .bf16) (x2 : Vec F S8x256 .f32) (x3 : Vec F S8x256 .f32) (x4 : Vec F S128x128 .f32) : Vec F S8x256x128 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- The accumulator's two whole-buffer stores at such a position cover it. -/
theorem scover1_A_0 (c : Dev nD) (i : grid1.Coords) (arg2 : Memref sig .tc .vmem S8x256x1024 .f32) (harg2 : arg2.IsWhole) (arg3 : Memref sig .tc .vmem S8x2048x128 .bf16) (harg3 : arg3.IsWhole) (arg4 : Memref sig .tc .vmem S8x256 .f32) (harg4 : arg4.IsWhole) (arg5 : Memref sig .tc .vmem S8x256 .f32) (harg5 : arg5.IsWhole) (arg6 : Memref sig .tc .vmem S128x128 .f32) (harg6 : arg6.IsWhole) (arg7 : Memref sig .tc .vmem S8x256x128 .f32) (harg7 : arg7.IsWhole) (arg8 : Memref sig .tc .vmem S8x256x128 .f32) (harg8 : arg8.IsWhole) (hc0 : cond1_0 i) (hc1 : ¬cond1_1 i)
    (x0 : Vec F S8x256x1024 .f32) (x1 : Vec F S8x2048x128 .bf16) (x2 : Vec F S8x256 .f32) (x3 : Vec F S8x256 .f32) (x4 : Vec F S128x128 .f32) (y : S8x256x128.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S8x256x128.size (by sl_kernel_rfl) y

/-- What the accumulator holds after a position of column half `0`. -/
def sout1_A_0 (c : Dev nD) (i : grid1.Coords) (arg2 : Memref sig .tc .vmem S8x256x1024 .f32) (harg2 : arg2.IsWhole) (arg3 : Memref sig .tc .vmem S8x2048x128 .bf16) (harg3 : arg3.IsWhole) (arg4 : Memref sig .tc .vmem S8x256 .f32) (harg4 : arg4.IsWhole) (arg5 : Memref sig .tc .vmem S8x256 .f32) (harg5 : arg5.IsWhole) (arg6 : Memref sig .tc .vmem S128x128 .f32) (harg6 : arg6.IsWhole) (arg7 : Memref sig .tc .vmem S8x256x128 .f32) (harg7 : arg7.IsWhole) (arg8 : Memref sig .tc .vmem S8x256x128 .f32) (harg8 : arg8.IsWhole) (hc0 : cond1_0 i) (hc1 : ¬cond1_1 i)
    (x0 : Vec F S8x256x1024 .f32) (x1 : Vec F S8x2048x128 .bf16) (x2 : Vec F S8x256 .f32) (x3 : Vec F S8x256 .f32) (x4 : Vec F S128x128 .f32) : Vec F S8x256x128 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- At a position of column half `1` the output window's one whole-buffer store covers it. -/
theorem cover1_B_5 (c : Dev nD) (i : grid1.Coords) (arg2 : Memref sig .tc .vmem S8x256x1024 .f32) (harg2 : arg2.IsWhole) (arg3 : Memref sig .tc .vmem S8x2048x128 .bf16) (harg3 : arg3.IsWhole) (arg4 : Memref sig .tc .vmem S8x256 .f32) (harg4 : arg4.IsWhole) (arg5 : Memref sig .tc .vmem S8x256 .f32) (harg5 : arg5.IsWhole) (arg6 : Memref sig .tc .vmem S128x128 .f32) (harg6 : arg6.IsWhole) (arg7 : Memref sig .tc .vmem S8x256x128 .f32) (harg7 : arg7.IsWhole) (arg8 : Memref sig .tc .vmem S8x256x128 .f32) (harg8 : arg8.IsWhole) (hc0 : ¬cond1_0 i) (hc1 : cond1_1 i)
    (x0 : Vec F S8x256x1024 .f32) (x1 : Vec F S8x2048x128 .bf16) (x2 : Vec F S8x256 .f32) (x3 : Vec F S8x256 .f32) (x4 : Vec F S128x128 .f32) (xs0 : Vec F S8x256x128 .f32) (y : S8x256x128.Idx) :
    ∃ pc ∈ (kernelRun1_B c i arg2 harg2 arg3 harg3 arg4 harg4 arg5 harg5 arg6 harg6 arg7 harg7 arg8 harg8 hc0 hc1 x0 x1 x2 x3 x4 xs0).1, y ∈ pc.1.set :=
  View.cover_of_tiledL (kernelRun1_B c i arg2 harg2 arg3 harg3 arg4 harg4 arg5 harg5 arg6 harg6 arg7 harg7 arg8 harg8 hc0 hc1 x0 x1 x2 x3 x4 xs0).1 S8x256x128.size (by sl_kernel_rfl) y

/-- What the output window's buffer holds after such a position. -/
def out1_B_5 (c : Dev nD) (i : grid1.Coords) (arg2 : Memref sig .tc .vmem S8x256x1024 .f32) (harg2 : arg2.IsWhole) (arg3 : Memref sig .tc .vmem S8x2048x128 .bf16) (harg3 : arg3.IsWhole) (arg4 : Memref sig .tc .vmem S8x256 .f32) (harg4 : arg4.IsWhole) (arg5 : Memref sig .tc .vmem S8x256 .f32) (harg5 : arg5.IsWhole) (arg6 : Memref sig .tc .vmem S128x128 .f32) (harg6 : arg6.IsWhole) (arg7 : Memref sig .tc .vmem S8x256x128 .f32) (harg7 : arg7.IsWhole) (arg8 : Memref sig .tc .vmem S8x256x128 .f32) (harg8 : arg8.IsWhole) (hc0 : ¬cond1_0 i) (hc1 : cond1_1 i)
    (x0 : Vec F S8x256x1024 .f32) (x1 : Vec F S8x2048x128 .bf16) (x2 : Vec F S8x256 .f32) (x3 : Vec F S8x256 .f32) (x4 : Vec F S128x128 .f32) (xs0 : Vec F S8x256x128 .f32) : Vec F S8x256x128 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- The accumulator's one whole-buffer store at such a position covers it. -/
theorem scover1_B_0 (c : Dev nD) (i : grid1.Coords) (arg2 : Memref sig .tc .vmem S8x256x1024 .f32) (harg2 : arg2.IsWhole) (arg3 : Memref sig .tc .vmem S8x2048x128 .bf16) (harg3 : arg3.IsWhole) (arg4 : Memref sig .tc .vmem S8x256 .f32) (harg4 : arg4.IsWhole) (arg5 : Memref sig .tc .vmem S8x256 .f32) (harg5 : arg5.IsWhole) (arg6 : Memref sig .tc .vmem S128x128 .f32) (harg6 : arg6.IsWhole) (arg7 : Memref sig .tc .vmem S8x256x128 .f32) (harg7 : arg7.IsWhole) (arg8 : Memref sig .tc .vmem S8x256x128 .f32) (harg8 : arg8.IsWhole) (hc0 : ¬cond1_0 i) (hc1 : cond1_1 i)
    (x0 : Vec F S8x256x1024 .f32) (x1 : Vec F S8x2048x128 .bf16) (x2 : Vec F S8x256 .f32) (x3 : Vec F S8x256 .f32) (x4 : Vec F S128x128 .f32) (xs0 : Vec F S8x256x128 .f32) (y : S8x256x128.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S8x256x128.size (by sl_kernel_rfl) y

/-- What the accumulator holds after a position of column half `1`. -/
def sout1_B_0 (c : Dev nD) (i : grid1.Coords) (arg2 : Memref sig .tc .vmem S8x256x1024 .f32) (harg2 : arg2.IsWhole) (arg3 : Memref sig .tc .vmem S8x2048x128 .bf16) (harg3 : arg3.IsWhole) (arg4 : Memref sig .tc .vmem S8x256 .f32) (harg4 : arg4.IsWhole) (arg5 : Memref sig .tc .vmem S8x256 .f32) (harg5 : arg5.IsWhole) (arg6 : Memref sig .tc .vmem S128x128 .f32) (harg6 : arg6.IsWhole) (arg7 : Memref sig .tc .vmem S8x256x128 .f32) (harg7 : arg7.IsWhole) (arg8 : Memref sig .tc .vmem S8x256x128 .f32) (harg8 : arg8.IsWhole) (hc0 : ¬cond1_0 i) (hc1 : cond1_1 i)
    (x0 : Vec F S8x256x1024 .f32) (x1 : Vec F S8x2048x128 .bf16) (x2 : Vec F S8x256 .f32) (x3 : Vec F S8x256 .f32) (x4 : Vec F S128x128 .f32) (xs0 : Vec F S8x256x128 .f32) : Vec F S8x256x128 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

section
variable (V : (c : Dev nD) → (b : Ref sig .tc) → Buf (Elt F) ((c : Thread nD τ).loc b))

/-! ## What the output window and the accumulator hold after each position -/

/-- THE ACCUMULATION: the output window's buffer and the accumulator after the body at position `n` — the case of `n`'s
    parity, run at the position's memrefs and input blocks, the accumulator at an odd position starting from what the
    position before left. -/
def outsAt1 (c : Dev nD) : (n : ℕ) → n < cfg1.N → Vec F S8x256x128 .f32 × Vec F S8x256x128 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 2 = 0 then
      (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
        sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr (show (n + 1) % 2 = 1 by omega)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2,
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr (show (n + 1) % 2 = 1 by omega)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at an even position: the first case's contents. -/
theorem outsAt1_A (c : Dev nD) (t : Fin cfg1.N) (h0 : t.val % 2 = 0) (h1 : ¬t.val % 2 = 1) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t),
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans rfl

/-- `outsAt1` at an odd position: the second case's contents, over what the position before left in the accumulator. -/
theorem outsAt1_B (c : Dev nD) (t : Fin cfg1.N) (h0 : ¬t.val % 2 = 0) (h1 : t.val % 2 = 1) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant -/

/-- The region's invariant before position `n`: before the first one what the launch hands over (the accumulator at
    anything); afterwards the accumulator at what the position before left in it. -/
def PhiS (c : Dev nD) : (n : ℕ) → n ≤ cfg1.N → sProp 𝕄
  | 0, _ => Pipeline.ΦA spec1 c
  | n + 1, hn => iprop(scopedWith (F := F) c (owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scopedWith (F := F) c (owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(scopedWith (F := F) c (owns (c : Thread nD τ) scM1_0 fullShare ((outsAt1 V c (n - 1) (by omega)).2)) ∗ (∃ r, prngReg c r)) := by
  cases n with
  | zero => exact absurd rfl hz
  | succ n => rfl

/-! ## The proof data -/

/-- The second region's proof data on core `c`: its arrays as the region finds them; after the body at a position each
    input's buffer at its block and the output's at `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic position -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any position: the inputs' memrefs hold their blocks; the position's parity says which case it is in; the
    invariant hands the body the accumulator at what the position before left (at anything at the first position) and
    takes it back at this position's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 2 = 0
  · have h1 : ¬t.val % 2 = 1 := by omega
    rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
    rw [outsAt1_A V c t h0 h1]
    unfold sout1_A_0; (try dsimp only)
    by_cases hz : t.val = 0
    · rw [PhiS_castSucc V c t, PhiS_zero V c _ _ hz, PhiA1_eq]
      unfold scopedWith
      iintro ⟨⟨⟨Hs0, Hs1, Hs2, Hs3, Hs4, Hs5, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [Hs0 Hs1 Hs2 Hs3 Hs4 Hs5 HS0 Hg]
      · isplitl [Hs0 Hs1 Hs2 Hs3 Hs4 Hs5 HS0]
        · isplitl [Hs0]; · iexact Hs0
          isplitl [Hs1]; · iexact Hs1
          isplitl [Hs2]; · iexact Hs2
          isplitl [Hs3]; · iexact Hs3
          isplitl [Hs4]; · iexact Hs4
          isplitl [Hs5]; · iexact Hs5
          unfold owns; iexists _; isplitr
          swap; · iexact HS0
          ipureintro; exact View.read_writes_of_cover _ _ _ _ _ (scover1_A_0 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      unfold scopedWith
      iintro ⟨⟨⟨Hs0, Hs1, Hs2, Hs3, Hs4, Hs5, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [Hs0 Hs1 Hs2 Hs3 Hs4 Hs5 HS0 Hg]
      · isplitl [Hs0 Hs1 Hs2 Hs3 Hs4 Hs5 HS0]
        · isplitl [Hs0]; · iexact Hs0
          isplitl [Hs1]; · iexact Hs1
          isplitl [Hs2]; · iexact Hs2
          isplitl [Hs3]; · iexact Hs3
          isplitl [Hs4]; · iexact Hs4
          isplitl [Hs5]; · iexact Hs5
          unfold owns; iexists _; isplitr
          swap; · iexact HS0
          ipureintro; exact View.read_writes_of_cover _ _ _ _ _ (scover1_A_0 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have h1 : t.val % 2 = 1 := by omega
    rw [show (dat1 V c).leavesExact 5 t = owns (c : Thread nD τ) (ms1_5 t) fullShare ((dat1 V c).after 5 t) from by
      unfold Dat.leavesExact; rw [liveAt1_5_B t (fun h => h0 ((hcond1_0 t).mp h)) ((hcond1_1 t).mpr h1)], after1_5]
    rw [outsAt1_B V c t h0 h1]
    unfold out1_B_5 sout1_B_0; (try dsimp only)
    have hz : t.val ≠ 0 := by omega
    rw [PhiS_castSucc V c t, PhiS_pos V c _ _ hz]
    unfold scopedWith
    iintro ⟨⟨⟨Hs0, Hs1, Hs2, Hs3, Hs4, Hs5, HS0⟩, Hg⟩, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [Hs0 Hs1 Hs2 Hs3 Hs4 Hs5 HS0 Hg]
    · isplitl [Hs0 Hs1 Hs2 Hs3 Hs4 Hs5 HS0]
      · isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        unfold owns; iexists _; isplitr
        swap; · iexact HS0
        ipureintro; exact View.read_writes_of_cover _ _ _ _ _ (scover1_B_0 c _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_B_5 c _ _ _ _ _ _ _ _ _ _ _ _ _ _ _ _ _ _ _ _ _ _ _)

/-- The library's body obligation, at every position. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.R1InOut.lean ====
/-
  The second region's invariant at the region's two ends: what the launch hands over is the invariant before the first
  position, and after any later position the invariant gives that form back, the accumulator's contents forgotten.
-/
import proofs.«181684_j29145648070885_2_alg».proof.Proof.R1Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator at named contents is the accumulator at some contents. -/
theorem scopedWith_forget (c : Dev nD) (x : Vec F S8x256x128 .f32) :
    scopedWith (F := F) c (owns (c : Thread nD τ) scM1_0 fullShare x) ⊢ scopedWith (F := F) c iprop(∃ d, owns (c : Thread nD τ) scM1_0 fullShare d) :=
  scopedWith_mono c (by iintro H; iexists x; iexact H)

section
variable (V : (c : Dev nD) → (b : Ref sig .tc) → Buf (Elt F) ((c : Thread nD τ).loc b))

/-- What the launch hands the region is the invariant before the first position. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any position but the first the invariant gives the launch's form back. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HS0, Hg⟩
  isplitl [HS0]
  · iapply (scopedWith_forget (F := F) c _); iexact HS0
  iexact Hg

/-- The same after the last position. -/
theorem hout1 (c : Dev nD) : (dat1 V c).Φ (Fin.last cfg1.N) ⊢ Pipeline.ΦA spec1 c :=
  Phi_out1 V c _ (by rw [Fin.val_last]; have : cfg1.N = 16 := N_1; omega)

end

end Cert.KernelIdeal.Hand

end
-- ==== Proof.RunI.lean ====
/-
  The whole run of the two-pass graph convolution: the first region (row sums and diagonal, the degree weights), the
  host lines that scale the features by the degree weights, the second region (the normalised aggregation, projected
  and rectified). The buffers' contents at each boundary are a fold from the launch memory: a region's arrays at what
  its write-backs leave, a host stretch's results at its operations' values; each region is entered from the
  contents the item before it left, and the last boundary's contents are read off the final memory.
-/
import proofs.«181684_j29145648070885_2_alg».proof.Proof.FrameI0
import proofs.«181684_j29145648070885_2_alg».proof.Proof.R1InOut

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
/-- The same read at the TensorCore's references. -/
abbrev VA : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (VA m ρ) c).arrAt w cfg0.N
theorem W1_arr (c : Dev nD) (w : Fin cfg0.W) :
    W1 m ρ c (Proc.devRef .tc (Pipeline.arrRef spec0 w)) = (dat0 (VA m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VB : (c : Dev nD) → (b : Ref sig .tc) → Buf (Elt F) ((c : Thread nD τ).loc b) := fun c b => W1 m ρ c b
theorem hF0 (c : Dev nD) (w : Fin cfg0.W) : (dat0 (VA m ρ) c).arrAt w cfg0.N = VB m ρ c (Pipeline.arrRef spec0 w) :=
  (W1_arr m ρ c w).symm
theorem hrest0 (c : Dev nD) : ∀ b, b ∉ Finset.univ.image (Pipeline.arrRef spec0) → VB m ρ c b = VA m ρ c b :=
  fun b hb => W1_of_ne m ρ c b fun w e => hb (Finset.mem_image.mpr ⟨w, Finset.mem_univ _, e⟩)

/-- After the host lines between the regions (the second region's entry). -/
abbrev W2 : Dev nD → Valuation τ sig (Elt F) := fun c => StableHlo.after hostOps1 (W1 m ρ c)
abbrev VC : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (dat1 (VC m ρ) c).arrAt w cfg1.N
theorem W3_arr (c : Dev nD) (w : Fin cfg1.W) :
    W3 m ρ c (Proc.devRef .tc (Pipeline.arrRef spec1 w)) = (dat1 (VC m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev VD : (c : Dev nD) → (b : Ref sig .tc) → Buf (Elt F) ((c : Thread nD τ).loc b) := fun c b => W3 m ρ c b
theorem hF1 (c : Dev nD) (w : Fin cfg1.W) : (dat1 (VC m ρ) c).arrAt w cfg1.N = VD m ρ c (Pipeline.arrRef spec1 w) :=
  (W3_arr m ρ c w).symm
theorem hrest1 (c : Dev nD) : ∀ b, b ∉ Finset.univ.image (Pipeline.arrRef spec1) → VD m ρ c b = VC m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VA m ρ) c
  | ⟨1, _⟩ => fun c => dat1 (VC m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region over the thread state: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VA m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VA m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VA m ρ c) (VB m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`; the generator
    register and the scoped rest go into the region's invariant (the accumulator at anything) and come back out of it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VC m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VC m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VC m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
          ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h.trans (hin1 (VC m ρ) c)
  hout c := by
    rw [Pipeline.ownSems0_none]
    have h : (Pipeline.ΦA spec1 c : sProp 𝕄) ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (VC m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VC m ρ c) (VD m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN, at any float instance: from any memory with zero counters every weakly fair execution of @main on the
    TensorCores terminates, nothing faulting, and every final memory holds every unscoped buffer at the last
    boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Hand

end
-- ==== Proof.ArgsKept.lean ====
/- The argument arrays end as launched.

   The features are no array of either region and no host line writes them; the adjacency is the input window 0 of
   both regions, never written back; the projection is the input window 4 of the second region and no array of the
   first. So the fold of the buffers' contents, read at an argument, walks back to the launch memory, and the run's
   last boundary holds every argument at its launch contents. -/
import proofs.«181684_j29145648070885_2_alg».proof.Proof.RunI
import proofs.«181684_j29145648070885_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F] (m : (ℓ : Loc nD τ sig) → Buf (Elt F) ℓ) (ρ : Dev nD → PrngReg)

/-- A buffer the host lines between the regions do not write is, after them, as the first region left it. -/
theorem W2_of_not_written (c : Dev nD) (r : Ref sig .tc) (h : r ∉ Cert.KernelIdeal.Gen.hostOps1_W) :
    W2 m ρ c (Proc.devRef .tc r) = W1 m ρ c (Proc.devRef .tc r) :=
  StableHlo.after_of_writes_sub hostOps1 (W1 m ρ c) Cert.KernelIdeal.Gen.hostOps1_writes h

/-- The features: no region's array, written by no host line. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_not_written m ρ c main_arg0 (by decide)
    _ = W0 m ρ c (Proc.devRef .tc main_arg0) := W1_of_ne m ρ c main_arg0 (by decide)
    _ = m ((c : Thread nD τ).loc main_arg0) := rfl

/-- The adjacency: the input window 0 of both regions. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) :=
        (W3_arr m ρ c 0).trans (((dat1 (VC m ρ) c).arrAt_in 0 rfl _).trans (A_eq1 (VC m ρ) c 0))
    _ = W1 m ρ c (Proc.devRef .tc main_arg1) := W2_of_not_written m ρ c main_arg1 (by decide)
    _ = W0 m ρ c (Proc.devRef .tc main_arg1) :=
        (W1_arr m ρ c 0).trans (((dat0 (VA m ρ) c).arrAt_in 0 rfl _).trans (A_eq0 (VA m ρ) c 0))
    _ = m ((c : Thread nD τ).loc main_arg1) := rfl

/-- The projection: the input window 4 of the second region, no array of the first. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) :=
        (W3_arr m ρ c 4).trans (((dat1 (VC m ρ) c).arrAt_in 4 rfl _).trans (A_eq1 (VC m ρ) c 4))
    _ = W1 m ρ c (Proc.devRef .tc main_arg2) := W2_of_not_written m ρ c main_arg2 (by decide)
    _ = W0 m ρ c (Proc.devRef .tc main_arg2) := W1_of_ne m ρ c main_arg2 (by decide)
    _ = m ((c : Thread nD τ).loc main_arg2) := rfl

/-- The frame, at any float instance: every weakly fair execution terminates, nothing faulting, with the three
    argument arrays at their launch contents. -/
theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)
    (run_all m ρ)

end Cert.KernelIdeal.Hand

end
-- ==== Proof.R1Pieces.lean ====
/-
  What the second region's found pieces ARE, as payloads of the body's loads: at a position of column half `0` the
  accumulator ends at the block product added to the zero it was just set to; at a position of column half `1` it ends
  at the block product added to what the position before left, and the output window at the closing payload of the
  degree block, the diagonal block, the row block's own rows of the pre-scaled features, that accumulator and the
  projection. (A load through the whole-buffer rectangle reads the contents; a store through it, last, leaves its payload;
  a read-back of what one such store left reads that payload.)
-/
import proofs.«181684_j29145648070885_2_alg».proof.Proof.R1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zoff2 : (![0, 0] : Fin 2 → Nat) = fun _ => 0 := by funext a; fin_cases a <;> rfl
theorem zoff3 : (![0, 0, 0] : Fin 3 → Nat) = fun _ => 0 := by funext a; fin_cases a <;> rfl

/-- The rows `1024·mi ..` of the resident pre-scaled features: the body's first load of them. -/
abbrev rHalf (i : grid1.Coords) : Rect S8x2048x128 := Rect.unit (s := S8x2048x128) (k1_off1 i) S8x1024x128.size (k1_off1_inb i)
/-- The rows `256·ni ..` of them: the body's second load, at a position where the second branch is taken. -/
abbrev rOwn (i : grid1.Coords) (hc1 : cond1_1 i) : Rect S8x2048x128 := Rect.unit (s := S8x2048x128) (k1_off2 i) S8x256x128.size (k1_off2_inb i hc1)

set_option maxHeartbeats 1000000 in
/-- The accumulator after a position of column half `0`: the block product added to zero. -/
theorem sout1_A_eq (c : Dev nD) (i : grid1.Coords) (arg2 : Memref sig .tc .vmem S8x256x1024 .f32) (harg2 : arg2.IsWhole) (arg3 : Memref sig .tc .vmem S8x2048x128 .bf16) (harg3 : arg3.IsWhole) (arg4 : Memref sig .tc .vmem S8x256 .f32) (harg4 : arg4.IsWhole) (arg5 : Memref sig .tc .vmem S8x256 .f32) (harg5 : arg5.IsWhole) (arg6 : Memref sig .tc .vmem S128x128 .f32) (harg6 : arg6.IsWhole) (arg7 : Memref sig .tc .vmem S8x256x128 .f32) (harg7 : arg7.IsWhole) (arg8 : Memref sig .tc .vmem S8x256x128 .f32) (harg8 : arg8.IsWhole) (hc0 : cond1_0 i) (hc1 : ¬cond1_1 i)
    (x0 : Vec F S8x256x1024 .f32) (x1 : Vec F S8x2048x128 .bf16) (x2 : Vec F S8x256 .f32) (x3 : Vec F S8x256 .f32) (x4 : Vec F S128x128 .f32) :
    sout1_A_0 c i arg2 harg2 arg3 harg3 arg4 harg4 arg5 harg5 arg6 harg6 arg7 harg7 arg8 harg8 hc0 hc1 x0 x1 x2 x3 x4 = k1_pay2 x0 (View.ld x1 (rHalf i)) (k1_pay1 (F := F)) := by
  unfold sout1_A_0
  rw [View.read_writes_eq_canon _ _ _ (scover1_A_0 c i arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero zoff3]
  simp only [View.readAt_eq_ld, harg2.read_unread, harg3.read_unread, View.ld_unit_zero (S := S8x256x1024) zoff3]
  rw [View.readCov_unit_zero (S := S8x256x128) arg8.view zoff3 inb_S8x256x128_S8x256x128_0_0_0]
  rfl

set_option maxHeartbeats 1000000 in
/-- The accumulator after a position of column half `1`: the block product added to what it held. -/
theorem sout1_B_eq (c : Dev nD) (i : grid1.Coords) (arg2 : Memref sig .tc .vmem S8x256x1024 .f32) (harg2 : arg2.IsWhole) (arg3 : Memref sig .tc .vmem S8x2048x128 .bf16) (harg3 : arg3.IsWhole) (arg4 : Memref sig .tc .vmem S8x256 .f32) (harg4 : arg4.IsWhole) (arg5 : Memref sig .tc .vmem S8x256 .f32) (harg5 : arg5.IsWhole) (arg6 : Memref sig .tc .vmem S128x128 .f32) (harg6 : arg6.IsWhole) (arg7 : Memref sig .tc .vmem S8x256x128 .f32) (harg7 : arg7.IsWhole) (arg8 : Memref sig .tc .vmem S8x256x128 .f32) (harg8 : arg8.IsWhole) (hc0 : ¬cond1_0 i) (hc1 : cond1_1 i)
    (x0 : Vec F S8x256x1024 .f32) (x1 : Vec F S8x2048x128 .bf16) (x2 : Vec F S8x256 .f32) (x3 : Vec F S8x256 .f32) (x4 : Vec F S128x128 .f32) (xs0 : Vec F S8x256x128 .f32) :
    sout1_B_0 c i arg2 harg2 arg3 harg3 arg4 harg4 arg5 harg5 arg6 harg6 arg7 harg7 arg8 harg8 hc0 hc1 x0 x1 x2 x3 x4 xs0 = k1_pay2 x0 (View.ld x1 (rHalf i)) xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 x4 xs0)]
  unfold kernelRun1_B
  dsimp only
  sl_unfold_words
  rw [View.canon_unit_zero zoff3]
  simp only [View.readAt_eq_ld, harg2.read_unread, harg3.read_unread, harg8.read_unread, View.ld_unit_zero (S := S8x256x1024) zoff3, View.ld_unit_zero (S := S8x256x128) zoff3]
  rfl

set_option maxHeartbeats 1000000 in
/-- The output window after a position of column half `1`: the closing payload over the accumulator just updated. -/
theorem out1_B_eq (c : Dev nD) (i : grid1.Coords) (arg2 : Memref sig .tc .vmem S8x256x1024 .f32) (harg2 : arg2.IsWhole) (arg3 : Memref sig .tc .vmem S8x2048x128 .bf16) (harg3 : arg3.IsWhole) (arg4 : Memref sig .tc .vmem S8x256 .f32) (harg4 : arg4.IsWhole) (arg5 : Memref sig .tc .vmem S8x256 .f32) (harg5 : arg5.IsWhole) (arg6 : Memref sig .tc .vmem S128x128 .f32) (harg6 : arg6.IsWhole) (arg7 : Memref sig .tc .vmem S8x256x128 .f32) (harg7 : arg7.IsWhole) (arg8 : Memref sig .tc .vmem S8x256x128 .f32) (harg8 : arg8.IsWhole) (hc0 : ¬cond1_0 i) (hc1 : cond1_1 i)
    (x0 : Vec F S8x256x1024 .f32) (x1 : Vec F S8x2048x128 .bf16) (x2 : Vec F S8x256 .f32) (x3 : Vec F S8x256 .f32) (x4 : Vec F S128x128 .f32) (xs0 : Vec F S8x256x128 .f32) :
    out1_B_5 c i arg2 harg2 arg3 harg3 arg4 harg4 arg5 harg5 arg6 harg6 arg7 harg7 arg8 harg8 hc0 hc1 x0 x1 x2 x3 x4 xs0
      = k1_pay3 x2 x3 (View.ld x1 (rOwn i hc1)) (k1_pay2 x0 (View.ld x1 (rHalf i)) xs0) x4 := by
  unfold out1_B_5
  rw [View.read_writes_eq_canon _ _ _ (cover1_B_5 c i arg2 harg2 arg3 harg3 arg4 harg4 arg5 harg5 arg6 harg6 arg7 harg7 arg8 harg8 hc0 hc1 x0 x1 x2 x3 x4 xs0)]
  unfold kernelRun1_B
  dsimp only
  sl_unfold_words
  rw [View.canon_unit_zero zoff3]
  simp only [View.readAt_eq_ld, harg2.read_unread, harg3.read_unread, harg4.read_unread, harg5.read_unread, harg6.read_unread, harg8.read_unread, View.ld_unit_zero (S := S8x256x1024) zoff3, View.ld_unit_zero (S := S8x256x128) zoff3, View.ld_unit_zero (S := S8x256) zoff2, View.ld_unit_zero (S := S128x128) zoff2]
  rw [View.readCov_unit_zero (S := S8x256x128) arg8.view zoff3 inb_S8x256x128_S8x256x128_0_0_0]
  rfl

end Cert.KernelIdeal.Hand

end
-- ==== Proof.Blocks1.lean ====
/-
  Where the second region's blocks sit in its arrays. Grid position `t` is row block `t / 2` and column half `t % 2`:
  the adjacency block is rows `256·(t/2) ..`, columns `1024·(t%2) ..`; the pre-scaled features and the projection are
  resident whole; the degree and diagonal blocks are rows `256·(t/2) ..` of their [8, 2048] arrays; the output block is
  rows `256·(t/2) ..` of the result. The two loads the body makes from the resident features are its rows
  `1024·(t%2) ..` (1024 of them) and, at the closing position, its rows `256·(t/2) ..` (256 of them).
-/
import proofs.«181684_j29145648070885_2_alg».proof.Proof.R1Pieces
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The printed index maps over the grid, and the position's coordinates. -/
theorem idx_facts1 : ∀ t : Fin cfg1.N,
    (win1_0.index t (0 : Fin 3) = 0 ∧ win1_0.index t (1 : Fin 3) = t.val / 2 ∧ win1_0.index t (2 : Fin 3) = t.val % 2)
    ∧ (win1_1.index t (0 : Fin 3) = 0 ∧ win1_1.index t (1 : Fin 3) = 0 ∧ win1_1.index t (2 : Fin 3) = 0)
    ∧ (win1_2.index t (0 : Fin 2) = 0 ∧ win1_2.index t (1 : Fin 2) = t.val / 2)
    ∧ (win1_3.index t (0 : Fin 2) = 0 ∧ win1_3.index t (1 : Fin 2) = t.val / 2)
    ∧ (win1_4.index t (0 : Fin 2) = 0 ∧ win1_4.index t (1 : Fin 2) = 0)
    ∧ (win1_5.index t (0 : Fin 3) = 0 ∧ win1_5.index t (1 : Fin 3) = t.val / 2 ∧ win1_5.index t (2 : Fin 3) = 0)
    ∧ (((grid1.coords t) 0).val = t.val / 2 ∧ ((grid1.coords t) 1).val = t.val % 2) :=
  (by decide +kernel : ∀ t : Fin grid1.N, _)

/-- The adjacency block at position `t`, entry (b, r, k): the adjacency's entry (b, 256·(t/2) + r, 1024·(t%2) + k). -/
theorem iblk1_0_apply (c : Dev nD) (t : Fin cfg1.N) (b : Fin 8) (r : Fin 256) (k : Fin 1024) (n p : Fin 2048)
    (hn : n.val = 256 * (t.val / 2) + r.val) (hp : p.val = 1024 * (t.val % 2) + k.val) :
    (iblk1 V c 0 t : Vec Ideal S8x256x1024 .f32) (ix3 b r k) = (V c main_arg1 : S8x2048x2048.Idx → EReal) (ix3 b n p) := by
  obtain ⟨⟨e0, e1, e2⟩, -⟩ := idx_facts1 t
  unfold iblk1
  rw [View.read_apply]
  show V c main_arg1 _ = V c main_arg1 _
  congr 1
  funext a; apply Fin.ext
  match a with
  | ⟨0, _⟩ => show win1_0.index t 0 * 8 + 1 * b.val = b.val; rw [e0]; omega
  | ⟨1, _⟩ => show win1_0.index t 1 * 256 + 1 * r.val = n.val; rw [e1, hn]; omega
  | ⟨2, _⟩ => show win1_0.index t 2 * 1024 + 1 * k.val = p.val; rw [e2, hp]; omega

/-- The resident pre-scaled features at any position: the whole array. -/
theorem iblk1_1_apply (c : Dev nD) (t : Fin cfg1.N) (b : Fin 8) (p : Fin 2048) (f : Fin 128) :
    (iblk1 V c 1 t : Vec Ideal S8x2048x128 .bf16) (ix3 b p f) = (V c main_v4 : S8x2048x128.Idx → EReal) (ix3 b p f) := by
  obtain ⟨-, ⟨e0, e1, e2⟩, -⟩ := idx_facts1 t
  unfold iblk1
  rw [View.read_apply]
  show V c main_v4 _ = V c main_v4 _
  congr 1
  funext a; apply Fin.ext
  match a with
  | ⟨0, _⟩ => show win1_1.index t 0 * 8 + 1 * b.val = b.val; rw [e0]; omega
  | ⟨1, _⟩ => show win1_1.index t 1 * 2048 + 1 * p.val = p.val; rw [e1]; omega
  | ⟨2, _⟩ => show win1_1.index t 2 * 128 + 1 * f.val = f.val; rw [e2]; omega

/-- The degree block at position `t`, entry (b, r): the degree array's entry (b, 256·(t/2) + r). -/
theorem iblk1_2_apply (c : Dev nD) (t : Fin cfg1.N) (b : Fin 8) (r : Fin 256) (n : Fin 2048) (hn : n.val = 256 * (t.val / 2) + r.val) :
    (iblk1 V c 2 t : Vec Ideal S8x256 .f32) (ix2 b r) = (V c main_v0_0 : S8x2048.Idx → EReal) (ix2 b n) := by
  obtain ⟨-, -, ⟨e0, e1⟩, -⟩ := idx_facts1 t
  unfold iblk1
  rw [View.read_apply]
  show V c main_v0_0 _ = V c main_v0_0 _
  congr 1
  funext a; apply Fin.ext
  match a with
  | ⟨0, _⟩ => show win1_2.index t 0 * 8 + 1 * b.val = b.val; rw [e0]; omega
  | ⟨1, _⟩ => show win1_2.index t 1 * 256 + 1 * r.val = n.val; rw [e1, hn]; omega

/-- The diagonal block likewise. -/
theorem iblk1_3_apply (c : Dev nD) (t : Fin cfg1.N) (b : Fin 8) (r : Fin 256) (n : Fin 2048) (hn : n.val = 256 * (t.val / 2) + r.val) :
    (iblk1 V c 3 t : Vec Ideal S8x256 .f32) (ix2 b r) = (V c main_v0_1 : S8x2048.Idx → EReal) (ix2 b n) := by
  obtain ⟨-, -, -, ⟨e0, e1⟩, -⟩ := idx_facts1 t
  unfold iblk1
  rw [View.read_apply]
  show V c main_v0_1 _ = V c main_v0_1 _
  congr 1
  funext a; apply Fin.ext
  match a with
  | ⟨0, _⟩ => show win1_3.index t 0 * 8 + 1 * b.val = b.val; rw [e0]; omega
  | ⟨1, _⟩ => show win1_3.index t 1 * 256 + 1 * r.val = n.val; rw [e1, hn]; omega

/-- The resident projection at any position: the whole array. -/
theorem iblk1_4_apply (c : Dev nD) (t : Fin cfg1.N) (f o : Fin 128) :
    (iblk1 V c 4 t : Vec Ideal S128x128 .f32) (ix2 f o) = (V c main_arg2 : S128x128.Idx → EReal) (ix2 f o) := by
  obtain ⟨-, -, -, -, ⟨e0, e1⟩, -⟩ := idx_facts1 t
  unfold iblk1
  rw [View.read_apply]
  show V c main_arg2 _ = V c main_arg2 _
  congr 1
  funext a; apply Fin.ext
  match a with
  | ⟨0, _⟩ => show win1_4.index t 0 * 128 + 1 * f.val = f.val; rw [e0]; omega
  | ⟨1, _⟩ => show win1_4.index t 1 * 128 + 1 * o.val = o.val; rw [e1]; omega

/-- The body's first load from the resident features, entry (b, k, f): the features' row `1024·mi + k`. -/
theorem half_apply (i : grid1.Coords) (x1 : Vec Ideal S8x2048x128 .bf16) (b : Fin 8) (k : Fin 1024) (f : Fin 128) (p : Fin 2048)
    (hp : p.val = 1024 * (i 1).val + k.val) :
    (View.ld x1 (rHalf i) : Vec Ideal S8x1024x128 .bf16) (ix3 b k f) = x1 (ix3 b p f) := by
  show x1 ((rHalf i).idx (ix3 b k f)) = x1 (ix3 b p f)
  refine congrArg x1 ?_
  have ho := k1_off1_eq i
  funext a; apply Fin.ext
  match a with
  | ⟨0, _⟩ => show (k1_off1 i) 0 + 1 * b.val = b.val; rw [ho]; show 0 + 1 * b.val = b.val; omega
  | ⟨1, _⟩ => show (k1_off1 i) 1 + 1 * k.val = p.val; rw [ho, hp]; show 1024 * (i 1).val + 1 * k.val = _; omega
  | ⟨2, _⟩ => show (k1_off1 i) 2 + 1 * f.val = f.val; rw [ho]; show 0 + 1 * f.val = f.val; omega

/-- Its second load, at the closing position, entry (b, r, f): the features' row `256·ni + r`. -/
theorem own_apply (i : grid1.Coords) (hc1 : cond1_1 i) (x1 : Vec Ideal S8x2048x128 .bf16) (b : Fin 8) (r : Fin 256) (f : Fin 128) (n : Fin 2048)
    (hn : n.val = 256 * (i 0).val + r.val) :
    (View.ld x1 (rOwn i hc1) : Vec Ideal S8x256x128 .bf16) (ix3 b r f) = x1 (ix3 b n f) := by
  show x1 ((rOwn i hc1).idx (ix3 b r f)) = x1 (ix3 b n f)
  refine congrArg x1 ?_
  have ho := k1_off2_eq i
  funext a; apply Fin.ext
  match a with
  | ⟨0, _⟩ => show (k1_off2 i) 0 + 1 * b.val = b.val; rw [ho]; show 0 + 1 * b.val = b.val; omega
  | ⟨1, _⟩ => show (k1_off2 i) 1 + 1 * r.val = n.val; rw [ho, hn]; show 256 * (i 0).val + 1 * r.val = _; omega
  | ⟨2, _⟩ => show (k1_off2 i) 2 + 1 * f.val = f.val; rw [ho]; show 0 + 1 * f.val = f.val; omega

end Cert.KernelIdeal.Hand

end
-- ==== Proof.Vals1.lean ====
/-
  The second region's accumulation in payload form. With `X_w` window `w`'s block at position `t`:
  after an even position the accumulator holds the block product of `X_0` with rows `1024·0 ..` of `X_1` added to zero;
  after an odd position it holds the block product with rows `1024·1 ..` added to what the position before left, and
  the output window holds the closing payload of `X_2`, `X_3`, rows `256·ni ..` of `X_1`, that accumulator and `X_4`.
-/
import proofs.«181684_j29145648070885_2_alg».proof.Proof.R1Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

set_option maxHeartbeats 2000000 in
/-- After an even position: the accumulator. -/
theorem acc_even_eq (c : Dev nD) (t : Fin cfg1.N) (h0 : t.val % 2 = 0) :
    (outsAt1 V c t.val t.isLt).2 = k1_pay2 (iblk1 V c 0 t : Vec F S8x256x1024 .f32) (View.ld (iblk1 V c 1 t : Vec F S8x2048x128 .bf16) (rHalf (grid1.coords t))) (k1_pay1 (F := F)) := by
  have h1 : ¬t.val % 2 = 1 := by omega
  rw [outsAt1_A V c t h0 h1]
  dsimp only
  exact sout1_A_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)

set_option maxHeartbeats 2000000 in
/-- After an odd position: the accumulator, over what the position before left. -/
theorem acc_odd_eq (c : Dev nD) (t : Fin cfg1.N) (h1 : t.val % 2 = 1) :
    (outsAt1 V c t.val t.isLt).2 = k1_pay2 (iblk1 V c 0 t : Vec F S8x256x1024 .f32) (View.ld (iblk1 V c 1 t : Vec F S8x2048x128 .bf16) (rHalf (grid1.coords t)))
      (outsAt1 V c (t.val - 1) (Nat.lt_of_le_of_lt (Nat.sub_le _ _) t.isLt)).2 := by
  have h0 : ¬t.val % 2 = 0 := by omega
  rw [outsAt1_B V c t h0 h1]
  dsimp only
  exact sout1_B_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) _

set_option maxHeartbeats 2000000 in
/-- After an odd position: the output window, over the accumulator as that position leaves it. -/
theorem out_odd_eq (c : Dev nD) (t : Fin cfg1.N) (h1 : t.val % 2 = 1) :
    (outsAt1 V c t.val t.isLt).1 = k1_pay3 (iblk1 V c 2 t : Vec F S8x256 .f32) (iblk1 V c 3 t : Vec F S8x256 .f32) (View.ld (iblk1 V c 1 t : Vec F S8x2048x128 .bf16) (rOwn (grid1.coords t) ((hcond1_1 t).mpr h1)))
      (outsAt1 V c t.val t.isLt).2 (iblk1 V c 4 t : Vec F S128x128 .f32) := by
  have h0 : ¬t.val % 2 = 0 := by omega
  rw [acc_odd_eq V c t h1, outsAt1_B V c t h0 h1]
  dsimp only
  exact out1_B_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) _

end

end Cert.KernelIdeal.Hand

end
-- ==== Proof.Spec.lean ====
/-
  A graph convolution with symmetric degree normalisation, as ONE function of its three argument arrays —
  node features `x : [8, 2048, 128]`, adjacency `adj : [8, 2048, 2048]`, projection `k : [128, 128]` —,
  entry by entry on the extended reals.

  For a batch `b` and a node `n`:
  * the degree weight is `d(b,n) = 1 / (ε + √(Σ_m adj(b,n,m) − adj(b,n,n) + 1))`: the row sum of the
    adjacency with its diagonal entry replaced by a self-loop of weight one;
  * the aggregate is `agg(b,n,f) = d(b,n) · (Σ_m adj(b,n,m) · (d(b,m) · x(b,m,f)) + (d(b,n) · x(b,n,f)) · (1 − adj(b,n,n)))`:
    the neighbours' features weighted by the adjacency and by both end points' degree weights, the node's own
    row corrected from its diagonal entry to the self-loop;
  * the result is `max(Σ_f agg(b,n,f) · k(f,o), 0)`.

  The float literals stay the words the programs print (`1.0`, `ε = f32(1e-6)`, `0.0`).
-/
import Idealize.ShloMosaic.PureOps.Ideal
import Idealize.ShloMosaic.Lib.ValueIdx

noncomputable section

namespace Cert.GraphConv

open Idealize.ShloMosaic Idealize.ShloMosaic.ValueIdx
open scoped BigOperators

/-- The features' shape, the adjacency's and the projection's. -/
abbrev SX : Shape := ⟨3, ![8, 2048, 128]⟩
abbrev SA : Shape := ⟨3, ![8, 2048, 2048]⟩
abbrev SK : Shape := ⟨2, ![128, 128]⟩

/-- The literal `1.0`, the literal `ε` (the f32 nearest to 1e-6) and the literal `0.0`, as the programs print them. -/
abbrev one : EReal := Ideal.ofBits .f32 0x3F800000#32
abbrev eps : EReal := Ideal.ofBits .f32 0x358637BD#32
abbrev zero : EReal := Ideal.ofBits .f32 0x00000000#32

/-- The sum of row `n` of batch `b`'s adjacency. -/
def rowSum (adj : SA.Idx → EReal) (b : Fin 8) (n : Fin 2048) : EReal :=
  ∑ m : Fin 2048, adj (ix3 b n m)

/-- The degree weight of node `n`: the row sum with the diagonal entry replaced by one, under `1 / (ε + √·)`. -/
def deg (adj : SA.Idx → EReal) (b : Fin 8) (n : Fin 2048) : EReal :=
  Ideal.div one (eps + Ideal.sqrt (rowSum adj b n - adj (ix3 b n n) + one))

/-- The normalised aggregate of the neighbours' features at node `n`, feature `f`. -/
def agg (x : SX.Idx → EReal) (adj : SA.Idx → EReal) (b : Fin 8) (n : Fin 2048) (f : Fin 128) : EReal :=
  deg adj b n * ((∑ m : Fin 2048, adj (ix3 b n m) * (deg adj b m * x (ix3 b m f)))
    + (deg adj b n * x (ix3 b n f)) * (one - adj (ix3 b n n)))

/-- The projected and rectified result at node `n`, output feature `o`. -/
def out (x : SX.Idx → EReal) (adj : SA.Idx → EReal) (k : SK.Idx → EReal) (b : Fin 8) (n : Fin 2048) (o : Fin 128) : EReal :=
  max (∑ f : Fin 128, agg x adj b n f * k (ix2 f o)) zero

/-- The whole result array. -/
def G (x : SX.Idx → EReal) (adj : SA.Idx → EReal) (k : SK.Idx → EReal) : SX.Idx → EReal :=
  fun i => out x adj k (i 0) (i 1) (i 2)

theorem G_apply (x : SX.Idx → EReal) (adj : SA.Idx → EReal) (k : SK.Idx → EReal) (b : Fin 8) (n : Fin 2048) (o : Fin 128) :
    G x adj k (ix3 b n o) = out x adj k b n o := rfl

end Cert.GraphConv

end
-- ==== Proof.LibOuter.lean ====
/-
  Layout operations of a broadcast outer product, read at explicit coordinates.

  An `[a, b]` array given a trailing unit axis, `[a, b, 1]`, keeps entry `(i, j)` at `(i, j, 0)`: the two row-major
  positions are the same number. That column block broadcast to `[a, b, c]` repeats entry `(i, j)` along the last
  axis; a `[1, b, c]` array broadcast to `[a, b, c]` repeats its one slab along the first axis.
-/
import Idealize.ShloMosaic.Lib.Pipeline.Value
import Idealize.ShloMosaic.Lib.ValueIdx

namespace Idealize.ShloMosaic.ValueIdx

variable {α : Type}

/-- An `[a, b]` array cast to `[a, b, 1]` reads, at `(i, j, u)`, the operand at `(i, j)`, whatever the unit coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand's one slab at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Idealize.ShloMosaic.ValueIdx
-- ==== Proof.LibMerge.lean ====
/-
  Two leading axes merged into one, and one leading axis split into two, read at explicit coordinates.

  An array `[n, a, b]` laid out row-major is the same sequence of numbers as the array `[n * a, b]`: entry `(p, q, j)`
  of the first sits at position `(p * a + q) * b + j`, which is where entry `(p * a + q, j)` of the second sits. So a cast
  from either shape to the other keeps every entry, the merged row being `r = p * a + q`.
-/
import Idealize.ShloMosaic.Lib.Pipeline.Value
import Idealize.ShloMosaic.Lib.ValueIdx

namespace Idealize.ShloMosaic.ValueIdx

variable {α : Type}

/-- An `[n, a, b]` array cast to `[m, b]` reads, at `(r, j)` with `r = p * a + q`, the operand at `(p, q, j)`. -/
theorem shapeCast_nab_mb_apply {n a b m : ℕ} (x : (⟨3, ![n, a, b]⟩ : Shape).Idx → α)
    (h : (⟨3, ![n, a, b]⟩ : Shape).ShapeCasts ⟨2, ![m, b]⟩) (p : Fin n) (q : Fin a) (j : Fin b) (r : Fin m)
    (hr : r.val = p.val * a + q.val) : shapeCast ⟨2, ![m, b]⟩ x h (ix2 r j) = x (ix3 p q j) :=
  shapeCast_apply x h _ _ (by
    rw [Shape.rowMajor_val_three, Shape.rowMajor_val_two]
    show (p.val * a + q.val) * b + j.val = r.val * b + j.val
    rw [hr])

/-- An `[m, b]` array cast to `[n, a, b]` reads, at `(p, q, j)`, the operand at `(r, j)` with `r = p * a + q`. -/
theorem shapeCast_mb_nab_apply {n a b m : ℕ} (x : (⟨2, ![m, b]⟩ : Shape).Idx → α)
    (h : (⟨2, ![m, b]⟩ : Shape).ShapeCasts ⟨3, ![n, a, b]⟩) (p : Fin n) (q : Fin a) (j : Fin b) (r : Fin m)
    (hr : r.val = p.val * a + q.val) : shapeCast ⟨3, ![n, a, b]⟩ x h (ix3 p q j) = x (ix2 r j) :=
  shapeCast_apply x h _ _ (by
    rw [Shape.rowMajor_val_three, Shape.rowMajor_val_two]
    show r.val * b + j.val = (p.val * a + q.val) * b + j.val
    rw [hr])

end Idealize.ShloMosaic.ValueIdx
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.Pay1.lean ====
/-
  The second pass's three stored values, read at an index on the extended reals.

  The pass keeps, per block of 256 nodes, an accumulator `[8, 256, 128]`: it is cleared to `0.0`; each step adds the
  batched product of a `[8, 256, 1024]` slab of the adjacency with the matching `[8, 1024, 128]` slab of the scaled
  features, entry `(b, r, f)` gaining `Σ_k a(b, r, k) · y(b, k, f)`; and the last step scales the accumulator, corrected
  by the node's own scaled features times `1 − diag`, by the node's degree weight, multiplies the `[2048, 128]`
  re-laying of it (row `b · 256 + r`) by the `[128, 128]` projection and rectifies. A change of float format is the
  identity here, and a cast to the same shape changes nothing.
-/
import proofs.«181684_j29145648070885_2_alg».proof.Proof.Gen.KernelIdeal.Skeleton
import proofs.«181684_j29145648070885_2_alg».proof.Proof.Spec
import proofs.«181684_j29145648070885_2_alg».proof.Proof.LibOuter
import proofs.«181684_j29145648070885_2_alg».proof.Proof.LibMerge
import proofs.«181684_j29145648070885_2_alg».proof.Proof.LibPlainDot
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-! ## The cleared accumulator -/

/-- The accumulator is cleared to `0.0`. -/
theorem k1pay1_apply (b : Fin 8) (r : Fin 256) (f : Fin 128) :
    k1_pay1 (F := Ideal) (ix3 b r f) = Cert.GraphConv.zero := by
  unfold k1_pay1
  rw [shapeCast_self]
  rfl

/-! ## The batched product -/

theorem k1bmm_lhs0 (i : S8x256x128.Idx) (q : dot_S8x256x1024_S8x1024x128_S8x256x128_2_1_1_2_0_0.contr.Idx) :
    (dot_S8x256x1024_S8x1024x128_S8x256x128_2_1_1_2_0_0.lhsIdx i q 0).val = (i 0).val := by
  unfold DotDims.lhsIdx
  rw [dif_pos (show (0 : Fin S8x256x1024.rank) ∈ dot_S8x256x1024_S8x1024x128_S8x256x128_2_1_1_2_0_0.lhsBatch by decide)]
  rfl
theorem k1bmm_lhs1 (i : S8x256x128.Idx) (q : dot_S8x256x1024_S8x1024x128_S8x256x128_2_1_1_2_0_0.contr.Idx) :
    (dot_S8x256x1024_S8x1024x128_S8x256x128_2_1_1_2_0_0.lhsIdx i q 1).val = (i 1).val := by
  unfold DotDims.lhsIdx
  rw [dif_neg (show ¬(1 : Fin S8x256x1024.rank) ∈ dot_S8x256x1024_S8x1024x128_S8x256x128_2_1_1_2_0_0.lhsBatch by decide),
    dif_pos (show (1 : Fin S8x256x1024.rank) ∈ dot_S8x256x1024_S8x1024x128_S8x256x128_2_1_1_2_0_0.lhsNonContracting by decide)]
  rfl
theorem k1bmm_lhs2 (i : S8x256x128.Idx) (q : dot_S8x256x1024_S8x1024x128_S8x256x128_2_1_1_2_0_0.contr.Idx) :
    (dot_S8x256x1024_S8x1024x128_S8x256x128_2_1_1_2_0_0.lhsIdx i q 2).val = (q ⟨0, by decide⟩).val :=
  dot_S8x256x1024_S8x1024x128_S8x256x128_2_1_1_2_0_0.lhsIdx_val_of_single rfl i q
theorem k1bmm_rhs0 (i : S8x256x128.Idx) (q : dot_S8x256x1024_S8x1024x128_S8x256x128_2_1_1_2_0_0.contr.Idx) :
    (dot_S8x256x1024_S8x1024x128_S8x256x128_2_1_1_2_0_0.rhsIdx i q 0).val = (i 0).val := by
  unfold DotDims.rhsIdx
  rw [dif_pos (show (0 : Fin S8x1024x128.rank) ∈ dot_S8x256x1024_S8x1024x128_S8x256x128_2_1_1_2_0_0.rhsBatch by decide)]
  rfl
theorem k1bmm_rhs1 (i : S8x256x128.Idx) (q : dot_S8x256x1024_S8x1024x128_S8x256x128_2_1_1_2_0_0.contr.Idx) :
    (dot_S8x256x1024_S8x1024x128_S8x256x128_2_1_1_2_0_0.rhsIdx i q 1).val = (q ⟨0, by decide⟩).val :=
  dot_S8x256x1024_S8x1024x128_S8x256x128_2_1_1_2_0_0.rhsIdx_val_of_single rfl i q
theorem k1bmm_rhs2 (i : S8x256x128.Idx) (q : dot_S8x256x1024_S8x1024x128_S8x256x128_2_1_1_2_0_0.contr.Idx) :
    (dot_S8x256x1024_S8x1024x128_S8x256x128_2_1_1_2_0_0.rhsIdx i q 2).val = (i 2).val := by
  unfold DotDims.rhsIdx
  rw [dif_neg (show ¬(2 : Fin S8x1024x128.rank) ∈ dot_S8x256x1024_S8x1024x128_S8x256x128_2_1_1_2_0_0.rhsBatch by decide),
    dif_pos (show (2 : Fin S8x1024x128.rank) ∈ dot_S8x256x1024_S8x1024x128_S8x256x128_2_1_1_2_0_0.rhsNonContracting by decide)]
  rfl

/-- The batched product into a zero accumulator: entry `(b, r, f)` is `Σ_k l(b, r, k) · y(b, k, f)`. -/
theorem k1bmm_apply (l : FVec Ideal S8x256x1024 .bf16) (y : FVec Ideal S8x1024x128 .bf16) (b : Fin 8) (r : Fin 256)
    (f : Fin 128) :
    FloatOps.matmul dot_S8x256x1024_S8x1024x128_S8x256x128_2_1_1_2_0_0 none l y (constant S8x256x128 .f32 0x00000000#32) (ix3 b r f)
      = ∑ k : Fin 1024, l (ix3 b r k) * y (ix3 b k f) := by
  rw [Ideal.matmul_constant_zero_apply,
    ← Equiv.sum_comp (contrEquiv1 dot_S8x256x1024_S8x1024x128_S8x256x128_2_1_1_2_0_0 1024 rfl rfl).symm]
  refine Finset.sum_congr rfl fun k _ => ?_
  have hk := contrEquiv1_symm_val dot_S8x256x1024_S8x1024x128_S8x256x128_2_1_1_2_0_0 1024 rfl rfl k
  have el : dot_S8x256x1024_S8x1024x128_S8x256x128_2_1_1_2_0_0.lhsIdx (ix3 b r f) ((contrEquiv1 dot_S8x256x1024_S8x1024x128_S8x256x128_2_1_1_2_0_0 1024 rfl rfl).symm k) = ix3 b r k :=
    funext fun a => Fin.ext (by
      match a with
      | ⟨0, _⟩ => exact k1bmm_lhs0 _ _
      | ⟨1, _⟩ => exact k1bmm_lhs1 _ _
      | ⟨2, _⟩ => exact (k1bmm_lhs2 _ _).trans hk)
  have er : dot_S8x256x1024_S8x1024x128_S8x256x128_2_1_1_2_0_0.rhsIdx (ix3 b r f) ((contrEquiv1 dot_S8x256x1024_S8x1024x128_S8x256x128_2_1_1_2_0_0 1024 rfl rfl).symm k) = ix3 b k f :=
    funext fun a => Fin.ext (by
      match a with
      | ⟨0, _⟩ => exact k1bmm_rhs0 _ _
      | ⟨1, _⟩ => exact (k1bmm_rhs1 _ _).trans hk
      | ⟨2, _⟩ => exact k1bmm_rhs2 _ _)
  rw [el, er]

/-- A step adds the slab's batched product to the accumulator. -/
theorem k1pay2_apply (v3 : Vec Ideal S8x256x1024 .f32) (v8 : Vec Ideal S8x1024x128 .bf16) (v10 : Vec Ideal S8x256x128 .f32)
    (b : Fin 8) (r : Fin 256) (f : Fin 128) :
    k1_pay2 v3 v8 v10 (ix3 b r f) = v10 (ix3 b r f) + ∑ k : Fin 1024, v3 (ix3 b r k) * v8 (ix3 b k f) := by
  unfold k1_pay2
  rw [shapeCast_self, shapeCast_self, addf_apply]
  simp only [matmul]
  rw [k1bmm_apply]
  rfl

/-! ## The last step -/

/-- A `[8, 256]` column given a trailing unit axis and repeated along the features reads entry `(b, r)`. -/
theorem k1column_apply (w : FVec Ideal S8x256 .f32) (h1 : S8x256.ShapeCasts S8x256x1) (h2 : S8x256x1.Broadcasts S8x256x128)
    (b : Fin 8) (r : Fin 256) (f : Fin 128) :
    broadcastTo S8x256x128 (shapeCast S8x256x1 w h1) h2 (ix3 b r f) = w (ix2 b r) :=
  (broadcastTo_ab1_abc_apply (shapeCast S8x256x1 w h1) h2 b r f).trans (shapeCast_ab_ab1_apply w h1 b r 0)

/-- The last step: the corrected accumulator scaled by the degree weight, projected and rectified. -/
theorem k1pay3_apply (v19 v21 : Vec Ideal S8x256 .f32) (v26 : Vec Ideal S8x256x128 .bf16) (v35 : Vec Ideal S8x256x128 .f32)
    (v41 : Vec Ideal S128x128 .f32) (b : Fin 8) (r : Fin 256) (o : Fin 128) :
    k1_pay3 v19 v21 v26 v35 v41 (ix3 b r o)
      = max (∑ f : Fin 128, (v19 (ix2 b r) * (v35 (ix3 b r f) + v26 (ix3 b r f) * (Cert.GraphConv.one - v21 (ix2 b r))))
          * v41 (ix2 f o)) Cert.GraphConv.zero := by
  obtain ⟨ρ, hρ⟩ : ∃ ρ : Fin 2048, ρ.val = b.val * 256 + r.val := ⟨⟨b.val * 256 + r.val, by omega⟩, rfl⟩
  unfold k1_pay3
  rw [maximumf_apply, shapeCast_mb_nab_apply _ _ b r o ρ hρ]
  simp only [matmul]
  rw [Cert.LibPlainDot.matmul_plain_apply dot_S2048x128_S128x128_S2048x128_1_0_0_1_n_n rfl rfl rfl rfl rfl rfl]
  refine congrArg₂ max (Finset.sum_congr rfl fun f _ => ?_) rfl
  rw [shapeCast_nab_mb_apply _ _ b r f ρ hρ, truncf_apply, truncf_apply, mulf_apply, k1column_apply, addf_apply, mulf_apply,
    k1column_apply, extf_apply, shapeCast_self, shapeCast_self, shapeCast_self]
  rfl

end Cert.KernelIdeal.Hand

end
-- ==== Proof.Consts.lean ====
/-
  The three float literals of the graph convolution as extended reals: `1.0` is the real one, `0.0` the real zero,
  and `ε` (the f32 nearest to 1e-6) a positive real, the dyadic `8796093 · 2⁻⁴³`. Only the sign of `ε` is ever used.
-/
import proofs.«181684_j29145648070885_2_alg».proof.Proof.Spec
import Idealize.ShloMosaic.Lib.IdealHost

noncomputable section

namespace Cert.GraphConv

open Idealize.ShloMosaic

/-- The literal `1.0` denotes the real number one. -/
theorem one_eq : one = ((1 : ℝ) : EReal) := by
  show Ideal.ofBits .f32 0x3F800000#32 = _
  rw [Ideal.ofBits_one_f32]; rfl

/-- The literal `0.0` denotes the real number zero. -/
theorem zero_eq : zero = ((0 : ℝ) : EReal) := by
  show Ideal.ofBits .f32 0x00000000#32 = _
  rw [Ideal.ofBits_zero_f32]; rfl

/-- The literal `ε` denotes a positive real number. -/
theorem eps_pos : ∃ e : ℝ, 0 < e ∧ eps = (e : EReal) := by
  refine ⟨8796093 * (2 : ℝ) ^ (-43 : Int), by positivity, ?_⟩
  show Ideal.ofBits .f32 0x358637BD#32 = _
  simp [Ideal.ofBits, Ideal.ieee, -EReal.coe_mul]

end Cert.GraphConv

end
-- ==== Proof.Value1.lean ====
/-
  What the second region's output array holds after its last write-back, for any entry contents, on the extended reals.

  Over the two positions of a row block the accumulator gathers, for node n of the block and feature f, first
  zero plus the sum over the neighbours p < 1024 of adj(b,n,p)·dx(b,p,f), then that plus the sum over the neighbours
  1024 ≤ p < 2048: the whole sum over the 2048 neighbours (zero is neutral and the two halves partition the range;
  no finiteness is needed). The closing position turns it into
  max(Σ_f (d(b,n)·(acc(b,n,f) + dx(b,n,f)·(1 − dg(b,n))))·k(f,o), 0), and writes rows 256·ni .. of the result: the eight
  closing positions tile it.
-/
import proofs.«181684_j29145648070885_2_alg».proof.Proof.Blocks1
import proofs.«181684_j29145648070885_2_alg».proof.Proof.Vals1
import proofs.«181684_j29145648070885_2_alg».proof.Proof.Pay1
import proofs.«181684_j29145648070885_2_alg».proof.Proof.Consts

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The five arrays the region finds, as functions into the extended reals: adjacency, pre-scaled features, degree
    weights, diagonal, projection. -/
abbrev aAdj (c : Dev nD) : S8x2048x2048.Idx → EReal := V c main_arg1
abbrev aDx (c : Dev nD) : S8x2048x128.Idx → EReal := V c main_v4
abbrev aDeg (c : Dev nD) : S8x2048.Idx → EReal := V c main_v0_0
abbrev aDiag (c : Dev nD) : S8x2048.Idx → EReal := V c main_v0_1
abbrev aKer (c : Dev nD) : S128x128.Idx → EReal := V c main_arg2

/-- The result as a function of the five arrays the region finds: adjacency, pre-scaled features, degree weights,
    diagonal, projection. -/
def outOf (adj : S8x2048x2048.Idx → EReal) (dx : S8x2048x128.Idx → EReal) (d dg : S8x2048.Idx → EReal) (k : S128x128.Idx → EReal) :
    S8x2048x128.Idx → EReal :=
  fun j => max (∑ f : Fin 128, (d (ix2 (j 0) (j 1)) * ((∑ p : Fin 2048, adj (ix3 (j 0) (j 1) p) * dx (ix3 (j 0) p f))
      + dx (ix3 (j 0) (j 1) f) * (Cert.GraphConv.one - dg (ix2 (j 0) (j 1))))) * k (ix2 f (j 2))) Cert.GraphConv.zero

/-- The first and the second half of the neighbours. -/
abbrev loHalf (k : Fin 1024) : Fin 2048 := ⟨k.val, by omega⟩
abbrev hiHalf (k : Fin 1024) : Fin 2048 := ⟨1024 + k.val, by omega⟩

/-- A sum over the 2048 neighbours is the sum over the first half plus the sum over the second. -/
theorem sum_halves (g : Fin 2048 → EReal) : (∑ k : Fin 1024, g (loHalf k)) + (∑ k : Fin 1024, g (hiHalf k)) = ∑ p : Fin 2048, g p := by
  have h := Fin.sum_univ_add (a := 1024) (b := 1024) (fun p : Fin (1024 + 1024) => g p)
  exact h.symm

/-! ## One position, over variables -/

/-- An accumulation step at (b, r, f): what was there plus the sum over the block's 1024 columns, read in the arrays. -/
theorem acc_step (X0 : Vec Ideal S8x256x1024 .f32) (X1h : Vec Ideal S8x1024x128 .bf16) (S : Vec Ideal S8x256x128 .f32)
    (adj : S8x2048x2048.Idx → EReal) (dx : S8x2048x128.Idx → EReal) (b : Fin 8) (r : Fin 256) (f : Fin 128) (n : Fin 2048) (sel : Fin 1024 → Fin 2048)
    (h0 : ∀ k, X0 (ix3 b r k) = adj (ix3 b n (sel k))) (h1 : ∀ k, X1h (ix3 b k f) = dx (ix3 b (sel k) f)) :
    k1_pay2 X0 X1h S (ix3 b r f) = S (ix3 b r f) + ∑ k : Fin 1024, adj (ix3 b n (sel k)) * dx (ix3 b (sel k) f) := by
  rw [k1pay2_apply X0 X1h S b r f]
  exact congrArg (S (ix3 b r f) + ·) (Finset.sum_congr rfl fun k _ => by rw [h0 k, h1 k])

/-- The closing value at (b, r, o), read in the arrays. -/
theorem close_step (X2 X3 : Vec Ideal S8x256 .f32) (X1o : Vec Ideal S8x256x128 .bf16) (S : Vec Ideal S8x256x128 .f32) (X4 : Vec Ideal S128x128 .f32)
    (adj : S8x2048x2048.Idx → EReal) (dx : S8x2048x128.Idx → EReal) (d dg : S8x2048.Idx → EReal) (k : S128x128.Idx → EReal)
    (b : Fin 8) (r : Fin 256) (o : Fin 128) (n : Fin 2048)
    (h2 : X2 (ix2 b r) = d (ix2 b n)) (h3 : X3 (ix2 b r) = dg (ix2 b n)) (h1 : ∀ f, X1o (ix3 b r f) = dx (ix3 b n f))
    (hS : ∀ f, S (ix3 b r f) = ∑ p : Fin 2048, adj (ix3 b n p) * dx (ix3 b p f)) (h4 : ∀ f, X4 (ix2 f o) = k (ix2 f o)) :
    k1_pay3 X2 X3 X1o S X4 (ix3 b r o) = outOf adj dx d dg k (ix3 b n o) := by
  rw [k1pay3_apply X2 X3 X1o S X4 b r o]
  show max _ _ = max (∑ f : Fin 128, (d (ix2 b n) * ((∑ p : Fin 2048, adj (ix3 b n p) * dx (ix3 b p f))
      + dx (ix3 b n f) * (Cert.GraphConv.one - dg (ix2 b n)))) * k (ix2 f o)) Cert.GraphConv.zero
  exact congrArg (max · Cert.GraphConv.zero) (Finset.sum_congr rfl fun f _ => by rw [h2, h3, h1 f, hS f, h4 f])

/-! ## The accumulator and the output window, position by position -/

set_option maxHeartbeats 2000000 in
/-- After an even position, at row r of the block (node n): zero plus the first half's sum. -/
theorem acc_even_apply (c : Dev nD) (t : Fin cfg1.N) (h0 : t.val % 2 = 0) (b : Fin 8) (r : Fin 256) (f : Fin 128) (n : Fin 2048)
    (hn : n.val = 256 * (t.val / 2) + r.val) :
    (outsAt1 V c t.val t.isLt).2 (ix3 b r f) = Cert.GraphConv.zero
      + ∑ k : Fin 1024, aAdj V c (ix3 b n (loHalf k)) * aDx V c (ix3 b (loHalf k) f) := by
  obtain ⟨-, -, -, -, -, -, -, hc1⟩ := idx_facts1 t
  rw [acc_even_eq V c t h0]
  refine (acc_step (iblk1 V c 0 t) (View.ld (iblk1 V c 1 t) (rHalf (grid1.coords t))) (k1_pay1 (F := Ideal)) (aAdj V c) (aDx V c) b r f n loHalf
    (fun k => iblk1_0_apply V c t b r k n (loHalf k) hn (by show k.val = 1024 * (t.val % 2) + k.val; omega))
    (fun k => (half_apply (grid1.coords t) (iblk1 V c 1 t) b k f (loHalf k) (by rw [hc1]; show k.val = 1024 * (t.val % 2) + k.val; omega)).trans
      (iblk1_1_apply V c t b (loHalf k) f))).trans ?_
  rw [k1pay1_apply b r f]

set_option maxHeartbeats 2000000 in
/-- After an odd position, at row r of the block (node n): the sum over all 2048 neighbours. -/
theorem acc_odd_apply (c : Dev nD) (t : Fin cfg1.N) (h1 : t.val % 2 = 1) (b : Fin 8) (r : Fin 256) (f : Fin 128) (n : Fin 2048)
    (hn : n.val = 256 * (t.val / 2) + r.val) :
    (outsAt1 V c t.val t.isLt).2 (ix3 b r f)
      = ∑ p : Fin 2048, aAdj V c (ix3 b n p) * aDx V c (ix3 b p f) := by
  obtain ⟨-, -, -, -, -, -, -, hc1⟩ := idx_facts1 t
  have hlt : t.val - 1 < cfg1.N := Nat.lt_of_le_of_lt (Nat.sub_le _ _) t.isLt
  have hprev := acc_even_apply V c ⟨t.val - 1, hlt⟩ (by show (t.val - 1) % 2 = 0; omega) b r f n (by show n.val = 256 * ((t.val - 1) / 2) + r.val; omega)
  rw [acc_odd_eq V c t h1]
  refine (acc_step (iblk1 V c 0 t) (View.ld (iblk1 V c 1 t) (rHalf (grid1.coords t))) _ (aAdj V c) (aDx V c) b r f n hiHalf
    (fun k => iblk1_0_apply V c t b r k n (hiHalf k) hn (by show 1024 + k.val = 1024 * (t.val % 2) + k.val; omega))
    (fun k => (half_apply (grid1.coords t) (iblk1 V c 1 t) b k f (hiHalf k) (by rw [hc1]; show 1024 + k.val = 1024 * (t.val % 2) + k.val; omega)).trans
      (iblk1_1_apply V c t b (hiHalf k) f))).trans ?_
  rw [hprev, Cert.GraphConv.zero_eq, EReal.coe_zero, zero_add]
  exact sum_halves (fun p => aAdj V c (ix3 b n p) * aDx V c (ix3 b p f))

set_option maxHeartbeats 2000000 in
/-- What an odd position leaves in the output window at (b, r, o): the result at node n = 256·(t/2) + r. -/
theorem out_point (c : Dev nD) (t : Fin cfg1.N) (h1 : t.val % 2 = 1) (b : Fin 8) (r : Fin 256) (o : Fin 128) (n : Fin 2048)
    (hn : n.val = 256 * (t.val / 2) + r.val) :
    (outsAt1 V c t.val t.isLt).1 (ix3 b r o)
      = outOf (aAdj V c) (aDx V c) (aDeg V c) (aDiag V c) (aKer V c) (ix3 b n o) := by
  obtain ⟨-, -, -, -, -, -, hc0, -⟩ := idx_facts1 t
  rw [out_odd_eq V c t h1]
  exact close_step (iblk1 V c 2 t) (iblk1 V c 3 t) (View.ld (iblk1 V c 1 t) (rOwn (grid1.coords t) ((hcond1_1 t).mpr h1))) (outsAt1 V c t.val t.isLt).2 (iblk1 V c 4 t)
    (aAdj V c) (aDx V c) (aDeg V c) (aDiag V c) (aKer V c) b r o n
    (iblk1_2_apply V c t b r n hn) (iblk1_3_apply V c t b r n hn)
    (fun f => (own_apply (grid1.coords t) ((hcond1_1 t).mpr h1) (iblk1 V c 1 t) b r f n (by rw [hc0]; exact hn)).trans (iblk1_1_apply V c t b n f))
    (fun f => acc_odd_apply V c t h1 b r f n hn)
    (fun f => iblk1_4_apply V c t f o)

/-! ## The blocks in the result, the cover, and the array -/

set_option maxHeartbeats 2000000 in
/-- A closing position writes back its row block of the result. -/
theorem flushed5_eq (c : Dev nD) (t : Fin cfg1.N) (hf : (cfg1.win 5).flush t = true) :
    (dat1 V c).flushed 5 t = ((cfg1.win 5).blk t).view.read (Elt Ideal)
      (outOf (aAdj V c) (aDx V c) (aDeg V c) (aDiag V c) (aKer V c)) := by
  have h1 : t.val % 2 = 1 := (flush1_5 t).mp hf
  show (cfg1.win 5).cut (grid1.coords t) ((dat1 V c).after 5 t) = _
  rw [after1_5]
  funext y
  rw [View.read_apply]
  obtain ⟨b, r, o, rfl⟩ : ∃ (b : Fin 8) (r : Fin 256) (o : Fin 128), y = ix3 b r o := ⟨y 0, y 1, y 2, eq_ix3 y⟩
  obtain ⟨-, -, -, -, -, ⟨g0, g1, g2⟩, -⟩ := idx_facts1 t
  have ht : t.val < 16 := lt_of_lt_of_eq t.isLt N_1
  have hn : 256 * (t.val / 2) + r.val < 2048 := by omega
  have he : ((cfg1.win 5).blk t).view.emb (ix3 b r o) = (ix3 b (⟨256 * (t.val / 2) + r.val, hn⟩ : Fin 2048) o : S8x2048x128.Idx) := by
    funext a; apply Fin.ext
    match a with
    | ⟨0, _⟩ => show win1_5.index t 0 * 8 + 1 * b.val = b.val; rw [g0]; omega
    | ⟨1, _⟩ => show win1_5.index t 1 * 256 + 1 * r.val = 256 * (t.val / 2) + r.val; rw [g1]; omega
    | ⟨2, _⟩ => show win1_5.index t 2 * 128 + 1 * o.val = o.val; rw [g2]; omega
  rw [he]
  exact out_point V c t h1 b r o ⟨256 * (t.val / 2) + r.val, hn⟩ rfl

/-- An index of the result is in position t's block iff each coordinate is in the block's range on its axis. -/
theorem mem_blk5 (t : Fin cfg1.N) (i : S8x2048x128.Idx) :
    i ∈ ((cfg1.win 5).blk t).view.set ↔ ∀ a : Fin 3, win1_5.index t a * S8x256x128.size a ≤ (i a).val ∧ (i a).val < win1_5.index t a * S8x256x128.size a + S8x256x128.size a := by
  show i ∈ ((View.whole main_v5).slice (win1_5.rect t)).set ↔ _
  rw [View.set_slice_whole, Rect.mem_set_unit]
  exact Iff.rfl

/-- Row n of the result is in the block of the closing position of row block n / 256, which writes it back. -/
theorem cover5 (i : S8x2048x128.Idx) : ∃ t : Fin cfg1.N, (cfg1.win 5).flush t = true ∧ i ∈ ((cfg1.win 5).blk t).view.set := by
  have hi0 : (i 0).val < 8 := (i 0).isLt
  have hi1 : (i 1).val < 2048 := (i 1).isLt
  have hi2 : (i 2).val < 128 := (i 2).isLt
  have hN : grid1.N = 16 := N_1
  have hlt : 2 * ((i 1).val / 256) + 1 < grid1.N := by rw [hN]; omega
  obtain ⟨-, -, -, -, -, ⟨g0, g1, g2⟩, -⟩ := idx_facts1 ⟨2 * ((i 1).val / 256) + 1, hlt⟩
  refine ⟨⟨2 * ((i 1).val / 256) + 1, hlt⟩, (flush1_5 _).mpr (by show (2 * ((i 1).val / 256) + 1) % 2 = 1; omega), ?_⟩
  rw [mem_blk5]
  intro a
  match a with
  | ⟨0, _⟩ =>
    show win1_5.index ⟨2 * ((i 1).val / 256) + 1, hlt⟩ 0 * 8 ≤ (i 0).val ∧ (i 0).val < win1_5.index ⟨2 * ((i 1).val / 256) + 1, hlt⟩ 0 * 8 + 8
    rw [g0]; omega
  | ⟨1, _⟩ =>
    show win1_5.index ⟨2 * ((i 1).val / 256) + 1, hlt⟩ 1 * 256 ≤ (i 1).val ∧ (i 1).val < win1_5.index ⟨2 * ((i 1).val / 256) + 1, hlt⟩ 1 * 256 + 256
    rw [g1]; show (2 * ((i 1).val / 256) + 1) / 2 * 256 ≤ (i 1).val ∧ (i 1).val < (2 * ((i 1).val / 256) + 1) / 2 * 256 + 256; omega
  | ⟨2, _⟩ =>
    show win1_5.index ⟨2 * ((i 1).val / 256) + 1, hlt⟩ 2 * 128 ≤ (i 2).val ∧ (i 2).val < win1_5.index ⟨2 * ((i 1).val / 256) + 1, hlt⟩ 2 * 128 + 128
    rw [g2]; omega

/-- After the last write-back the result array holds `outOf` of the arrays the region found. -/
theorem arr1_5 (c : Dev nD) :
    (dat1 (F := Ideal) V c).arrAt 5 cfg1.N = outOf (aAdj V c) (aDx V c) (aDeg V c) (aDiag V c) (aKer V c) :=
  (dat1 V c).arrAt_eq_of_cover 5 (outOf (aAdj V c) (aDx V c) (aDeg V c) (aDiag V c) (aKer V c))
    (fun t hf => flushed5_eq V c t hf) cover5

end Cert.KernelIdeal.Hand

end
-- ==== Proof.LibWords.lean ====
/-
  Words and numbers.

  One-bit words widened to 32 bits, read as signed integers or as words of naturals; the signed comparisons by the
  integers; a natural number below 2^31 converted from the extended reals to a 32-bit word; and 32-bit words of
  naturals added up.
-/
import Idealize.ShloMosaic.PureOps.Ideal
import Idealize.ShloMosaic.PureOps.Reduce
import Mathlib.Algebra.BigOperators.Fin

noncomputable section

open Idealize.ShloMosaic Finset

namespace Cert.LibWords

/-- A one-bit word widened to 32 bits and read as a signed integer is the bit. -/
theorem toInt_setWidth_bit (b : BitVec 1) : (b.setWidth 32).toInt = (b.toNat : ℤ) := by
  rcases BitVec.eq_zero_or_eq_one b with h | h <;> subst h <;> decide

/-- A signed "less than" word that is 1 says the integers compare. -/
theorem lt_of_cmpi_slt {x y : BitVec 32} (h : IntOp.cmpi .slt x y = 1#1) : x.toInt < y.toInt := by
  by_contra hn
  have e : IntOp.cmpi .slt x y = 0#1 := by
    show BitVec.ofBool (x.slt y) = 0#1
    rw [show x.slt y = false from by simp [BitVec.slt, hn]]
    rfl
  rw [e] at h
  exact absurd h (by decide)

/-- The signed "greater than" word, by the integers. -/
theorem cmpi_sgt_eq (x y : BitVec 32) : IntOp.cmpi .sgt x y = BitVec.ofBool (decide (y.toInt < x.toInt)) := by
  show BitVec.ofBool (y.slt x) = _
  simp [BitVec.slt]

/-- A natural number below 2^31, as an extended real, converts to the 32-bit word of that number. -/
theorem fptosi_natCast (n : ℕ) (hn : n < 2 ^ 31) : Ideal.fptosi 32 ((n : ℕ) : EReal) = BitVec.ofNat 32 n := by
  unfold Ideal.fptosi
  rw [← EReal.coe_natCast, Ideal.toIntClamped_coe, if_pos (Nat.cast_nonneg n), Int.floor_natCast]
  have h1 : max (-((2 ^ (32 - 1) : ℕ) : ℤ)) (min (((2 ^ (32 - 1) : ℕ) : ℤ) - 1) (n : ℤ)) = (n : ℤ) := by
    have : ((2 ^ (32 - 1) : ℕ) : ℤ) = 2147483648 := by norm_num
    rw [this]
    have hn' : (n : ℤ) < 2147483648 := by exact_mod_cast (by norm_num at hn ⊢; exact hn : n < 2147483648)
    omega
  rw [h1]
  exact BitVec.ofInt_natCast _ _

/-- Words of natural numbers added up from zero give the word of the sum. -/
theorem fold_addi_ofNat {ι : Type} (S : Finset ι) (n : ι → ℕ) :
    S.fold IntOp.addi (0#32) (fun k => BitVec.ofNat 32 (n k)) = BitVec.ofNat 32 (∑ k ∈ S, n k) := by
  classical
  induction S using Finset.induction_on with
  | empty => rfl
  | insert a S ha ih =>
    rw [Finset.fold_insert ha, ih, Finset.sum_insert ha]
    show BitVec.ofNat 32 (n a) + BitVec.ofNat 32 _ = _
    rw [BitVec.ofNat_add]

/-- A one-bit word widened to 32 bits is the word of the bit. -/
theorem setWidth_bit (b : BitVec 1) : b.setWidth 32 = BitVec.ofNat 32 b.toNat := by
  rcases BitVec.eq_zero_or_eq_one b with h | h <;> subst h <;> decide

end Cert.LibWords
-- ==== Proof.LibOneHot.lean ====
/-
  Selecting one class by a one-hot weight.

  A label is a 32-bit word `w`; class `q` (one of `n`) weighs 1 when `w` is the word of `q` and 0 otherwise. A kernel
  typically builds the weight as the comparison bit widened to 32 bits and read as a signed integer, a host program as the
  comparison bit read as an unsigned integer: both are this weight, at the exact (extended-real) values.

  When the label is the word of some class `p` (and the classes are few enough for their words to be distinct,
  n ≤ 2^32), a sum over the classes weighted this way keeps exactly the term at `p`: Σ_q f q · weight q = f p, since every
  other term is a product with zero — which is zero for every extended real, infinities included, so no finiteness is
  used. Hence adding a bias after the weighted sum or inside it gives the same number, f p + β.

  A label that is at least 0 and less than n as a signed integer (n < 2^31) is the word of a class.
-/
import Idealize.ShloMosaic.PureOps.Ideal
import Idealize.ShloMosaic.PureOps.Ideal.Laws
import proofs.«181684_j29145648070885_2_alg».proof.Proof.LibWords

noncomputable section

open scoped BigOperators

namespace Cert.LibOneHot

open Idealize.ShloMosaic

/-- The weight of class `q` for the label word `w`. -/
def weight {n : ℕ} (w : BitVec 32) (q : Fin n) : EReal := if w = BitVec.ofNat 32 q.val then 1 else 0

/-- The comparison bit "the word of q equals w", widened to 32 bits and read as a signed integer, is the weight. -/
theorem sitofp_extui_eq {n : ℕ} (w : BitVec 32) (q : Fin n) :
    FloatOps.sitofp (F := Ideal) .f32 ((IntOp.cmpi .eq (BitVec.ofNat 32 q.val) w).setWidth 32) = weight w q := by
  show (((((IntOp.cmpi .eq (BitVec.ofNat 32 q.val) w).setWidth 32).toInt : ℤ) : ℝ) : EReal) = _
  rw [Cert.LibWords.toInt_setWidth_bit]
  unfold weight
  by_cases h : w = BitVec.ofNat 32 q.val
  · rw [if_pos h, h]
    have : IntOp.cmpi .eq (BitVec.ofNat 32 q.val) (BitVec.ofNat 32 q.val) = 1#1 := by
      show BitVec.ofBool (BitVec.ofNat 32 q.val == BitVec.ofNat 32 q.val) = 1#1
      rw [beq_self_eq_true]; rfl
    rw [this]; norm_num
  · rw [if_neg h]
    have : IntOp.cmpi .eq (BitVec.ofNat 32 q.val) w = 0#1 := by
      show BitVec.ofBool (BitVec.ofNat 32 q.val == w) = 0#1
      rw [show (BitVec.ofNat 32 q.val == w) = false from beq_eq_false_iff_ne.mpr (fun e => h e.symm)]; rfl
    rw [this]; norm_num

/-- The comparison bit "w equals the word of q", read as an unsigned integer, is the weight. -/
theorem uitofp_eq {n : ℕ} (w : BitVec 32) (q : Fin n) :
    FloatOps.uitofp (F := Ideal) .f32 (IntOp.cmpi .eq w (BitVec.ofNat 32 q.val)) = weight w q := by
  show ((((IntOp.cmpi .eq w (BitVec.ofNat 32 q.val)).toNat : ℕ) : ℝ) : EReal) = _
  unfold weight
  by_cases h : w = BitVec.ofNat 32 q.val
  · rw [if_pos h, h]
    have : IntOp.cmpi .eq (BitVec.ofNat 32 q.val) (BitVec.ofNat 32 q.val) = 1#1 := by
      show BitVec.ofBool (BitVec.ofNat 32 q.val == BitVec.ofNat 32 q.val) = 1#1
      rw [beq_self_eq_true]; rfl
    rw [this]; norm_num
  · rw [if_neg h]
    have : IntOp.cmpi .eq w (BitVec.ofNat 32 q.val) = 0#1 := by
      show BitVec.ofBool (w == BitVec.ofNat 32 q.val) = 0#1
      rw [show (w == BitVec.ofNat 32 q.val) = false from beq_eq_false_iff_ne.mpr h]; rfl
    rw [this]; norm_num

/-- For the word of class `p`, the weight of `q` is 1 at `q = p` and 0 elsewhere. -/
theorem weight_ofNat {n : ℕ} (hn : n ≤ 2 ^ 32) (p q : Fin n) :
    weight (BitVec.ofNat 32 p.val) q = if q = p then 1 else 0 := by
  unfold weight
  by_cases h : q = p
  · rw [if_pos h, h, if_pos rfl]
  · rw [if_neg h, if_neg]
    intro e
    apply h
    have := congrArg BitVec.toNat e
    rw [BitVec.toNat_ofNat, BitVec.toNat_ofNat] at this
    have hp := p.isLt; have hq := q.isLt
    apply Fin.ext
    omega

/-- A weighted sum for the word of class `p` keeps the term at `p`. -/
theorem sum_weight {n : ℕ} (hn : n ≤ 2 ^ 32) (p : Fin n) (f : Fin n → EReal) :
    ∑ q : Fin n, f q * weight (BitVec.ofNat 32 p.val) q = f p := by
  rw [Finset.sum_eq_single p]
  · rw [weight_ofNat hn, if_pos rfl, mul_one]
  · intro q _ hq; rw [weight_ofNat hn, if_neg hq, mul_zero]
  · intro h; exact absurd (Finset.mem_univ p) h

/-- For the word of a class, a bias added after the weighted sum is the bias added inside it (with the sum started from
    the zero word). -/
theorem bias_after_eq_bias_inside {n : ℕ} (hn : n ≤ 2 ^ 32) (p : Fin n) (f : Fin n → EReal) (β : EReal) :
    (∑ q : Fin n, f q * weight (BitVec.ofNat 32 p.val) q) + β
      = Ideal.ofBits .f32 0x00000000#32 + ∑ q : Fin n, (f q + β) * weight (BitVec.ofNat 32 p.val) q := by
  rw [sum_weight hn p f, sum_weight hn p (fun q => f q + β), Ideal.ofBits_zero_f32, zero_add]

/-- A label word at least 0 and below n, as signed integers, is the word of a class. -/
theorem exists_class_of_range {n : ℕ} (hn : n < 2 ^ 31) (w : BitVec 32) (h0 : IntOp.cmpi .sge w 0#32 = 1#1)
    (h1 : IntOp.cmpi .slt w (BitVec.ofNat 32 n) = 1#1) : ∃ p : Fin n, w = BitVec.ofNat 32 p.val := by
  have l1 : w.toInt < (BitVec.ofNat 32 n).toInt := Cert.LibWords.lt_of_cmpi_slt h1
  have l0 : (0 : ℤ) ≤ w.toInt := by
    by_contra hneg
    have e : IntOp.cmpi .sge w 0#32 = 0#1 := by
      show BitVec.ofBool ((0#32 : BitVec 32).sle w) = 0#1
      rw [show (0#32 : BitVec 32).sle w = false from by simp [BitVec.sle]; omega]
      rfl
    rw [e] at h0
    exact absurd h0 (by decide)
  have en : (BitVec.ofNat 32 n).toInt = (n : ℤ) := by
    have := BitVec.toInt_eq_toNat_cond (BitVec.ofNat 32 n)
    rw [BitVec.toNat_ofNat] at this
    split_ifs at this <;> omega
  rw [en] at l1
  have hlt : w.toNat < n := by
    have := BitVec.toInt_eq_toNat_cond w
    have hw := w.isLt
    split_ifs at this <;> omega
  refine ⟨⟨w.toNat, hlt⟩, BitVec.eq_of_toNat_eq ?_⟩
  show w.toNat = (BitVec.ofNat 32 w.toNat).toNat
  rw [BitVec.toNat_ofNat]
  have := w.isLt
  omega

end Cert.LibOneHot

end
-- ==== Proof.Pay0.lean ====
/- The row-sum kernel's two stored values, read entry by entry on the extended reals.

   The kernel multiplies the band of 256 columns that holds the block's diagonal by the weight
   w(r, k) = 1 if r = k, 0 otherwise (a comparison of a row counter with a column counter, widened to 32 bits and
   converted to a float), and sums each row of the product: every term but the one at k = r is a product with
   zero, which is zero for every extended real, so the sum is the band's entry (b, r, r) and no finiteness is
   needed. The degree weight is then 1 / (ε + √(row sum − that entry + 1)). -/
import proofs.«181684_j29145648070885_2_alg».proof.Proof.Gen.KernelIdeal.Skeleton
import proofs.«181684_j29145648070885_2_alg».proof.Proof.Spec
import proofs.«181684_j29145648070885_2_alg».proof.Proof.LibOneHot
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx
open scoped BigOperators

/-- The weight of row r for the column counter's word k is the weight of column k for the row's word: both say r = k
    (the counters are below 256, so their words are distinct). -/
theorem weight_comm (r k : Fin 256) :
    Cert.LibOneHot.weight (BitVec.ofNat 32 k.val) r = Cert.LibOneHot.weight (BitVec.ofNat 32 r.val) k := by
  unfold Cert.LibOneHot.weight
  by_cases h : (BitVec.ofNat 32 k.val) = BitVec.ofNat 32 r.val
  · rw [if_pos h, if_pos h.symm]
  · rw [if_neg h, if_neg (fun e => h e.symm)]

/-- The broadcast weight at (b, r, k): the comparison of the row counter with the column counter. -/
theorem weight_apply (b : Fin 8) (r k : Fin 256) :
    (broadcastTo S8x256x256 (shapeCast S1x256x256 (sitofp (F := Ideal) .f32 (extui 32 (cmpi .eq (iota .tc S256x256 32 [0] iota_S256x256_d0_w32) (iota .tc S256x256 32 [1] iota_S256x256_d1_w32)) natLt_1_32)) shapeCasts_S256x256_S1x256x256) broadcasts_S1x256x256_S8x256x256 : FVec Ideal S8x256x256 .f32) (ix3 b r k)
      = Cert.LibOneHot.weight (BitVec.ofNat 32 k.val) r := by
  refine (broadcastTo_apply _ broadcasts_S1x256x256_S8x256x256 (ix3 b r k) (ix3 (0 : Fin 1) r k) ?_).trans ?_
  · intro a; match a with | ⟨0, _⟩ => rfl | ⟨1, _⟩ => rfl | ⟨2, _⟩ => rfl
  refine (shapeCast_apply _ shapeCasts_S256x256_S1x256x256 (ix3 (0 : Fin 1) r k) (ix2 r k) ?_).trans ?_
  · rw [Shape.rowMajor_val_two, Shape.rowMajor_val_three]
    show r.val * 256 + k.val = (0 * 256 + r.val) * 256 + k.val
    omega
  rw [sitofp_apply, extui_apply]
  show FloatOps.sitofp (F := Ideal) .f32 ((IntOp.cmpi .eq (iota .tc S256x256 32 [0] iota_S256x256_d0_w32 (ix2 r k)) (iota .tc S256x256 32 [1] iota_S256x256_d1_w32 (ix2 r k))).setWidth 32) = _
  rw [iota_single_apply, iota_single_apply]
  exact Cert.LibOneHot.sitofp_extui_eq (BitVec.ofNat 32 k.val) r

/-- The value stored in the second output at (b, r): the band's entry (b, r, r). -/
theorem pay1_apply (v5 : Vec Ideal S8x256x256 .f32) (b : Fin 8) (r : Fin 256) :
    k0_pay1 v5 (ix2 b r) = v5 (ix3 b r r) := by
  unfold k0_pay1
  refine (Ideal.multiReduction_add_single _ 0x00000000#32 reduces_S8x256x256_S8x256 (.inl rfl) rfl (ix2 b r)).trans ?_
  have hl : ∀ k : Fin 256, reduces_S8x256x256_S8x256.lift (ix2 b r) k = ix3 b r k := fun k => by
    funext a; apply Fin.ext; match a with | ⟨0, _⟩ => rfl | ⟨1, _⟩ => rfl | ⟨2, _⟩ => rfl
  show ∑ k : Fin 256, _ = _
  refine (Finset.sum_congr rfl (fun k _ => ?_)).trans
    (Cert.LibOneHot.sum_weight (n := 256) (by norm_num) r (fun k => v5 (ix3 b r k)))
  rw [hl k, mulf_apply, weight_apply, weight_comm]

/-- The lane sum of the whole block at (b, r): the sum of row r of batch b over its 2048 columns. -/
theorem rowsum_apply (v0 : Vec Ideal S8x256x2048 .f32) (b : Fin 8) (r : Fin 256) :
    multiReduction (F := Ideal) .add [2] S8x256 v0 0x00000000#32 reduces_S8x256x2048_S8x256 (.inl rfl) rfl (ix2 b r)
      = ∑ m : Fin 2048, v0 (ix3 b r m) := by
  refine (Ideal.multiReduction_add_single v0 0x00000000#32 reduces_S8x256x2048_S8x256 (.inl rfl) rfl (ix2 b r)).trans ?_
  show ∑ m : Fin 2048, _ = _
  refine Finset.sum_congr rfl (fun m _ => congrArg v0 ?_)
  funext a; apply Fin.ext; match a with | ⟨0, _⟩ => rfl | ⟨1, _⟩ => rfl | ⟨2, _⟩ => rfl

/-- The value stored in the first output at (b, r): 1 / (ε + √(row sum − band entry (b, r, r) + 1)). -/
theorem pay2_apply (v0 : Vec Ideal S8x256x2048 .f32) (v5 : Vec Ideal S8x256x256 .f32) (b : Fin 8) (r : Fin 256) :
    k0_pay2 v0 v5 (ix2 b r)
      = Ideal.div Cert.GraphConv.one (Cert.GraphConv.eps
          + Ideal.sqrt ((∑ m : Fin 2048, v0 (ix3 b r m)) - v5 (ix3 b r r) + Cert.GraphConv.one)) := by
  unfold k0_pay2
  show Ideal.div (Ideal.ofBits .f32 0x3F800000#32) (Ideal.ofBits .f32 0x358637BD#32
    + Ideal.sqrt (multiReduction (F := Ideal) .add [2] S8x256 v0 0x00000000#32 reduces_S8x256x2048_S8x256 (.inl rfl) rfl (ix2 b r)
        - k0_pay1 v5 (ix2 b r) + Ideal.ofBits .f32 0x3F800000#32)) = _
  rw [rowsum_apply, pay1_apply]

end Cert.KernelIdeal.Hand

end
-- ==== Proof.Value0.lean ====
/- What the row-sum kernel's two output arrays hold after its last write-back, for any entry contents, on the
   extended reals.

   Grid point t (row block t) reads rows 256·t … 256·t+255 of the adjacency array, all 2048 columns, and the band
   of columns 256·t … 256·t+255 of those rows, which holds the block's diagonal; it writes rows 256·t … 256·t+255
   of both [8, 2048] outputs. So row n of an output is written by point n / 256, at the block's row n mod 256, and
   the band entry it reads is the adjacency's diagonal entry (b, n, n). The eight blocks tile the outputs. -/
import proofs.«181684_j29145648070885_2_alg».proof.Proof.FrameI0
import proofs.«181684_j29145648070885_2_alg».proof.Proof.Pay0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## One grid point -/

/-- The band read at the point of coordinates i, at its diagonal (b, r, r): the block's entry (b, r, 256·i + r). -/
theorem band_apply (i : grid0.Coords) (x0 : Vec Ideal S8x256x2048 .f32) (b : Fin 8) (r : Fin 256) (d : Fin 2048)
    (hd : d.val = 256 * (i 0).val + r.val) :
    (View.ld x0 (rband0 i) : Vec Ideal S8x256x256 .f32) (ix3 b r r) = x0 (ix3 b r d) := by
  show x0 ((rband0 i).idx (ix3 b r r)) = x0 (ix3 b r d)
  refine congrArg x0 ?_
  have ho := k0_off1_eq i
  funext a; apply Fin.ext
  match a with
  | ⟨0, _⟩ => show (k0_off1 i) 0 + 1 * b.val = b.val; rw [ho]; show 0 + 1 * b.val = b.val; omega
  | ⟨1, _⟩ => show (k0_off1 i) 1 + 1 * r.val = r.val; rw [ho]; show 0 + 1 * r.val = r.val; omega
  | ⟨2, _⟩ => show (k0_off1 i) 2 + 1 * r.val = d.val; rw [ho, hd]; show 256 * (i 0).val + 1 * r.val = _; omega

/-- The second output's block at (b, r): the input block's entry (b, r, 256·i + r). -/
theorem out0_2_apply (i : grid0.Coords) (x0 : Vec Ideal S8x256x2048 .f32) (b : Fin 8) (r : Fin 256) (d : Fin 2048)
    (hd : d.val = 256 * (i 0).val + r.val) : out0_2 i x0 (ix2 b r) = x0 (ix3 b r d) := by
  unfold out0_2
  rw [View.canon_unit_zero hz2, pay1_apply]
  exact band_apply i x0 b r d hd

/-- The first output's block at (b, r): 1 / (ε + √(row r's sum − entry (b, r, 256·i + r) + 1)). -/
theorem out0_1_apply (i : grid0.Coords) (x0 : Vec Ideal S8x256x2048 .f32) (b : Fin 8) (r : Fin 256) (d : Fin 2048)
    (hd : d.val = 256 * (i 0).val + r.val) :
    out0_1 i x0 (ix2 b r) = Ideal.div Cert.GraphConv.one (Cert.GraphConv.eps
        + Ideal.sqrt ((∑ m : Fin 2048, x0 (ix3 b r m)) - x0 (ix3 b r d) + Cert.GraphConv.one)) := by
  unfold out0_1
  rw [View.canon_unit_zero hz2, View.ld_unit_zero (S := S8x256x2048) hz3, pay2_apply, band_apply i x0 b r d hd]

/-! ## The blocks in the arrays -/

/-- The printed index maps over the grid: point t's blocks are row block t of each array, and its coordinate is t. -/
theorem idx_facts0 : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = t.val
    ∧ win0_2.index t (0 : Fin 2) = 0 ∧ win0_2.index t (1 : Fin 2) = t.val
    ∧ ((grid0.coords t) 0).val = t.val :=
  (by decide +kernel : ∀ t : Fin grid0.N, _)

/-- The input block at point t, entry (b, r, m): the adjacency's entry (b, 256·t + r, m). -/
theorem iblk0_apply (c : Dev nD) (t : Fin cfg0.N) (b : Fin 8) (r : Fin 256) (m : Fin 2048) (n : Fin 2048)
    (hn : n.val = 256 * t.val + r.val) :
    (iblk0 V c 0 t : Vec Ideal S8x256x2048 .f32) (ix3 b r m) = (V c main_arg1 : Cert.GraphConv.SA.Idx → EReal) (ix3 b n m) := by
  obtain ⟨e0, e1, e2, -⟩ := idx_facts0 t
  unfold iblk0
  rw [View.read_apply]
  show V c main_arg1 _ = V c main_arg1 _
  congr 1
  funext a; apply Fin.ext
  match a with
  | ⟨0, _⟩ => show win0_0.index t 0 * 8 + 1 * b.val = b.val; rw [e0]; omega
  | ⟨1, _⟩ => show win0_0.index t 1 * 256 + 1 * r.val = n.val; rw [e1, hn]; omega
  | ⟨2, _⟩ => show win0_0.index t 2 * 2048 + 1 * m.val = m.val; rw [e2]; omega

/-- A block whose row r is the adjacency's row n gives, under 1 / (ε + √(row sum − entry n + 1)), the degree weight of n. -/
theorem deg_of_block (x0 : Vec Ideal S8x256x2048 .f32) (adj : Cert.GraphConv.SA.Idx → EReal) (b : Fin 8) (r : Fin 256) (n : Fin 2048)
    (h : ∀ m : Fin 2048, x0 (ix3 b r m) = adj (ix3 b n m)) :
    Ideal.div Cert.GraphConv.one (Cert.GraphConv.eps
        + Ideal.sqrt ((∑ m : Fin 2048, x0 (ix3 b r m)) - x0 (ix3 b r n) + Cert.GraphConv.one))
      = Cert.GraphConv.deg adj b n := by
  unfold Cert.GraphConv.deg Cert.GraphConv.rowSum
  rw [Finset.sum_congr rfl (fun m _ => h m), h n]

/-- What point t leaves in the first output's buffer at (b, r): the degree weight of node 256·t + r. -/
theorem out1_point (c : Dev nD) (t : Fin cfg0.N) (b : Fin 8) (r : Fin 256) (n : Fin 2048) (hn : n.val = 256 * t.val + r.val) :
    out0_1 (grid0.coords t) (iblk0 V c 0 t) (ix2 b r) = Cert.GraphConv.deg (V c main_arg1) b n := by
  obtain ⟨-, -, -, -, -, -, -, hc⟩ := idx_facts0 t
  rw [out0_1_apply (grid0.coords t) (iblk0 V c 0 t) b r n (by rw [hc]; exact hn)]
  exact deg_of_block (iblk0 V c 0 t) (V c main_arg1) b r n (fun m => iblk0_apply V c t b r m n hn)

/-- What point t leaves in the second output's buffer at (b, r): the adjacency's diagonal entry at node 256·t + r. -/
theorem out2_point (c : Dev nD) (t : Fin cfg0.N) (b : Fin 8) (r : Fin 256) (n : Fin 2048) (hn : n.val = 256 * t.val + r.val) :
    out0_2 (grid0.coords t) (iblk0 V c 0 t) (ix2 b r) = (V c main_arg1 : Cert.GraphConv.SA.Idx → EReal) (ix3 b n n) := by
  obtain ⟨-, -, -, -, -, -, -, hc⟩ := idx_facts0 t
  rw [out0_2_apply (grid0.coords t) (iblk0 V c 0 t) b r n (by rw [hc]; exact hn), iblk0_apply V c t b r n n hn]

/-- The degree weights as an [8, 2048] array. -/
abbrev degArr (adj : Cert.GraphConv.SA.Idx → EReal) : S8x2048.Idx → EReal :=
  fun j => Cert.GraphConv.deg adj (j 0) (j 1)

/-- The diagonal as an [8, 2048] array. -/
abbrev diagArr (adj : Cert.GraphConv.SA.Idx → EReal) : S8x2048.Idx → EReal :=
  fun j => adj (ix3 (j 0) (j 1) (j 1))

/-- Point t writes back block t of the degree weights. -/
theorem flushed1_eq (c : Dev nD) (t : Fin cfg0.N) :
    (dat0 V c).flushed 1 t = ((cfg0.win 1).blk t).view.read (Elt Ideal) (degArr (V c main_arg1)) := by
  show (cfg0.win 1).cut (grid0.coords t) ((dat0 V c).after 1 t) = _
  rw [after0_1]
  have key : ∀ y : S8x256.Idx, out0_1 (grid0.coords t) (iblk0 V c 0 t) y
      = degArr (V c main_arg1) (((cfg0.win 1).blk t).view.emb y) := by
    intro y
    obtain ⟨b, r, rfl⟩ : ∃ (b : Fin 8) (r : Fin 256), y = ix2 b r := ⟨y 0, y 1, eq_ix2 y⟩
    obtain ⟨-, -, -, f0, f1, -⟩ := idx_facts0 t
    have ht : t.val < 8 := lt_of_lt_of_eq t.isLt N_0
    have h0 : ((((cfg0.win 1).blk t).view.emb (ix2 b r)) 0 : Fin 8) = b :=
      Fin.ext (by show win0_1.index t 0 * 8 + 1 * b.val = b.val; rw [f0]; omega)
    have hn : 256 * t.val + r.val < 2048 := by omega
    have h1 : ((((cfg0.win 1).blk t).view.emb (ix2 b r)) 1 : Fin 2048) = (⟨256 * t.val + r.val, hn⟩ : Fin 2048) :=
      Fin.ext (by show win0_1.index t 1 * 256 + 1 * r.val = 256 * t.val + r.val; rw [f1]; omega)
    exact (out1_point V c t b r (⟨256 * t.val + r.val, hn⟩ : Fin 2048) rfl).trans
      (congrArg₂ (Cert.GraphConv.deg (V c main_arg1)) h0 h1).symm
  funext y
  rw [View.read_apply]
  exact key y

/-- Point t writes back block t of the diagonal. -/
theorem flushed2_eq (c : Dev nD) (t : Fin cfg0.N) :
    (dat0 V c).flushed 2 t = ((cfg0.win 2).blk t).view.read (Elt Ideal) (diagArr (V c main_arg1)) := by
  show (cfg0.win 2).cut (grid0.coords t) ((dat0 V c).after 2 t) = _
  rw [after0_2]
  have key : ∀ y : S8x256.Idx, out0_2 (grid0.coords t) (iblk0 V c 0 t) y
      = diagArr (V c main_arg1) (((cfg0.win 2).blk t).view.emb y) := by
    intro y
    obtain ⟨b, r, rfl⟩ : ∃ (b : Fin 8) (r : Fin 256), y = ix2 b r := ⟨y 0, y 1, eq_ix2 y⟩
    obtain ⟨-, -, -, -, -, g0, g1, -⟩ := idx_facts0 t
    have ht : t.val < 8 := lt_of_lt_of_eq t.isLt N_0
    have h0 : ((((cfg0.win 2).blk t).view.emb (ix2 b r)) 0 : Fin 8) = b :=
      Fin.ext (by show win0_2.index t 0 * 8 + 1 * b.val = b.val; rw [g0]; omega)
    have hn : 256 * t.val + r.val < 2048 := by omega
    have h1 : ((((cfg0.win 2).blk t).view.emb (ix2 b r)) 1 : Fin 2048) = (⟨256 * t.val + r.val, hn⟩ : Fin 2048) :=
      Fin.ext (by show win0_2.index t 1 * 256 + 1 * r.val = 256 * t.val + r.val; rw [g1]; omega)
    exact (out2_point V c t b r (⟨256 * t.val + r.val, hn⟩ : Fin 2048) rfl).trans
      (congrArg₂ (fun (p : Fin 8) (q : Fin 2048) => (V c main_arg1 : Cert.GraphConv.SA.Idx → EReal) (ix3 p q q)) h0 h1).symm
  funext y
  rw [View.read_apply]
  exact key y

/-! ## The cover, and the arrays -/

/-- An index of an output array is in point t's block iff each coordinate is in the block's range on its axis. -/
theorem mem_blk1 (t : Fin cfg0.N) (i : S8x2048.Idx) :
    i ∈ ((cfg0.win 1).blk t).view.set ↔ ∀ a : Fin 2, win0_1.index t a * S8x256.size a ≤ (i a).val ∧ (i a).val < win0_1.index t a * S8x256.size a + S8x256.size a := by
  show i ∈ ((View.whole main_v0_0).slice (win0_1.rect t)).set ↔ _
  rw [View.set_slice_whole, Rect.mem_set_unit]
  exact Iff.rfl

theorem mem_blk2 (t : Fin cfg0.N) (i : S8x2048.Idx) :
    i ∈ ((cfg0.win 2).blk t).view.set ↔ ∀ a : Fin 2, win0_2.index t a * S8x256.size a ≤ (i a).val ∧ (i a).val < win0_2.index t a * S8x256.size a + S8x256.size a := by
  show i ∈ ((View.whole main_v0_1).slice (win0_2.rect t)).set ↔ _
  rw [View.set_slice_whole, Rect.mem_set_unit]
  exact Iff.rfl

/-- Row n of the first output is in the block of point n / 256, which writes it back. -/
theorem cover1 (i : S8x2048.Idx) : ∃ t : Fin cfg0.N, (cfg0.win 1).flush t = true ∧ i ∈ ((cfg0.win 1).blk t).view.set := by
  have hi0 : (i 0).val < 8 := (i 0).isLt
  have hi1 : (i 1).val < 2048 := (i 1).isLt
  have hN : grid0.N = 8 := N_0
  have hlt : (i 1).val / 256 < grid0.N := by rw [hN]; omega
  obtain ⟨-, -, -, f0, f1, -⟩ := idx_facts0 ⟨(i 1).val / 256, hlt⟩
  refine ⟨⟨(i 1).val / 256, hlt⟩, flush0_1 _, ?_⟩
  rw [mem_blk1]
  intro a
  match a with
  | ⟨0, _⟩ =>
    show win0_1.index ⟨(i 1).val / 256, hlt⟩ 0 * 8 ≤ (i 0).val ∧ (i 0).val < win0_1.index ⟨(i 1).val / 256, hlt⟩ 0 * 8 + 8
    rw [f0]; omega
  | ⟨1, _⟩ =>
    show win0_1.index ⟨(i 1).val / 256, hlt⟩ 1 * 256 ≤ (i 1).val ∧ (i 1).val < win0_1.index ⟨(i 1).val / 256, hlt⟩ 1 * 256 + 256
    rw [f1]; show (i 1).val / 256 * 256 ≤ (i 1).val ∧ (i 1).val < (i 1).val / 256 * 256 + 256; omega

/-- Likewise for the second output. -/
theorem cover2 (i : S8x2048.Idx) : ∃ t : Fin cfg0.N, (cfg0.win 2).flush t = true ∧ i ∈ ((cfg0.win 2).blk t).view.set := by
  have hi0 : (i 0).val < 8 := (i 0).isLt
  have hi1 : (i 1).val < 2048 := (i 1).isLt
  have hN : grid0.N = 8 := N_0
  have hlt : (i 1).val / 256 < grid0.N := by rw [hN]; omega
  obtain ⟨-, -, -, -, -, g0, g1, -⟩ := idx_facts0 ⟨(i 1).val / 256, hlt⟩
  refine ⟨⟨(i 1).val / 256, hlt⟩, flush0_2 _, ?_⟩
  rw [mem_blk2]
  intro a
  match a with
  | ⟨0, _⟩ =>
    show win0_2.index ⟨(i 1).val / 256, hlt⟩ 0 * 8 ≤ (i 0).val ∧ (i 0).val < win0_2.index ⟨(i 1).val / 256, hlt⟩ 0 * 8 + 8
    rw [g0]; omega
  | ⟨1, _⟩ =>
    show win0_2.index ⟨(i 1).val / 256, hlt⟩ 1 * 256 ≤ (i 1).val ∧ (i 1).val < win0_2.index ⟨(i 1).val / 256, hlt⟩ 1 * 256 + 256
    rw [g1]; show (i 1).val / 256 * 256 ≤ (i 1).val ∧ (i 1).val < (i 1).val / 256 * 256 + 256; omega

/-- After the last write-back the first output array holds the degree weights of the adjacency the region found: -/
theorem arr0_1 (c : Dev nD) :
    (dat0 (F := Ideal) V c).arrAt 1 cfg0.N = (fun j : S8x2048.Idx => Cert.GraphConv.deg (V c main_arg1) (j 0) (j 1)) :=
  (dat0 V c).arrAt_eq_of_cover 1 (degArr (V c main_arg1)) (fun t _ => flushed1_eq V c t) cover1

/-- and the second its diagonal. -/
theorem arr0_2 (c : Dev nD) :
    (dat0 (F := Ideal) V c).arrAt 2 cfg0.N
      = (fun j : S8x2048.Idx => (V c main_arg1 : Cert.GraphConv.SA.Idx → EReal) (ix3 (j 0) (j 1) (j 1))) :=
  (dat0 V c).arrAt_eq_of_cover 2 (diagArr (V c main_arg1)) (fun t _ => flushed2_eq V c t) cover2

end Cert.KernelIdeal.Hand

end
-- ==== Proof.Entry1.lean ====
/- The arrays as the second region finds them, on the extended reals, as functions of the launch memory.

   No host line and no region writes the adjacency or the projection, so they are as launched. The first region
   leaves the degree weights and the adjacency's diagonal in its two outputs, and the host lines between the regions
   write none of these. The host lines then broadcast the degree weights along the feature axis, multiply by the
   features, and change the float format (the identity on the extended reals): entry (b, n, f) of the scaled features
   is d(b, n) · x(b, n, f). -/
import proofs.«181684_j29145648070885_2_alg».proof.Proof.RunI
import proofs.«181684_j29145648070885_2_alg».proof.Proof.Value0
import proofs.«181684_j29145648070885_2_alg».proof.Proof.Spec
import proofs.«181684_j29145648070885_2_alg».proof.Proof.Gen.KernelIdeal.Regions
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-! ## At the first region's exit -/

/-- The adjacency is an input of the first region: never written. -/
theorem W1_adj (c : Dev nD) : W1 m ρ c (Proc.devRef .tc main_arg1) = m ((c : Thread nD τ).loc main_arg1) :=
  (W1_arr m ρ c 0).trans (((dat0 (VA m ρ) c).arrAt_in 0 rfl _).trans (A_eq0 (VA m ρ) c 0))

/-- The features and the projection are no array of the first region. -/
theorem W1_x (c : Dev nD) : W1 m ρ c (Proc.devRef .tc main_arg0) = m ((c : Thread nD τ).loc main_arg0) :=
  W1_of_ne m ρ c main_arg0 (by decide)
theorem W1_ker (c : Dev nD) : W1 m ρ c (Proc.devRef .tc main_arg2) = m ((c : Thread nD τ).loc main_arg2) :=
  W1_of_ne m ρ c main_arg2 (by decide)

/-- Its first output holds the degree weights of the launched adjacency, -/
theorem W1_deg (c : Dev nD) : W1 m ρ c (Proc.devRef .tc main_v0_0)
    = (fun j : S8x2048.Idx => Cert.GraphConv.deg (m ((c : Thread nD τ).loc main_arg1)) (j 0) (j 1)) :=
  (W1_arr m ρ c 1).trans (arr0_1 (VA m ρ) c)

/-- and its second the diagonal. -/
theorem W1_diag (c : Dev nD) : W1 m ρ c (Proc.devRef .tc main_v0_1)
    = (fun j : S8x2048.Idx => (m ((c : Thread nD τ).loc main_arg1) : Cert.GraphConv.SA.Idx → EReal) (ix3 (j 0) (j 1) (j 1))) :=
  (W1_arr m ρ c 2).trans (arr0_2 (VA m ρ) c)

/-! ## At the second region's entry -/

theorem entry_adj (c : Dev nD) : VC (F := Ideal) m ρ c main_arg1 = m ((c : Thread nD τ).loc main_arg1) :=
  (StableHlo.after_of_writes_sub hostOps1 (W1 m ρ c) hostOps1_writes (by decide)).trans (W1_adj m ρ c)

theorem entry_ker (c : Dev nD) : VC (F := Ideal) m ρ c main_arg2 = m ((c : Thread nD τ).loc main_arg2) :=
  (StableHlo.after_of_writes_sub hostOps1 (W1 m ρ c) hostOps1_writes (by decide)).trans (W1_ker m ρ c)

theorem entry_deg (c : Dev nD) : VC (F := Ideal) m ρ c main_v0_0
    = (fun j : S8x2048.Idx => Cert.GraphConv.deg (m ((c : Thread nD τ).loc main_arg1)) (j 0) (j 1)) :=
  (StableHlo.after_of_writes_sub hostOps1 (W1 m ρ c) hostOps1_writes (by decide)).trans (W1_deg m ρ c)

theorem entry_diag (c : Dev nD) : VC (F := Ideal) m ρ c main_v0_1
    = (fun j : S8x2048.Idx => (m ((c : Thread nD τ).loc main_arg1) : Cert.GraphConv.SA.Idx → EReal) (ix3 (j 0) (j 1) (j 1))) :=
  (StableHlo.after_of_writes_sub hostOps1 (W1 m ρ c) hostOps1_writes (by decide)).trans (W1_diag m ρ c)

/-- The scaled features: the degree weight of the row times the feature. -/
theorem entry_dx (c : Dev nD) : VC (F := Ideal) m ρ c main_v4
    = (fun j : S8x2048x128.Idx => Cert.GraphConv.deg (m ((c : Thread nD τ).loc main_arg1)) (j 0) (j 1)
        * (m ((c : Thread nD τ).loc main_arg0) : Cert.GraphConv.SX.Idx → EReal) j) := by
  show StableHlo.after hostOps1 (W1 m ρ c) (Proc.devRef .tc main_v4) = _
  after_results
  rw [W1_deg m ρ c, W1_x m ρ c]
  funext j
  obtain ⟨b, n, f, rfl⟩ : ∃ (b : Fin 8) (n : Fin 2048) (f : Fin 128), j = ix3 b n f := ⟨j 0, j 1, j 2, eq_ix3 j⟩
  rw [truncf_apply, mulf_apply]
  refine congrArg (· * _) ?_
  refine (broadcastInDim_apply ![0, 1, 2] bcast_S8x2048x1_S8x2048x128_0_1_2 _ (ix3 b n f) (ix3 b n (0 : Fin 1)) ?_).trans ?_
  · intro a; match a with | ⟨0, _⟩ => rfl | ⟨1, _⟩ => rfl | ⟨2, _⟩ => rfl
  refine (broadcastInDim_apply ![0, 1] bcast_S8x2048_S8x2048x1_0_1 _ (ix3 b n (0 : Fin 1)) (ix2 b n) ?_).trans ?_
  · intro a; match a with | ⟨0, _⟩ => rfl | ⟨1, _⟩ => rfl
  rfl

end Cert.KernelIdeal.Hand

end
-- ==== Proof.KernelG.lean ====
/-
  The kernel's result is the graph convolution of its three arguments. The second region's output array is its closing
  function of the five arrays it finds; those are, read back through the host lines and the first region, the
  adjacency and the projection as launched, the degree weights and the diagonal of the adjacency, and the features
  scaled by the degree weights — which is the specification, term by term.
-/
import proofs.«181684_j29145648070885_2_alg».proof.Proof.Value1
import proofs.«181684_j29145648070885_2_alg».proof.Proof.Entry1
import proofs.«181684_j29145648070885_2_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- At the last boundary the result buffer holds the graph convolution of the launch memory's three argument arrays. -/
theorem out_is_G (c : Dev nD) :
    W3 (F := Ideal) m ρ c (Proc.devRef .tc main_v5)
      = Cert.GraphConv.G (m ((c : Thread nD τ).loc main_arg0)) (m ((c : Thread nD τ).loc main_arg1)) (m ((c : Thread nD τ).loc main_arg2)) := by
  refine (W3_arr m ρ c 5).trans ?_
  rw [arr1_5 (VC m ρ) c]
  show outOf (VC m ρ c main_arg1) (VC m ρ c main_v4) (VC m ρ c main_v0_0) (VC m ρ c main_v0_1) (VC m ρ c main_arg2) = _
  rw [entry_adj m ρ c, entry_dx m ρ c, entry_deg m ρ c, entry_diag m ρ c, entry_ker m ρ c]
  funext j
  obtain ⟨b, n, o, rfl⟩ : ∃ (b : Fin 8) (n : Fin 2048) (o : Fin 128), j = ix3 b n o := ⟨j 0, j 1, j 2, eq_ix3 j⟩
  rfl

end Cert.KernelIdeal.Hand

end
-- ==== Proof.Law.lean ====
/-
  The reference's arrangement of the graph convolution, and the law that joins it to `Cert.GraphConv.G`.

  The reference first rewrites the adjacency: `Â(b,n,m) = adj(b,n,m) · (1 − δ(n,m)) + δ(n,m)` — the diagonal entry
  replaced by a self-loop of weight one —, takes the degree weight `d'(b,n) = 1 / (ε + √(0 + Σ_m Â(b,n,m)))` from ITS row
  sums, scales `Â` by both end points' weights, `norm(b,n,m) = (Â(b,n,m) · d'(b,n)) · d'(b,m)`, and only then
  contracts with the features: `Σ_m norm(b,n,m) · x(b,m,f)`.

  Over real arguments `Σ_m Â(b,n,m) = Σ_m adj(b,n,m) − adj(b,n,n) + 1`, so `d'` is the degree weight `d` of the
  specification; `d` is itself a real number (a negative radicand gives `√ = −∞`, `ε + (−∞) = −∞` and `1 / (−∞) = 0`;
  otherwise `ε + √·` is a positive real); and splitting the sum over `m` at `m = n`, with `d(b,n)` taken out of it, gives
  `d(b,n) · (Σ_m adj(b,n,m) · (d(b,m) · x(b,m,f)) + (d(b,n) · x(b,n,f)) · (1 − adj(b,n,n)))`.
  Taking a factor out of a sum is not sound at an infinity: this is where the arguments have to be real. The projection
  `k` enters both sides the same way and may be any extended reals.
-/
import proofs.«181684_j29145648070885_2_alg».proof.Proof.Consts

noncomputable section

namespace Cert.GraphConv.Law

open Idealize.ShloMosaic Idealize.ShloMosaic.ValueIdx Cert.GraphConv
open scoped BigOperators

/-! ## Finite sums of reals inside the extended reals -/

/-- The inclusion of the reals in the extended reals commutes with a finite sum. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-! ## The two identities, over the reals -/

/-- A row sum with its `n`-th entry replaced by one. -/
theorem real_hat_sum {ι : Type} [Fintype ι] [DecidableEq ι] (a : ι → ℝ) (n : ι) :
    0 + ∑ m, (a m * (1 - (if n = m then (1 : ℝ) else 0)) + (if n = m then (1 : ℝ) else 0)) = ∑ m, a m - a n + 1 := by
  have h : ∀ m, a m * (1 - (if n = m then (1 : ℝ) else 0)) + (if n = m then (1 : ℝ) else 0)
      = a m + (if n = m then 1 - a n else 0) := by
    intro m; split_ifs with h
    · subst h; ring
    · ring
  simp only [h, Finset.sum_add_distrib, Finset.sum_ite_eq, Finset.mem_univ, if_true]
  ring

/-- The weighted row of the rewritten adjacency against `x`, split at `m = n` with `d n` taken out. -/
theorem real_agg {ι : Type} [Fintype ι] [DecidableEq ι] (a d x : ι → ℝ) (n : ι) :
    ∑ m, (((a m * (1 - (if n = m then (1 : ℝ) else 0)) + (if n = m then (1 : ℝ) else 0)) * d n) * d m) * x m
      = d n * ((∑ m, a m * (d m * x m)) + (d n * x n) * (1 - a n)) := by
  have h : ∀ m, (((a m * (1 - (if n = m then (1 : ℝ) else 0)) + (if n = m then (1 : ℝ) else 0)) * d n) * d m) * x m
      = d n * (a m * (d m * x m)) + (if n = m then d n * ((d n * x n) * (1 - a n)) else 0) := by
    intro m; split_ifs with h
    · subst h; ring
    · ring
  simp only [h, Finset.sum_add_distrib, Finset.sum_ite_eq, Finset.mem_univ, if_true, ← Finset.mul_sum]
  ring

/-! ## The reference's arrangement -/

/-- The diagonal's indicator: one on the diagonal, zero off it. -/
def delta (n m : Fin 2048) : EReal := if n = m then ((1 : ℝ) : EReal) else ((0 : ℝ) : EReal)

/-- The adjacency with its diagonal replaced by self-loops of weight one. -/
def hat (adj : SA.Idx → EReal) (b : Fin 8) (n m : Fin 2048) : EReal :=
  adj (ix3 b n m) * (one - delta n m) + delta n m

/-- The degree weight the reference takes from the rewritten adjacency's row sums. -/
def degR (adj : SA.Idx → EReal) (b : Fin 8) (n : Fin 2048) : EReal :=
  Ideal.div one (eps + Ideal.sqrt (zero + ∑ m : Fin 2048, hat adj b n m))

/-- The reference's aggregate: the rewritten adjacency scaled by both end points' weights, contracted with the features. -/
def aggR (x : SX.Idx → EReal) (adj : SA.Idx → EReal) (b : Fin 8) (n : Fin 2048) (f : Fin 128) : EReal :=
  ∑ m : Fin 2048, ((hat adj b n m * degR adj b n) * degR adj b m) * x (ix3 b m f)

/-- The reference's projected and rectified result at node `n`, output feature `o`. -/
def outR (x : SX.Idx → EReal) (adj : SA.Idx → EReal) (k : SK.Idx → EReal) (b : Fin 8) (n : Fin 2048) (o : Fin 128) : EReal :=
  max (∑ f : Fin 128, aggR x adj b n f * k (ix2 f o)) zero

/-- The reference's whole result array. -/
def GR (x : SX.Idx → EReal) (adj : SA.Idx → EReal) (k : SK.Idx → EReal) : SX.Idx → EReal :=
  fun i => outR x adj k (i 0) (i 1) (i 2)

/-! ## The law -/

theorem delta_coe (n m : Fin 2048) : delta n m = ((if n = m then (1 : ℝ) else 0 : ℝ) : EReal) := by
  unfold delta; split_ifs <;> rfl

theorem hat_coe (a : SA.Idx → ℝ) (b : Fin 8) (n m : Fin 2048) :
    hat (fun i => (a i : EReal)) b n m
      = ((a (ix3 b n m) * (1 - (if n = m then (1 : ℝ) else 0)) + (if n = m then (1 : ℝ) else 0) : ℝ) : EReal) := by
  unfold hat
  rw [delta_coe, one_eq, ← EReal.coe_sub, ← EReal.coe_mul, ← EReal.coe_add]

/-- Over a real adjacency the rewritten row sum is the row sum with the diagonal entry replaced by one. -/
theorem radicand (a : SA.Idx → ℝ) (b : Fin 8) (n : Fin 2048) :
    zero + ∑ m : Fin 2048, hat (fun i => (a i : EReal)) b n m
      = rowSum (fun i => (a i : EReal)) b n - (a (ix3 b n n) : EReal) + one := by
  simp only [hat_coe, rowSum, ← coe_sum, zero_eq, one_eq]
  rw [← EReal.coe_add, ← EReal.coe_sub, ← EReal.coe_add]
  exact congrArg _ (real_hat_sum (fun m => a (ix3 b n m)) n)

/-- So the reference's degree weight is the specification's. -/
theorem degR_eq (a : SA.Idx → ℝ) (b : Fin 8) (n : Fin 2048) :
    degR (fun i => (a i : EReal)) b n = deg (fun i => (a i : EReal)) b n := by
  unfold degR deg
  rw [radicand]

/-- Over a real adjacency the degree weight is a real number: zero when the radicand is negative, and
    `1 / (ε + √·)` with a positive denominator otherwise. -/
theorem deg_real (a : SA.Idx → ℝ) (b : Fin 8) (n : Fin 2048) :
    ∃ d : ℝ, deg (fun i => (a i : EReal)) b n = (d : EReal) := by
  obtain ⟨e, he, hε⟩ := eps_pos
  unfold deg
  simp only [rowSum, ← coe_sum, one_eq, hε]
  rw [← EReal.coe_sub, ← EReal.coe_add]
  generalize (∑ m : Fin 2048, a (ix3 b n m)) - a (ix3 b n n) + 1 = s
  rw [Ideal.sqrt_coe]
  split_ifs with hs
  · refine ⟨0, ?_⟩
    simp [Ideal.div]
  · refine ⟨1 / (e + Real.sqrt s), ?_⟩
    rw [← EReal.coe_add, Ideal.div_coe (add_pos_of_pos_of_nonneg he (Real.sqrt_nonneg s)).ne', ← EReal.coe_mul, one_mul]

/-- The reference's aggregate is the specification's, over real features and a real adjacency. -/
theorem aggR_eq (xr : SX.Idx → ℝ) (a : SA.Idx → ℝ) (b : Fin 8) (n : Fin 2048) (f : Fin 128) :
    aggR (fun i => (xr i : EReal)) (fun i => (a i : EReal)) b n f
      = agg (fun i => (xr i : EReal)) (fun i => (a i : EReal)) b n f := by
  choose d hd using fun m => deg_real a b m
  unfold aggR agg
  simp only [degR_eq, hd, hat_coe, one_eq]
  simp only [← EReal.coe_mul, ← EReal.coe_add, ← EReal.coe_sub, ← coe_sum]
  exact congrArg _ (real_agg (fun m => a (ix3 b n m)) d (fun m => xr (ix3 b m f)) n)

/-- THE LAW: when every entry of the features and of the adjacency is a real number, the reference's arrangement is the
    specification, entry by entry. -/
theorem GR_eq_G (x : SX.Idx → EReal) (adj : SA.Idx → EReal) (k : SK.Idx → EReal)
    (hx : ∀ i, ∃ r : ℝ, x i = (r : EReal)) (ha : ∀ i, ∃ r : ℝ, adj i = (r : EReal)) :
    GR x adj k = G x adj k := by
  choose xr hxr using hx
  choose a ha' using ha
  obtain rfl : x = fun i => (xr i : EReal) := funext hxr
  obtain rfl : adj = fun i => (a i : EReal) := funext ha'
  funext i
  obtain ⟨b, n, o, rfl⟩ : ∃ (b : Fin 8) (n : Fin 2048) (o : Fin 128), i = ix3 b n o := ⟨i 0, i 1, i 2, eq_ix3 i⟩
  show outR _ _ k b n o = out _ _ k b n o
  unfold outR out
  simp only [aggR_eq]

end Cert.GraphConv.Law

end
-- ==== Proof.RefRead.lean ====
/-
  The reference's run, read at an index: its result array is the reference's arrangement `Cert.GraphConv.Law.GR` of the
  three argument arrays, for any extended reals, and hence the graph convolution `Cert.GraphConv.G` whenever every entry
  of the features and of the adjacency is a real number.

  Stage by stage. The comparison of the row iota (plus the zero word) with the column iota, converted to a float, is the
  diagonal's indicator `δ(n,m)`; `adj · (1 − δ) + δ`, broadcast over the batch, is the rewritten adjacency `Â`; its sum
  along the last axis from `0.0`, under `1 / (ε + √·)`, is the reference's degree weight; the two broadcasts of that
  weight, along the columns and along the rows, scale `Â`; the first contraction runs over the neighbour `m` within the
  batch, the second over the feature `f`; the called function's maximum with the broadcast `0.0` is the rectifier.
-/
import proofs.«181684_j29145648070885_2_alg».proof.Proof.Gen.ReferenceIdeal.Read
import proofs.«181684_j29145648070885_2_alg».proof.Proof.Law

noncomputable section

namespace Cert.GraphConv.Ref

open Idealize.ShloMosaic Idealize.ShloMosaic.ValueIdx Cert.ReferenceIdeal Cert.ReferenceIdeal.Read Cert.GraphConv
open scoped BigOperators

/-! ## The diagonal's indicator -/

/-- The one-bit word `(n + 0 = m)` of two node numbers, read as an unsigned integer, is one on the diagonal and zero off it. -/
theorem word_delta (n m : Fin 2048) :
    ((IntOp.cmpi .eq (IntOp.addi (BitVec.ofNat 32 n.val) 0#32) (BitVec.ofNat 32 m.val)).toNat : ℝ)
      = if n = m then 1 else 0 := by
  have hadd : IntOp.addi (BitVec.ofNat 32 n.val) 0#32 = BitVec.ofNat 32 n.val := by simp [IntOp.addi]
  rw [hadd]
  by_cases h : n = m
  · subst h; rw [if_pos rfl]; simp [IntOp.cmpi]
  · rw [if_neg h]
    have hne : BitVec.ofNat 32 n.val ≠ BitVec.ofNat 32 m.val := by
      intro e
      have e' := congrArg BitVec.toNat e
      simp only [BitVec.toNat_ofNat] at e'
      have hn := n.isLt
      have hm := m.isLt
      exact h (Fin.ext (by omega))
    simp [IntOp.cmpi, hne]

/-- The converted comparison of the two iotas is the diagonal's indicator. -/
theorem delta_read (n m : Fin 2048) : val_main_v5 (F := Ideal) (ix2 n m) = Law.delta n m := by
  rw [val_main_v5_apply, val_main_v4_apply, val_main_v3_apply, val_main_v2_apply, val_main_v0_apply, val_main_v1_apply,
    val_main_c_apply]
  show (((IntOp.cmpi .eq (IntOp.addi (BitVec.ofNat 32 n.val) 0#32) (BitVec.ofNat 32 m.val)).toNat : ℝ) : EReal) = _
  rw [word_delta, Law.delta_coe]

/-! ## The rewritten adjacency, the degree weight and the scaled adjacency -/

/-- The rewritten adjacency: `adj · (1 − δ) + δ` with the indicator broadcast over the batch. -/
theorem hat_read (adj : SA.Idx → EReal) (b : Fin 8) (n m : Fin 2048) :
    val_main_v13 (F := Ideal) adj (ix3 b n m) = Law.hat adj b n m := by
  have e9 : idx_main_v8 (idx_main_v9 (ix3 b n m)) = ix2 n m :=
    funext fun a => Fin.ext (by match a with | ⟨0, _⟩ => rfl | ⟨1, _⟩ => rfl)
  have e12 : idx_main_v11 (idx_main_v12 (ix3 b n m)) = ix2 n m :=
    funext fun a => Fin.ext (by match a with | ⟨0, _⟩ => rfl | ⟨1, _⟩ => rfl)
  rw [val_main_v13_apply, val_main_v10_apply, val_main_v9_apply, val_main_v8_apply, val_main_v7_apply, val_main_v6_apply,
    val_main_cst_apply, val_main_v12_apply, val_main_v11_apply, e9, e12, delta_read]
  rfl

/-- The reference's degree weight: the rewritten adjacency's row sum from `0.0`, under `1 / (ε + √·)`. -/
theorem degR_read (adj : SA.Idx → EReal) (b : Fin 8) (n : Fin 2048) :
    val_main_v19 (F := Ideal) adj (ix2 b n) = Law.degR adj b n := by
  have e14 : ∀ m : Fin 2048, idx_main_v14 (ix2 b n) m = ix3 b n m := fun m =>
    funext fun a => Fin.ext (by match a with | ⟨0, _⟩ => rfl | ⟨1, _⟩ => rfl | ⟨2, _⟩ => rfl)
  rw [val_main_v19_apply, val_main_v18_apply, val_main_cst_2_apply, val_main_v17_apply, val_main_v16_apply,
    val_main_cst_1_apply, val_main_v15_apply, val_main_v14_apply, val_main_cst_0_apply]
  simp only [e14, hat_read]
  rfl

/-- The adjacency scaled by the row's weight and then by the column's. -/
theorem norm_read (adj : SA.Idx → EReal) (b : Fin 8) (n m : Fin 2048) :
    val_main_v25 (F := Ideal) adj (ix3 b n m) = (Law.hat adj b n m * Law.degR adj b n) * Law.degR adj b m := by
  have e21 : idx_main_v20 (idx_main_v21 (ix3 b n m)) = ix2 b n :=
    funext fun a => Fin.ext (by match a with | ⟨0, _⟩ => rfl | ⟨1, _⟩ => rfl)
  have e24 : idx_main_v23 (idx_main_v24 (ix3 b n m)) = ix2 b m :=
    funext fun a => Fin.ext (by match a with | ⟨0, _⟩ => rfl | ⟨1, _⟩ => rfl)
  rw [val_main_v25_apply, val_main_v22_apply, val_main_v21_apply, val_main_v20_apply, val_main_v24_apply,
    val_main_v23_apply, e21, e24, degR_read, degR_read, hat_read]
  rfl

/-! ## The two contractions and the rectifier -/

/-- The first contraction, over the neighbour within the batch. -/
theorem agg_read (x : SX.Idx → EReal) (adj : SA.Idx → EReal) (b : Fin 8) (n : Fin 2048) (f : Fin 128) :
    val_main_v26 (F := Ideal) x adj (ix3 b n f) = Law.aggR x adj b n f := by
  have el : ∀ m : Fin 2048, lidx_main_v26 (ix3 b n f) m = ix3 b n m := fun m =>
    funext fun a => Fin.ext (by match a with | ⟨0, _⟩ => rfl | ⟨1, _⟩ => rfl | ⟨2, _⟩ => rfl)
  have er : ∀ m : Fin 2048, ridx_main_v26 (ix3 b n f) m = ix3 b m f := fun m =>
    funext fun a => Fin.ext (by match a with | ⟨0, _⟩ => rfl | ⟨1, _⟩ => rfl | ⟨2, _⟩ => rfl)
  rw [val_main_v26_apply]
  simp only [el, er, norm_read]
  rfl

/-- The second contraction, over the feature. -/
theorem proj_read (x : SX.Idx → EReal) (adj : SA.Idx → EReal) (k : SK.Idx → EReal) (b : Fin 8) (n : Fin 2048)
    (o : Fin 128) :
    val_main_v27 (F := Ideal) x adj k (ix3 b n o) = ∑ f : Fin 128, Law.aggR x adj b n f * k (ix2 f o) := by
  have el : ∀ f : Fin 128, lidx_main_v27 (ix3 b n o) f = ix3 b n f := fun f =>
    funext fun a => Fin.ext (by match a with | ⟨0, _⟩ => rfl | ⟨1, _⟩ => rfl | ⟨2, _⟩ => rfl)
  have er : ∀ f : Fin 128, ridx_main_v27 (ix3 b n o) f = ix2 f o := fun f =>
    funext fun a => Fin.ext (by match a with | ⟨0, _⟩ => rfl | ⟨1, _⟩ => rfl)
  rw [val_main_v27_apply]
  simp only [el, er, agg_read]

/-- The reference's last stage is its arrangement `Law.GR`, for any extended reals. -/
theorem val_eq_GR (x : SX.Idx → EReal) (adj : SA.Idx → EReal) (k : SK.Idx → EReal) :
    val_main_v28 (F := Ideal) x adj k = Law.GR x adj k := by
  funext i
  obtain ⟨b, n, o, rfl⟩ : ∃ (b : Fin 8) (n : Fin 2048) (o : Fin 128), i = ix3 b n o := ⟨i 0, i 1, i 2, eq_ix3 i⟩
  rw [val_main_v28_apply, val_main_call0_v0_apply, val_main_call0_cst_apply, proj_read]
  rfl

/-- THE REFERENCE IS THE GRAPH CONVOLUTION: over real features and a real adjacency its last stage is `G`. -/
theorem val_eq_G (x : SX.Idx → EReal) (adj : SA.Idx → EReal) (k : SK.Idx → EReal)
    (hx : ∀ i, ∃ r : ℝ, x i = (r : EReal)) (ha : ∀ i, ∃ r : ℝ, adj i = (r : EReal)) :
    val_main_v28 (F := Ideal) x adj k = G x adj k :=
  (val_eq_GR x adj k).trans (Law.GR_eq_G x adj k hx ha)

end Cert.GraphConv.Ref

end
-- ==== Proof.LibSums.lean ====
/-
  General lemmas about sums over index ranges and about finiteness on the extended reals.
-/
import Idealize.ShloMosaic.PureOps.Ideal
import Idealize.ShloMosaic.Lib.ValueIdx
import Mathlib.Algebra.BigOperators.Fin

noncomputable section

open Idealize.ShloMosaic Idealize.ShloMosaic.ValueIdx

namespace Cert.LibSums

open Finset

/-- A sum over the first A*B naturals is the sum of A consecutive stretches of length B: element k = a*B + b. -/
theorem sum_range_mul {M : Type*} [AddCommMonoid M] (g : ℕ → M) (A B : ℕ) :
    ∑ k ∈ range (A * B), g k = ∑ a ∈ range A, ∑ b ∈ range B, g (a * B + b) := by
  induction A with
  | zero => simp
  | succ A ih => rw [Nat.succ_mul, sum_range_add, ih, sum_range_succ]

/-- A rank-1 index set is its one coordinate's range. -/
def idxEquiv1 {n : Nat} : (⟨1, ![n]⟩ : Shape).Idx ≃ Fin n where
  toFun i := i 0
  invFun k := ix1 k
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The f32 word 0x7F800000 is +infinity on the extended reals. -/
theorem ofBits_inf_f32 : Ideal.ofBits .f32 0x7F800000#32 = (⊤ : EReal) := by simp [Ideal.ofBits, Ideal.ieee]

/-- An extended real whose absolute value max(x, -x) is below +infinity is a real number. -/
theorem real_of_abs_lt_top (x : EReal) (h : max x (-x) < (⊤ : EReal)) : ∃ r : ℝ, x = r := by
  induction x using EReal.rec with
  | bot => simp at h
  | top => simp at h
  | coe r => exact ⟨r, rfl⟩

/-- A comparison bit that is 1 says the comparison holds. -/
theorem of_ofBool_decide {p : Prop} [Decidable p] (h : BitVec.ofBool (decide p) = 1#1) : p := by
  by_contra hn
  rw [decide_eq_false hn] at h
  exact absurd h (by decide)

/-- An entry whose "absolute value below the word of +infinity" bit is 1 is a real number: what one element of a
    printed "every float input is finite" precondition says at the extended reals. -/
theorem real_of_finite_bit (x : EReal)
    (e : BitVec.ofBool (decide (max x (-x) < Ideal.ofBits .f32 0x7F800000#32)) = 1#1) : ∃ r : ℝ, x = r :=
  real_of_abs_lt_top x (by have h := of_ofBool_decide e; rwa [ofBits_inf_f32] at h)

end Cert.LibSums

end
-- ==== Proof.Finite.lean ====
/-
  The precondition read back: every entry of the three argument arrays is a real number.

  The printed predicate is, per array, `all(|v| < +∞)` — an `and`-reduction over every index of the comparison of
  `max v (−v)` against the word of `+∞` — and the conjunction of the three. It is all ones exactly when every comparison
  bit is one, and an extended real whose absolute value is below `+∞` is neither infinity: it is a real number.
-/
import proofs.«181684_j29145648070885_2_alg».proof.Pre_finite_inputs
import proofs.«181684_j29145648070885_2_alg».proof.Proof.LibSums
import Idealize.ShloMosaic.Lib.ReduceAll
import Idealize.ShloMosaic.PureOps.Ideal

noncomputable section

namespace Cert.GraphConv.Finite

open Idealize.ShloMosaic Cert.Pre_finite_inputs

/-- The scalar shape has one index. -/
instance : Subsingleton S_.Idx := ⟨fun _ _ => funext fun d => d.elim0⟩

/-- Under the precondition every entry of the features, of the adjacency and of the projection is a real number. -/
theorem real_of_pre [Cert.Pre_finite_inputs.Facts]
    (x : FVec Ideal S8x2048x128 .f32) (adj : FVec Ideal S8x2048x2048 .f32) (k : FVec Ideal S128x128 .f32)
    (h : Cert.Pre_finite_inputs.fn (F := Ideal) x adj k = fun _ => 1#1) :
    (∀ i, ∃ r : ℝ, x i = (r : EReal)) ∧ (∀ i, ∃ r : ℝ, adj i = (r : EReal)) ∧ (∀ i, ∃ r : ℝ, k i = (r : EReal)) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun i => ?_, fun i => ?_⟩
  · exact Cert.LibSums.real_of_finite_bit (x i) (Host.reduce_andi_all _ _ _ _ _ h1 i)
  · exact Cert.LibSums.real_of_finite_bit (adj i) (Host.reduce_andi_all _ _ _ _ _ h2 i)
  · exact Cert.LibSums.real_of_finite_bit (k i) (Host.reduce_andi_all _ _ _ _ _ h3 i)

end Cert.GraphConv.Finite

end
-- ==== Proof.RefClaims.lean ====
/-
  The reference's two claims. It runs to the end, faults nowhere and leaves its three argument arrays unchanged (its
  run, with the result dropped); and, under the precondition — every entry of the arguments a real number —, its result
  array is the graph convolution `Cert.GraphConv.G` of the argument arrays as it found them: the run's last stage is the
  reference's arrangement, and the law joins that to `G` over real features and a real adjacency.
-/
import proofs.«181684_j29145648070885_2_alg».proof.Defs
import proofs.«181684_j29145648070885_2_alg».proof.Proof.Gen.ReferenceIdeal
import proofs.«181684_j29145648070885_2_alg».proof.Proof.Gen.Pre_finite_inputs
import proofs.«181684_j29145648070885_2_alg».proof.Proof.RefRead
import proofs.«181684_j29145648070885_2_alg».proof.Proof.Finite

noncomputable section

namespace Cert.GraphConv.Ref

open Idealize.ShloMosaic Idealize.ShloMosaic.TcCoe Idealize.SL.Sem

/-- The reference runs to the end, nothing faulting, with its arguments unchanged. -/
theorem frame : Cert.frame_ReferenceIdeal := fun m ρ _ =>
  (θ_run Cert.ReferenceIdeal.defs _ _).mono (fun _ h c => (h c).2) (Cert.ReferenceIdeal.Value.run (F := Ideal) m ρ)

/-- From a memory whose features and adjacency hold real numbers only, the reference ends with the graph convolution of
    its arguments in its result array, and the arguments unchanged. -/
theorem run_G_of_real (m' : (ℓ : Loc Cert.ReferenceIdeal.nD Cert.ReferenceIdeal.τ Cert.ReferenceIdeal.sig) → Buf (Elt Ideal) ℓ)
    (ρ' : Dev Cert.ReferenceIdeal.nD → PrngReg)
    (hx : ∀ (c : Dev Cert.ReferenceIdeal.nD) i, ∃ r : ℝ,
      m' ((c.tc : Thread Cert.ReferenceIdeal.nD Cert.ReferenceIdeal.τ).loc Cert.ReferenceIdeal.main_arg0) i = (r : EReal))
    (ha : ∀ (c : Dev Cert.ReferenceIdeal.nD) i, ∃ r : ℝ,
      m' ((c.tc : Thread Cert.ReferenceIdeal.nD Cert.ReferenceIdeal.τ).loc Cert.ReferenceIdeal.main_arg1) i = (r : EReal)) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v28)
        = Cert.GraphConv.G (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) := by
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq]
  exact val_eq_G _ _ _ (hx c) (ha c)

/-- Under the precondition the reference ends with the graph convolution of its arguments in its result array, and the
    arguments unchanged. -/
theorem run_G (m' : (ℓ : Loc Cert.ReferenceIdeal.nD Cert.ReferenceIdeal.τ Cert.ReferenceIdeal.sig) → Buf (Elt Ideal) ℓ)
    (ρ' : Dev Cert.ReferenceIdeal.nD → PrngReg) (hpre : Cert.Pre_ReferenceIdeal m') :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v28)
        = Cert.GraphConv.G (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  run_G_of_real m' ρ' (fun c => (Finite.real_of_pre _ _ _ (hpre c)).1) (fun c => (Finite.real_of_pre _ _ _ (hpre c)).2.1)

end Cert.GraphConv.Ref

end
-- ==== Proof.PreTransfer.lean ====
/-
  The precondition travels along the agreement of the two memories: the reference's arguments are the kernel's, so if
  every entry of the kernel's arguments is finite then so is every entry of the reference's; and, read back, the
  kernel's three argument arrays hold real numbers only.
-/
import proofs.«181684_j29145648070885_2_alg».proof.Defs
import proofs.«181684_j29145648070885_2_alg».proof.Proof.Gen.Pre_finite_inputs
import proofs.«181684_j29145648070885_2_alg».proof.Proof.Finite

noncomputable section

namespace Cert.GraphConv.Ref

open Idealize.ShloMosaic Idealize.SL.Sem

/-- The reference's memory, agreeing with the kernel's on the three arguments, satisfies the precondition when the
    kernel's does. -/
theorem pre_transfer
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.Pre_ReferenceIdeal m' := by
  intro c
  rw [(hagree c).1, (hagree c).2.1, (hagree c).2.2]
  exact hpre c

/-- Under the precondition the kernel's three argument arrays hold real numbers only. -/
theorem kernel_real
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) :=
  Finite.real_of_pre _ _ _ (hpre c)

end Cert.GraphConv.Ref

end
-- ==== Proof.lean ====
/-
  A two-pass graph convolution kernel against its dense reference, on the extended reals.

  With d(b,n) = 1 / (ε + √(Σ_m adj(b,n,m) − adj(b,n,n) + 1)) — the degree weight of node n once its diagonal entry is
  replaced by a self-loop of weight one —, the kernel computes, per batch b, node n and output feature o,
      max(Σ_f [d(b,n) · (Σ_m adj(b,n,m) · (d(b,m) · x(b,m,f)) + (d(b,n) · x(b,n,f)) · (1 − adj(b,n,n)))] · k(f,o), 0)
  in two regions: the first forms the row sums and the diagonal and from them the degree weights; the host scales the
  features by them; the second accumulates the product of the adjacency with the scaled features over two halves of
  the neighbours, corrects the diagonal, scales, projects and rectifies. The reference builds the normalised
  adjacency Â·d(b,n)·d(b,m) with Â = adj·(1 − I) + I and multiplies it into the features and the projection.
  The two agree when every input is a real number: Σ_m Â(b,n,m) = Σ_m adj(b,n,m) − adj(b,n,n) + 1, so the degree weights
  coincide, they are real numbers for every real argument (the square root of a negative is −∞, whose sum with ε is
  −∞, whose reciprocal is 0; otherwise ε + √· is a positive real), and distributing d(b,n) over the sum of neighbours,
  which needs every term finite, turns one arrangement into the other.

  Both kernel programs (at the word level and idealized) run to the end with their arguments unchanged: each region's
  body is run at every grid position, the second region's accumulator carried from one position to the next at its
  contents. The idealized kernel's result is read off that run; the reference's off its own run.
-/
import proofs.«181684_j29145648070885_2_alg».proof.Defs
import proofs.«181684_j29145648070885_2_alg».proof.Proof.Gen.Kernel
import proofs.«181684_j29145648070885_2_alg».proof.Proof.Gen.KernelIdeal
import proofs.«181684_j29145648070885_2_alg».proof.Proof.Gen.ReferenceIdeal
import proofs.«181684_j29145648070885_2_alg».proof.Proof.Gen.Pre_finite_inputs
import proofs.«181684_j29145648070885_2_alg».proof.Proof.ArgsKeptK
import proofs.«181684_j29145648070885_2_alg».proof.Proof.ArgsKept
import proofs.«181684_j29145648070885_2_alg».proof.Proof.KernelG
import proofs.«181684_j29145648070885_2_alg».proof.Proof.RefClaims
import proofs.«181684_j29145648070885_2_alg».proof.Proof.PreTransfer

noncomputable section

namespace Cert.Proof

open Idealize.ShloMosaic Idealize.SL.Sem

/-- The idealized kernel's run with its result named: the graph convolution of the launch memory's arguments; the
    arguments end unchanged. -/
theorem kernel_run_G (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v5) = Cert.GraphConv.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run (Cert.KernelIdeal.defs (F := Ideal)) _ _).mono (fun r h c =>
    ⟨(h c _ (Cert.KernelIdeal.Hand.mem_uc Cert.KernelIdeal.main_v5 (by decide))).trans (Cert.KernelIdeal.Hand.out_is_G m ρ c),
     (h c _ (Cert.KernelIdeal.Hand.mem_uc Cert.KernelIdeal.main_arg0 (by decide))).trans (Cert.KernelIdeal.Hand.W3_main_arg0 m ρ c),
     (h c _ (Cert.KernelIdeal.Hand.mem_uc Cert.KernelIdeal.main_arg1 (by decide))).trans (Cert.KernelIdeal.Hand.W3_main_arg1 m ρ c),
     (h c _ (Cert.KernelIdeal.Hand.mem_uc Cert.KernelIdeal.main_arg2 (by decide))).trans (Cert.KernelIdeal.Hand.W3_main_arg2 m ρ c)⟩)
    (Cert.KernelIdeal.Hand.run_all (F := Ideal) m ρ)

theorem claim : Cert.Claim := ⟨Cert.Kernel.Gen.facts, Cert.KernelIdeal.Gen.facts, Cert.ReferenceIdeal.Gen.facts, Cert.Pre_finite_inputs.Gen.facts,
  fun m ρ _ => Cert.Kernel.Hand.frame_args m ρ,
  fun m ρ _ => Cert.KernelIdeal.Hand.frame_args m ρ,
  Cert.GraphConv.Ref.frame,
  trivial,
  fun m ρ m' ρ' hpre hagree =>
    ⟨fun c => Cert.GraphConv.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
     kernel_run_G m ρ,
     (θ_run (Cert.ReferenceIdeal.defs (F := Ideal)) _ _).mono (fun r h c =>
        ⟨by rw [(h c).1, (hagree c).1, (hagree c).2.1, (hagree c).2.2], (h c).2⟩)
       (Cert.GraphConv.Ref.run_G m' ρ' (Cert.GraphConv.Ref.pre_transfer m m' hpre hagree))⟩⟩

end Cert.Proof

end
